-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000 : Shape := ⟨1, ![400000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S192x64 : Shape := ⟨2, ![192, 64]⟩
abbrev S256x64 : Shape := ⟨2, ![256, 64]⟩
abbrev S512x64 : Shape := ⟨2, ![512, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S192x64 : S_.BroadcastsInDim S192x64 (![] : Fin 0 → Fin S192x64.rank)
  reducesTo_S192x64_S_d0_1 : S192x64.ReducesTo [0, 1] S_
  bcast_S_S256x64 : S_.BroadcastsInDim S256x64 (![] : Fin 0 → Fin S256x64.rank)
  reducesTo_S256x64_S_d0_1 : S256x64.ReducesTo [0, 1] S_
  bcast_S_S512x64 : S_.BroadcastsInDim S512x64 (![] : Fin 0 → Fin S512x64.rank)
  reducesTo_S512x64_S_d0_1 : S512x64.ReducesTo [0, 1] S_

variable [Facts]

def fn_part3 {F : FTy → Type} [FloatOps F] (main_arg13 : FVec F S512x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S512x64 .f32 := Host.absf main_arg13
  let main_cst_20 : FVec F S_ .f32 := constant S_ .f32 0x7F800000#32
  let main_v55 : FVec F S512x64 .f32 := broadcastInDim S512x64 ![] bcast_S_S512x64 main_cst_20
  let main_v56 : IVec S512x64 1 := cmpf .olt main_v54 main_v55
  let main_c_21 : IVec S_ 1 := constantI S_ 1 1#1
  let main_v57 : IVec S_ 1 := (fun x v => Host.reduce IntOp.andi x v reducesTo_S512x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S128x64 .f32) (main_arg10 : FVec F S64 .f32) (main_arg11 : FVec F S256x64 .f32) (main_arg12 : FVec F S64 .f32) (main_arg13 : FVec F S512x64 .f32) (main_arg14 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S256x64 .f32 := Host.absf main_arg11
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S1 .f32) (main_arg7 : FVec F S192x64 .f32) (main_arg8 : FVec F S64 .f32) (main_arg9 : FVec F S128x64 .f32) (main_arg10 : FVec F S64 .f32) (main_arg11 : FVec F S256x64 .f32) (main_arg12 : FVec F S64 .f32) (main_arg13 : FVec F S512x64 .f32) (main_arg14 : FVec F S64 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S192x64 .f32 := Host.absf main_arg7
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S400000 32) (main_arg2 : IVec S400000 32) (main_arg3 : FVec F S128x64 .f32) (main_arg4 : FVec F S64 .f32) (main_arg5 : FVec F S128x1 .f32) (main_arg6 : FVec F S1 .f32) (main_arg7 : FVec F S192x64 .f32) (main_arg8 : FVec F S64 .f32) (main_arg9 : FVec F S128x64 .f32) (main_arg10 : FVec F S64 .f32) (main_arg11 : FVec F S256x64 .f32) (main_arg12 : FVec F S64 .f32) (main_arg13 : FVec F S512x64 .f32) (main_arg14 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S400000 : Shape := ⟨1, ![400000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S192x64 : Shape := ⟨2, ![192, 64]⟩
abbrev S256x64 : Shape := ⟨2, ![256, 64]⟩
abbrev S512x64 : Shape := ⟨2, ![512, 64]⟩
abbrev S_ : Shape := ⟨0, ![]⟩
abbrev S50000 : Shape := ⟨1, ![50000]⟩
abbrev S400000x1 : Shape := ⟨2, ![400000, 1]⟩
abbrev S1x64 : Shape := ⟨2, ![1, 64]⟩
abbrev S50000x64 : Shape := ⟨2, ![50000, 64]⟩
abbrev S2000x128 : Shape := ⟨2, ![2000, 128]⟩
abbrev S2000x64 : Shape := ⟨2, ![2000, 64]⟩
abbrev S400000x64 : Shape := ⟨2, ![400000, 64]⟩
abbrev S50000x1 : Shape := ⟨2, ![50000, 1]⟩
abbrev S400000x128 : Shape := ⟨2, ![400000, 128]⟩
abbrev S50000x256 : Shape := ⟨2, ![50000, 256]⟩
abbrev S400000x256 : Shape := ⟨2, ![400000, 256]⟩
abbrev S50000x512 : Shape := ⟨2, ![50000, 512]⟩
abbrev S1x128 : Shape := ⟨2, ![1, 128]⟩
abbrev S1x1 : Shape := ⟨2, ![1, 1]⟩
abbrev S2000x256 : Shape := ⟨2, ![2000, 256]⟩
abbrev S2000x512 : Shape := ⟨2, ![2000, 512]⟩
abbrev S2000 : Shape := ⟨1, ![2000]⟩
abbrev S2000x1 : Shape := ⟨2, ![2000, 1]⟩
abbrev S2000x2 : Shape := ⟨2, ![2000, 2]⟩
abbrev S2000x3 : Shape := ⟨2, ![2000, 3]⟩
abbrev S2000x192 : Shape := ⟨2, ![2000, 192]⟩

abbrev nBuf : Space → Nat
  | .hbm => 135
  | .vmem => 26
  | .smem => 0
  | _ => 0

abbrev hbmTy0_0 (i : Nat) : BufTy := match i % 128 with
  | 0 => ⟨S50000x128, .f32⟩
  | 1 => ⟨S400000, .i32⟩
  | 2 => ⟨S400000, .i32⟩
  | 3 => ⟨S128x64, .f32⟩
  | 4 => ⟨S64, .f32⟩
  | 5 => ⟨S128x1, .f32⟩
  | 6 => ⟨S1, .f32⟩
  | 7 => ⟨S192x64, .f32⟩
  | 8 => ⟨S64, .f32⟩
  | 9 => ⟨S128x64, .f32⟩
  | 10 => ⟨S64, .f32⟩
  | 11 => ⟨S256x64, .f32⟩
  | 12 => ⟨S64, .f32⟩
  | 13 => ⟨S512x64, .f32⟩
  | 14 => ⟨S64, .f32⟩
  | 15 => ⟨S_, .f32⟩
  | 16 => ⟨S400000, .f32⟩
  | 17 => ⟨S_, .f32⟩
  | 18 => ⟨S50000, .f32⟩
  | 19 => ⟨S400000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S1x64, .f32⟩
  | 28 => ⟨S50000x64, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x64, .f32⟩
  | 38 => ⟨S_, .f32⟩
  | 39 => ⟨S50000x64, .f32⟩
  | 40 => ⟨S400000x1, .i32⟩
  | 41 => ⟨S50000x64, .f32⟩
  | 42 => ⟨S50000x1, .f32⟩
  | 43 => ⟨S50000x64, .f32⟩
  | 44 => ⟨S50000x64, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x64, .f32⟩
  | 54 => ⟨S_, .f32⟩
  | 55 => ⟨S50000x64, .f32⟩
  | 56 => ⟨S400000x1, .i32⟩
  | 57 => ⟨S50000x64, .f32⟩
  | 58 => ⟨S50000x1, .f32⟩
  | 59 => ⟨S50000x64, .f32⟩
  | 60 => ⟨S50000x64, .f32⟩
  | 61 => ⟨S50000x128, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x128, .f32⟩
  | 71 => ⟨S_, .f32⟩
  | 72 => ⟨S50000x128, .f32⟩
  | 73 => ⟨S400000x1, .i32⟩
  | 74 => ⟨S50000x128, .f32⟩
  | 75 => ⟨S50000x1, .f32⟩
  | 76 => ⟨S50000x128, .f32⟩
  | 77 => ⟨S50000x128, .f32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S400000x128, .f32⟩
  | 87 => ⟨S_, .f32⟩
  | 88 => ⟨S50000x128, .f32⟩
  | 89 => ⟨S400000x1, .i32⟩
  | 90 => ⟨S50000x128, .f32⟩
  | 91 => ⟨S50000x1, .f32⟩
  | 92 => ⟨S50000x128, .f32⟩
  | 93 => ⟨S50000x128, .f32⟩
  | 94 => ⟨S50000x256, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000x256, .f32⟩
  | 104 => ⟨S_, .f32⟩
  | 105 => ⟨S50000x256, .f32⟩
  | 106 => ⟨S400000x1, .i32⟩
  | 107 => ⟨S50000x256, .f32⟩
  | 108 => ⟨S50000x1, .f32⟩
  | 109 => ⟨S50000x256, .f32⟩
  | 110 => ⟨S50000x256, .f32⟩
  | 111 => ⟨S_, .i32⟩
  | 112 => ⟨S400000, .i32⟩
  | 113 => ⟨S400000, .i1⟩
  | 114 => ⟨S_, .i32⟩
  | 115 => ⟨S400000, .i32⟩
  | 116 => ⟨S400000, .i32⟩
  | 117 => ⟨S400000, .i32⟩
  | 118 => ⟨S400000x1, .i32⟩
  | 119 => ⟨S400000x256, .f32⟩
  | 120 => ⟨S_, .f32⟩
  | 121 => ⟨S50000x256, .f32⟩
  | 122 => ⟨S400000x1, .i32⟩
  | 123 => ⟨S50000x256, .f32⟩
  | 124 => ⟨S50000x1, .f32⟩
  | 125 => ⟨S50000x256, .f32⟩
  | 126 => ⟨S50000x256, .f32⟩
  | 127 => ⟨S50000x512, .f32⟩
  | _ => ⟨S50000x128, .f32⟩

abbrev hbmTy0_1 (i : Nat) : BufTy := match i % 128 with
  | 0 => ⟨S1x128, .f32⟩
  | 1 => ⟨S1x1, .f32⟩
  | 2 => ⟨S1x64, .f32⟩
  | 3 => ⟨S1x64, .f32⟩
  | 4 => ⟨S1x64, .f32⟩
  | 5 => ⟨S1x64, .f32⟩
  | 6 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x128, .f32⟩
  | .local _ .vmem, ⟨7, _⟩ => ⟨S2000x128, .f32⟩
  | .local _ .vmem, ⟨8, _⟩ => ⟨S2000x256, .f32⟩
  | .local _ .vmem, ⟨9, _⟩ => ⟨S2000x256, .f32⟩
  | .local _ .vmem, ⟨10, _⟩ => ⟨S2000x512, .f32⟩
  | .local _ .vmem, ⟨11, _⟩ => ⟨S2000x512, .f32⟩
  | .local _ .vmem, ⟨12, _⟩ => ⟨S2000x64, .f32⟩
  | .local _ .vmem, ⟨13, _⟩ => ⟨S2000x64, .f32⟩
  | .local _ .vmem, ⟨14, _⟩ => ⟨S128x64, .f32⟩
  | .local _ .vmem, ⟨15, _⟩ => ⟨S1x64, .f32⟩
  | .local _ .vmem, ⟨16, _⟩ => ⟨S256x64, .f32⟩
  | .local _ .vmem, ⟨17, _⟩ => ⟨S1x64, .f32⟩
  | .local _ .vmem, ⟨18, _⟩ => ⟨S512x64, .f32⟩
  | .local _ .vmem, ⟨19, _⟩ => ⟨S1x64, .f32⟩
  | .local _ .vmem, ⟨20, _⟩ => ⟨S1x128, .f32⟩
  | .local _ .vmem, ⟨21, _⟩ => ⟨S1x1, .f32⟩
  | .local _ .vmem, ⟨22, _⟩ => ⟨S192x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_11 : Ref sig .tc := ⟨.hbm, 78, rfl⟩
abbrev main_v50 : Ref sig .tc := ⟨.hbm, 79, rfl⟩
abbrev main_v51 : Ref sig .tc := ⟨.hbm, 80, rfl⟩
abbrev main_c_12 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_17 : Ref sig .tc := ⟨.hbm, 111, rfl⟩
abbrev main_v77 : Ref sig .tc := ⟨.hbm, 112, rfl⟩
abbrev main_v78 : Ref sig .tc := ⟨.hbm, 113, rfl⟩
abbrev main_c_18 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_19 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24
abbrev cc1_sem14_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S192x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  shapeCasts_S128x1_S1x128 : S128x1.ShapeCasts S1x128
  shapeCasts_S1_S1x1 : S1.ShapeCasts S1x1
  shapeCasts_S2000x128_S2000x128 : S2000x128.ShapeCasts S2000x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  shapeCasts_S2000x64_S2000x64 : S2000x64.ShapeCasts S2000x64
  inb_S256x64_S256x64_0_0 : ∀ a, (![0, 0] : Fin 2 → Nat) a + S256x64.size a ≤ S256x64.size a
  h_S256x64 : 0 < S256x64.numel
  inb_S512x64_S512x64_0_0 : ∀ a, (![0, 0] : Fin 2 → Nat) a + S512x64.size a ≤ S512x64.size a
  h_S512x64 : 0 < S512x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  concatenates_S2000x64_S2000x64_S2000x128_d1 : Shape.Concatenates [S2000x64, S2000x64] S2000x128 1
  broadcasts_S1x128_S2000x128 : S1x128.Broadcasts S2000x128
  reduces_S2000x128_S2000 : S2000x128.Reduces [1] S2000
  shapeCasts_S2000_S2000x1 : S2000.ShapeCasts S2000x1
  broadcasts_S1x1_S2000x1 : S1x1.Broadcasts S2000x1
  concatenates_S2000x1_S2000x1_S2000x2_d1 : Shape.Concatenates [S2000x1, S2000x1] S2000x2 1
  reduces_S2000x2_S2000 : S2000x2.Reduces [1] S2000
  broadcasts_S2000x1_S2000x2 : S2000x1.Broadcasts S2000x2
  slices_S2000x2_o0_0_S2000x1 : S2000x2.Slices ![0, 0] S2000x1
  broadcasts_S2000x1_S2000x64 : S2000x1.Broadcasts S2000x64
  slices_S2000x2_o0_1_S2000x1 : S2000x2.Slices ![0, 1] S2000x1
  concatenates_S2000x1_S2000x1_S2000x1_S2000x3_d1 : Shape.Concatenates [S2000x1, S2000x1, S2000x1] S2000x3 1
  reduces_S2000x3_S2000 : S2000x3.Reduces [1] S2000
  broadcasts_S2000x1_S2000x3 : S2000x1.Broadcasts S2000x3
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  concatenates_S2000x64_S2000x64_S2000x64_S2000x192_d1 : Shape.Concatenates [S2000x64, S2000x64, S2000x64] S2000x192 1
  inb_S192x64_S192x64_0_0 : ∀ a, (![0, 0] : Fin 2 → Nat) a + S192x64.size a ≤ S192x64.size a
  h_S192x64 : 0 < S192x64.numel
  reduces_S2000x64_S2000 : S2000x64.Reduces [1] S2000
  scatter_S50000_S400000x1_S400000_n_0_0_1_wf : ScatterDims.WF S50000 S400000x1 S400000 [] [0] [0] 1
  dot_S2000x128_S128x64_S2000x64_1_0_0_1_n_n_wf : DotDims.WF S2000x128 S128x64 S2000x64 [1] [0] [0] [1] [] []
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x64_S2000x64_1_0_0_1_n_n_wf : DotDims.WF S2000x256 S256x64 S2000x64 [1] [0] [0] [1] [] []
  dot_S2000x512_S512x64_S2000x64_1_0_0_1_n_n_wf : DotDims.WF S2000x512 S512x64 S2000x64 [1] [0] [0] [1] [] []
  dot_S2000x192_S192x64_S2000x64_1_0_0_1_n_n_wf : DotDims.WF S2000x192 S192x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x64.size a ≤ S256x64.size a
  hwx1_6 : ∀ i : grid1.Coords, EltTy.bits .f32 = 32 ∨ (Rect.block (s := S256x64) S256x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x64.size a ≤ S512x64.size a
  hwx1_8 : ∀ i : grid1.Coords, EltTy.bits .f32 = 32 ∨ (Rect.block (s := S512x64) S512x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S192x64.size a ≤ S192x64.size a
  hwx1_12 : ∀ i : grid1.Coords, EltTy.bits .f32 = 32 ∨ (Rect.block (s := S192x64) S192x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x64.size a ≤ S50000x64.size a
  hwx1_14 : ∀ i : grid1.Coords, EltTy.bits .f32 = 32 ∨ (Rect.block (s := S50000x64) S2000x64.size (cc1_transform_14 i) (hinb1_14 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def dot_S2000x192_S192x64_S2000x64_1_0_0_1_n_n : DotDims S2000x192 S192x64 S2000x64 where
  lhsContracting := [1]
  rhsContracting := [0]
  lhsNonContracting := [0]
  rhsNonContracting := [1]
  lhsBatch := []
  rhsBatch := []
  wf := dot_S2000x192_S192x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v90) S2000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v93) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S256x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v94) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S512x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v95) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v91) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v92) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg7) S192x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v96) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v97) S2000x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S50000x128 : Shape := ⟨2, ![50000, 128]⟩
abbrev S400000 : Shape := ⟨1, ![400000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S192x64 : Shape := ⟨2, ![192, 64]⟩
abbrev S256x64 : Shape := ⟨2, ![256, 64]⟩
abbrev S512x64 : Shape := ⟨2, ![512, 64]⟩
abbrev S_ : Shape := ⟨0, ![]⟩
abbrev S50000 : Shape := ⟨1, ![50000]⟩
abbrev S400000x1 : Shape := ⟨2, ![400000, 1]⟩
abbrev S50000x64 : Shape := ⟨2, ![50000, 64]⟩
abbrev S1x64 : Shape := ⟨2, ![1, 64]⟩
abbrev S400000x64 : Shape := ⟨2, ![400000, 64]⟩
abbrev S50000x1 : Shape := ⟨2, ![50000, 1]⟩
abbrev S400000x128 : Shape := ⟨2, ![400000, 128]⟩
abbrev S50000x256 : Shape := ⟨2, ![50000, 256]⟩
abbrev S400000x256 : Shape := ⟨2, ![400000, 256]⟩
abbrev S50000x512 : Shape := ⟨2, ![50000, 512]⟩
abbrev S1x1 : Shape := ⟨2, ![1, 1]⟩
abbrev S50000x2 : Shape := ⟨2, ![50000, 2]⟩
abbrev S50000x3 : Shape := ⟨2, ![50000, 3]⟩
abbrev S50000x192 : Shape := ⟨2, ![50000, 192]⟩

abbrev nBuf : Space → Nat
  | .hbm => 279
  | .vmem => 0
  | .smem => 0
  | _ => 0

abbrev hbmTy0_0 (i : Nat) : BufTy := match i % 128 with
  | 0 => ⟨S50000x128, .f32⟩
  | 1 => ⟨S400000, .i32⟩
  | 2 => ⟨S400000, .i32⟩
  | 3 => ⟨S128x64, .f32⟩
  | 4 => ⟨S64, .f32⟩
  | 5 => ⟨S128x1, .f32⟩
  | 6 => ⟨S1, .f32⟩
  | 7 => ⟨S192x64, .f32⟩
  | 8 => ⟨S64, .f32⟩
  | 9 => ⟨S128x64, .f32⟩
  | 10 => ⟨S64, .f32⟩
  | 11 => ⟨S256x64, .f32⟩
  | 12 => ⟨S64, .f32⟩
  | 13 => ⟨S512x64, .f32⟩
  | 14 => ⟨S64, .f32⟩
  | 15 => ⟨S_, .f32⟩
  | 16 => ⟨S400000, .f32⟩
  | 17 => ⟨S_, .f32⟩
  | 18 => ⟨S50000, .f32⟩
  | 19 => ⟨S400000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x64, .f32⟩
  | 43 => ⟨S_, .f32⟩
  | 44 => ⟨S50000x64, .f32⟩
  | 45 => ⟨S400000x1, .i32⟩
  | 46 => ⟨S50000x64, .f32⟩
  | 47 => ⟨S50000x1, .f32⟩
  | 48 => ⟨S50000x64, .f32⟩
  | 49 => ⟨S50000x64, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000x64, .f32⟩
  | 59 => ⟨S_, .f32⟩
  | 60 => ⟨S50000x64, .f32⟩
  | 61 => ⟨S400000x1, .i32⟩
  | 62 => ⟨S50000x64, .f32⟩
  | 63 => ⟨S50000x1, .f32⟩
  | 64 => ⟨S50000x64, .f32⟩
  | 65 => ⟨S50000x64, .f32⟩
  | 66 => ⟨S50000x128, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000x128, .f32⟩
  | 83 => ⟨S_, .f32⟩
  | 84 => ⟨S50000x128, .f32⟩
  | 85 => ⟨S400000x1, .i32⟩
  | 86 => ⟨S50000x128, .f32⟩
  | 87 => ⟨S50000x1, .f32⟩
  | 88 => ⟨S50000x128, .f32⟩
  | 89 => ⟨S50000x128, .f32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000x128, .f32⟩
  | 99 => ⟨S_, .f32⟩
  | 100 => ⟨S50000x128, .f32⟩
  | 101 => ⟨S400000x1, .i32⟩
  | 102 => ⟨S50000x128, .f32⟩
  | 103 => ⟨S50000x1, .f32⟩
  | 104 => ⟨S50000x128, .f32⟩
  | 105 => ⟨S50000x128, .f32⟩
  | 106 => ⟨S50000x256, .f32⟩
  | 107 => ⟨S50000x64, .f32⟩
  | 108 => ⟨S1x64, .f32⟩
  | 109 => ⟨S50000x64, .f32⟩
  | 110 => ⟨S50000x64, .f32⟩
  | 111 => ⟨S_, .f32⟩
  | 112 => ⟨S50000x64, .f32⟩
  | 113 => ⟨S50000x64, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x256, .f32⟩
  | 123 => ⟨S_, .f32⟩
  | 124 => ⟨S50000x256, .f32⟩
  | 125 => ⟨S400000x1, .i32⟩
  | 126 => ⟨S50000x256, .f32⟩
  | 127 => ⟨S50000x1, .f32⟩
  | _ => ⟨S50000x128, .f32⟩

abbrev hbmTy0_1 (i : Nat) : BufTy := match i % 128 with
  | 0 => ⟨S50000x256, .f32⟩
  | 1 => ⟨S50000x256, .f32⟩
  | 2 => ⟨S_, .i32⟩
  | 3 => ⟨S400000, .i32⟩
  | 4 => ⟨S400000, .i1⟩
  | 5 => ⟨S_, .i32⟩
  | 6 => ⟨S400000, .i32⟩
  | 7 => ⟨S400000, .i32⟩
  | 8 => ⟨S400000, .i32⟩
  | 9 => ⟨S400000x1, .i32⟩
  | 10 => ⟨S400000x256, .f32⟩
  | 11 => ⟨S_, .f32⟩
  | 12 => ⟨S50000x256, .f32⟩
  | 13 => ⟨S400000x1, .i32⟩
  | 14 => ⟨S50000x256, .f32⟩
  | 15 => ⟨S50000x1, .f32⟩
  | 16 => ⟨S50000x256, .f32⟩
  | 17 => ⟨S50000x256, .f32⟩
  | 18 => ⟨S50000x512, .f32⟩
  | 19 => ⟨S50000x64, .f32⟩
  | 20 => ⟨S1x64, .f32⟩
  | 21 => ⟨S50000x64, .f32⟩
  | 22 => ⟨S50000x64, .f32⟩
  | 23 => ⟨S_, .f32⟩
  | 24 => ⟨S50000x64, .f32⟩
  | 25 => ⟨S50000x64, .f32⟩
  | 26 => ⟨S50000x128, .f32⟩
  | 27 => ⟨S50000x1, .f32⟩
  | 28 => ⟨S1x1, .f32⟩
  | 29 => ⟨S50000x1, .f32⟩
  | 30 => ⟨S50000x1, .f32⟩
  | 31 => ⟨S50000x1, .f32⟩
  | 32 => ⟨S50000x1, .f32⟩
  | 33 => ⟨S_, .f32⟩
  | 34 => ⟨S50000x1, .f32⟩
  | 35 => ⟨S50000x1, .f32⟩
  | 36 => ⟨S_, .f32⟩
  | 37 => ⟨S50000x1, .f32⟩
  | 38 => ⟨S50000x1, .f32⟩
  | 39 => ⟨S_, .f32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x1, .f32⟩
  | 46 => ⟨S50000x1, .f32⟩
  | 47 => ⟨S_, .f32⟩
  | 48 => ⟨S50000, .f32⟩
  | 49 => ⟨S50000x1, .f32⟩
  | 50 => ⟨S50000x1, .f32⟩
  | 51 => ⟨S50000x64, .f32⟩
  | 52 => ⟨S50000x64, .f32⟩
  | 53 => ⟨S_, .f32⟩
  | 54 => ⟨S50000x64, .f32⟩
  | 55 => ⟨S50000x64, .f32⟩
  | 56 => ⟨S50000x128, .f32⟩
  | 57 => ⟨S50000x1, .f32⟩
  | 58 => ⟨S1x1, .f32⟩
  | 59 => ⟨S50000x1, .f32⟩
  | 60 => ⟨S50000x1, .f32⟩
  | 61 => ⟨S50000x1, .f32⟩
  | 62 => ⟨S50000x1, .f32⟩
  | 63 => ⟨S_, .f32⟩
  | 64 => ⟨S50000x1, .f32⟩
  | 65 => ⟨S50000x1, .f32⟩
  | 66 => ⟨S_, .f32⟩
  | 67 => ⟨S50000x1, .f32⟩
  | 68 => ⟨S50000x1, .f32⟩
  | 69 => ⟨S50000x2, .f32⟩
  | 70 => ⟨S_, .f32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x2, .f32⟩
  | 77 => ⟨S50000x2, .f32⟩
  | 78 => ⟨S50000x2, .f32⟩
  | 79 => ⟨S_, .f32⟩
  | 80 => ⟨S50000, .f32⟩
  | 81 => ⟨S50000x1, .f32⟩
  | 82 => ⟨S50000x2, .f32⟩
  | 83 => ⟨S50000x2, .f32⟩
  | 84 => ⟨S50000x1, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S50000x1, .f32⟩
  | 91 => ⟨S50000x64, .f32⟩
  | 92 => ⟨S50000x64, .f32⟩
  | 93 => ⟨S50000x64, .f32⟩
  | 94 => ⟨S50000x128, .f32⟩
  | 95 => ⟨S50000x1, .f32⟩
  | 96 => ⟨S1x1, .f32⟩
  | 97 => ⟨S50000x1, .f32⟩
  | 98 => ⟨S50000x1, .f32⟩
  | 99 => ⟨S50000x1, .f32⟩
  | 100 => ⟨S50000x1, .f32⟩
  | 101 => ⟨S_, .f32⟩
  | 102 => ⟨S50000x1, .f32⟩
  | 103 => ⟨S50000x1, .f32⟩
  | 104 => ⟨S_, .f32⟩
  | 105 => ⟨S50000x1, .f32⟩
  | 106 => ⟨S50000x1, .f32⟩
  | 107 => ⟨S50000x3, .f32⟩
  | 108 => ⟨S_, .f32⟩
  | 109 => ⟨S50000, .f32⟩
  | 110 => ⟨S_, .f32⟩
  | 111 => ⟨S50000, .f32⟩
  | 112 => ⟨S50000, .f32⟩
  | 113 => ⟨S50000x1, .f32⟩
  | 114 => ⟨S50000x3, .f32⟩
  | 115 => ⟨S50000x3, .f32⟩
  | 116 => ⟨S50000x3, .f32⟩
  | 117 => ⟨S_, .f32⟩
  | 118 => ⟨S50000, .f32⟩
  | 119 => ⟨S50000x1, .f32⟩
  | 120 => ⟨S50000x3, .f32⟩
  | 121 => ⟨S50000x3, .f32⟩
  | 122 => ⟨S50000x1, .f32⟩
  | 123 => ⟨S50000x64, .f32⟩
  | 124 => ⟨S50000x64, .f32⟩
  | 125 => ⟨S50000x1, .f32⟩
  | 126 => ⟨S50000x64, .f32⟩
  | 127 => ⟨S50000x64, .f32⟩
  | _ => ⟨S50000x128, .f32⟩

abbrev hbmTy0_2 (i : Nat) : BufTy := match i % 128 with
  | 0 => ⟨S50000x1, .f32⟩
  | 1 => ⟨S50000x64, .f32⟩
  | 2 => ⟨S50000x64, .f32⟩
  | 3 => ⟨S50000x192, .f32⟩
  | 4 => ⟨S50000x64, .f32⟩
  | 5 => ⟨S1x64, .f32⟩
  | 6 => ⟨S50000x64, .f32⟩
  | 7 => ⟨S50000x64, .f32⟩
  | 8 => ⟨S_, .f32⟩
  | 9 => ⟨S50000, .f32⟩
  | 10 => ⟨S_, .f32⟩
  | 11 => ⟨S50000, .f32⟩
  | 12 => ⟨S50000, .f32⟩
  | 13 => ⟨S50000x1, .f32⟩
  | 14 => ⟨S50000x64, .f32⟩
  | 15 => ⟨S50000x64, .f32⟩
  | 16 => ⟨S50000x64, .f32⟩
  | 17 => ⟨S_, .f32⟩
  | 18 => ⟨S50000, .f32⟩
  | 19 => ⟨S50000x1, .f32⟩
  | 20 => ⟨S50000x1, .f32⟩
  | 21 => ⟨S50000x64, .f32⟩
  | 22 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call0_cst : Ref sig .tc := ⟨.hbm, 31, rfl⟩
abbrev main_call0_v0 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call1_cst : Ref sig .tc := ⟨.hbm, 71, rfl⟩
abbrev main_call1_v0 : Ref sig .tc := ⟨.hbm, 72, rfl⟩
abbrev main_v44 : Ref sig .tc := ⟨.hbm, 73, rfl⟩
abbrev main_c_8 : Ref sig .tc := ⟨.hbm, 74, rfl⟩
abbrev main_v45 : Ref sig .tc := ⟨.hbm, 75, rfl⟩
abbrev main_v46 : Ref sig .tc := ⟨.hbm, 76, rfl⟩
abbrev main_c_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_11 : Ref sig .tc := ⟨.hbm, 90, rfl⟩
abbrev main_v58 : Ref sig .tc := ⟨.hbm, 91, rfl⟩
abbrev main_v59 : Ref sig .tc := ⟨.hbm, 92, rfl⟩
abbrev main_c_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call2_cst : Ref sig .tc := ⟨.hbm, 111, rfl⟩
abbrev main_call2_v0 : Ref sig .tc := ⟨.hbm, 112, rfl⟩
abbrev main_v76 : Ref sig .tc := ⟨.hbm, 113, rfl⟩
abbrev main_c_14 : Ref sig .tc := ⟨.hbm, 114, rfl⟩
abbrev main_v77 : Ref sig .tc := ⟨.hbm, 115, rfl⟩
abbrev main_v78 : Ref sig .tc := ⟨.hbm, 116, rfl⟩
abbrev main_c_15 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_16 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_17 : Ref sig .tc := ⟨.hbm, 130, rfl⟩
abbrev main_v90 : Ref sig .tc := ⟨.hbm, 131, rfl⟩
abbrev main_v91 : Ref sig .tc := ⟨.hbm, 132, rfl⟩
abbrev main_c_18 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_19 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_call3_cst : Ref sig .tc := ⟨.hbm, 151, rfl⟩
abbrev main_call3_v0 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_20 : Ref sig .tc := ⟨.hbm, 161, rfl⟩
abbrev main_v116 : Ref sig .tc := ⟨.hbm, 162, rfl⟩
abbrev main_v117 : Ref sig .tc := ⟨.hbm, 163, rfl⟩
abbrev main_cst_21 : Ref sig .tc := ⟨.hbm, 164, rfl⟩
abbrev main_v118 : Ref sig .tc := ⟨.hbm, 165, rfl⟩
abbrev main_v119 : Ref sig .tc := ⟨.hbm, 166, rfl⟩
abbrev main_cst_22 : Ref sig .tc := ⟨.hbm, 167, rfl⟩
abbrev main_v120 : Ref sig .tc := ⟨.hbm, 168, rfl⟩
abbrev main_cst_23 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_24 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_25 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_26 : Ref sig .tc := ⟨.hbm, 191, rfl⟩
abbrev main_v140 : Ref sig .tc := ⟨.hbm, 192, rfl⟩
abbrev main_v141 : Ref sig .tc := ⟨.hbm, 193, rfl⟩
abbrev main_cst_27 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_28 : Ref sig .tc := ⟨.hbm, 198, rfl⟩
abbrev main_v145 : Ref sig .tc := ⟨.hbm, 199, rfl⟩
abbrev main_cst_29 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_cst_30 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_31 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_cst_32 : Ref sig .tc := ⟨.hbm, 229, rfl⟩
abbrev main_v172 : Ref sig .tc := ⟨.hbm, 230, rfl⟩
abbrev main_v173 : Ref sig .tc := ⟨.hbm, 231, rfl⟩
abbrev main_cst_33 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_cst_34 : Ref sig .tc := ⟨.hbm, 236, rfl⟩
abbrev main_v177 : Ref sig .tc := ⟨.hbm, 237, rfl⟩
abbrev main_cst_35 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_cst_36 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_call4_cst : Ref sig .tc := ⟨.hbm, 264, rfl⟩
abbrev main_call4_v0 : Ref sig .tc := ⟨.hbm, 265, rfl⟩
abbrev main_call4_cst_0 : Ref sig .tc := ⟨.hbm, 266, rfl⟩
abbrev main_call4_v1 : Ref sig .tc := ⟨.hbm, 267, rfl⟩
abbrev main_call4_v2 : Ref sig .tc := ⟨.hbm, 268, rfl⟩
abbrev main_call4_v3 : Ref sig .tc := ⟨.hbm, 269, rfl⟩
abbrev main_call4_v4 : Ref sig .tc := ⟨.hbm, 270, rfl⟩
abbrev main_call4_v5 : Ref sig .tc := ⟨.hbm, 271, rfl⟩
abbrev main_call4_v6 : Ref sig .tc := ⟨.hbm, 272, rfl⟩
abbrev main_call4_cst_1 : Ref sig .tc := ⟨.hbm, 273, rfl⟩
abbrev main_call4_v7 : Ref sig .tc := ⟨.hbm, 274, rfl⟩
abbrev main_call4_v8 : Ref sig .tc := ⟨.hbm, 275, rfl⟩
abbrev main_call4_v9 : Ref sig .tc := ⟨.hbm, 276, rfl⟩
abbrev main_call4_v10 : Ref sig .tc := ⟨.hbm, 277, rfl⟩
abbrev main_v202 : Ref sig .tc := ⟨.hbm, 278, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  reducesTo_S50000x1_S50000_d1 : S50000x1.ReducesTo [1] S50000
  h_S_ : 0 < S_.numel
  concatenates_S50000x1_S50000x1_S50000x2_d1 : Shape.Concatenates [S50000x1, S50000x1] S50000x2 1
  reducesTo_S50000x2_S50000_d1 : S50000x2.ReducesTo [1] S50000
  bcast_S50000x1_S50000x2_0_1 : S50000x1.BroadcastsInDim S50000x2 (![0, 1] : Fin 2 → Fin S50000x2.rank)
  slices_S50000x2_S50000x1_0_0 : S50000x2.Slices ![0, 0] S50000x1
  slices_S50000x2_S50000x1_0_1 : S50000x2.Slices ![0, 1] S50000x1
  concatenates_S50000x1_S50000x1_S50000x1_S50000x3_d1 : Shape.Concatenates [S50000x1, S50000x1, S50000x1] S50000x3 1
  reducesTo_S50000x3_S50000_d1 : S50000x3.ReducesTo [1] S50000
  bcast_S50000x1_S50000x3_0_1 : S50000x1.BroadcastsInDim S50000x3 (![0, 1] : Fin 2 → Fin S50000x3.rank)
  slices_S50000x3_S50000x1_0_0 : S50000x3.Slices ![0, 0] S50000x1
  slices_S50000x3_S50000x1_0_1 : S50000x3.Slices ![0, 1] S50000x1
  slices_S50000x3_S50000x1_0_2 : S50000x3.Slices ![0, 2] S50000x1
  concatenates_S50000x64_S50000x64_S50000x64_S50000x192_d1 : Shape.Concatenates [S50000x64, S50000x64, S50000x64] S50000x192 1
  reducesTo_S50000x64_S50000_d1 : S50000x64.ReducesTo [1] S50000
  scatter_S50000_S400000x1_S400000_n_0_0_1_wf : ScatterDims.WF S50000 S400000x1 S400000 [] [0] [0] 1
  dot_S50000x128_S128x64_S50000x64_1_0_0_1_n_n_wf : DotDims.WF S50000x128 S128x64 S50000x64 [1] [0] [0] [1] [] []
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S50000x256_S256x64_S50000x64_1_0_0_1_n_n_wf : DotDims.WF S50000x256 S256x64 S50000x64 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x512_S512x64_S50000x64_1_0_0_1_n_n_wf : DotDims.WF S50000x512 S512x64 S50000x64 [1] [0] [0] [1] [] []
  dot_S50000x128_S128x1_S50000x1_1_0_0_1_n_n_wf : DotDims.WF S50000x128 S128x1 S50000x1 [1] [0] [0] [1] [] []
  dot_S50000x192_S192x64_S50000x64_1_0_0_1_n_n_wf : DotDims.WF S50000x192 S192x64 S50000x64 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf

class Facts : Prop extends Facts₀ where

variable [Facts]
-- ==== Proof.KernelRun.lean ====
/-
  The idealized kernel's run with its result named.

  The program is two pipelined regions among two stretches of host operations. Its buffers at each boundary are a fold
  from the launch memory: after the first stretch, after the first region (its output array at what the blocks'
  write-backs leave), after the second stretch, after the second region. Every weakly fair execution ends with every
  unscoped buffer at the last fold's contents; read at the result's buffer this names the result, and read at each
  argument it gives the argument as launched.
-/
import proofs.«181484_j20667382628944_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result's buffer holding the last
    boundary's contents and every argument as launched. -/
theorem run : θ_run defs (onTc (τ := τ) (main (F := F))) ⟨m, fun _ => 0, ρ⟩ (fun r => ∀ c : Dev nD,
      r.2.mem ((c.tc : Thread nD τ).loc main_v97) = W4 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v97 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Named

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibMatProd.lean ====
/-
  The matrix product as one function of two arrays, over the extended reals.

  `matProd a w` at `(p, q)` is the sum over `k` of `a (p, k) * w (k, q)`. Addition of extended reals is commutative
  and associative, so the sum needs no order and no blocking: a product computed row block by row block and a product
  computed at once are the same array. Both a kernel's matmul into the zero accumulator and a host `dot_general`, with
  the plain dimension numbers, are this function; and a change of float format on the way in is the identity.
-/
import Idealize.ShloMosaic.PureOps.Ideal
import Idealize.ShloMosaic.PureOps.Ideal.Laws
import Idealize.ShloMosaic.Lib.ValueIdx
import proofs.«181484_j20667382628944_2_alg».proof.Proof.LibPlainDot

noncomputable section

namespace Idealize.ShloMosaic.MatProd

open Idealize.ShloMosaic Idealize.ShloMosaic.ValueIdx

/-- The product of an `M×K` array with a `K×N` array, entry by entry. -/
def matProd {M K N : ℕ} {φ₁ φ₂ : FTy} (a : FVec Ideal ⟨2, ![M, K]⟩ φ₁) (w : FVec Ideal ⟨2, ![K, N]⟩ φ₂) :
    FVec Ideal ⟨2, ![M, N]⟩ .f32 :=
  fun i => ∑ k : Fin K, a (ix2 (i 0) k) * w (ix2 k (i 1))

/-- A kernel's matmul into the zero accumulator, read at the entry `(p, q)`. -/
theorem matmul_zero_at {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂)
    (y : (⟨2, ![M, N]⟩ : Shape).Idx) (p : Fin M) (q : Fin N) (hy : y = ix2 p q) :
    FloatOps.matmul d prec lhs rhs (constant ⟨2, ![M, N]⟩ .f32 0x00000000#32) y
      = ∑ k : Fin K, lhs (ix2 p k) * rhs (ix2 k q) := by
  subst hy
  exact PlainDot.matmul_zero_apply d hd prec lhs rhs p q

/-- A host `dot_general` with the plain dimension numbers is the matrix product. -/
theorem dotGeneral_eq_matProd {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) :
    FloatOps.dotGeneral d prec sched lhs rhs = matProd lhs rhs := by
  funext j
  obtain ⟨p, q, rfl⟩ : ∃ (p : Fin M) (q : Fin N), j = ix2 p q := ⟨j 0, j 1, eq_ix2 j⟩
  exact PlainDot.dotGeneral_apply d hd prec sched lhs rhs p q

/-- Narrowing both operands' float format first changes nothing: at the ideal values a format change is the identity. -/
theorem matProd_truncf {M K N : ℕ} {φ₁ φ₂ ψ₁ ψ₂ : FTy} (a : FVec Ideal ⟨2, ![M, K]⟩ φ₁) (w : FVec Ideal ⟨2, ![K, N]⟩ φ₂)
    (h₁ : ψ₁.bits < φ₁.bits) (h₂ : ψ₂.bits < φ₂.bits) :
    matProd (truncf ψ₁ a h₁) (truncf ψ₂ w h₂) = matProd a w := rfl

end Idealize.ShloMosaic.MatProd

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibGraphConvLayers.lean ====
/-
  The dense layers of a two-layer graph convolution, entry by entry over the extended reals.

  Between the neighbourhood sums a graph convolution applies, row by row, three dense maps:

    * the feature transform `x ↦ x · w`: at `(p, q)` the sum over `k` of `x (p, k) * w (k, q)`;
    * the hidden layer `a ↦ relu (a + b) · w`: the same sum with `max (a (p, k) + b k) 0` in place of `x (p, k)`;
    * the read-out `a ↦ log_softmax (a + b)` along each row: with `z k = a (p, k) + b k` and `μ` the maximum of the
      row's `z`, the entry at `(p, q)` is `(z q - μ) - log (∑ k, exp (z k - μ))`.

  Each entry depends on ONE row of the row-indexed operand only, so any tiling of the rows computes the same array.
  The zero of `relu` and the starting value of the row maximum are kept as the float words `0x00000000` and
  `0xFF800000` read at the ideal values: the same words stand on both sides of every comparison and are never evaluated,
  except that the row sum's starting word `0x00000000` is the number zero.

  The second half states the host's spelling of each map (a `dot_general`; `broadcast_in_dim`s of the bias,
  `maximum` with a broadcast zero, a `dot_general`; reductions kept as `[m, 1]` columns and spread back) as these
  functions of whole arrays.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«181484_j20667382628944_2_alg».proof.Proof.LibMatProd
import proofs.«181484_j20667382628944_2_alg».proof.Proof.LibDense
import proofs.«181484_j20667382628944_2_alg».proof.Proof.LibRowReduce
import proofs.«181484_j20667382628944_2_alg».proof.Proof.LibRegionBlockSpread

noncomputable section

namespace GraphConvLayers

open Idealize.ShloMosaic Idealize.ShloMosaic.ValueIdx

/-- The float word zero, read at the ideal values. -/
abbrev zeroWord : EReal := Ideal.ofBits .f32 0x00000000#32
/-- The float word the row maximum starts from, read at the ideal values. -/
abbrev lowWord : EReal := Ideal.ofBits .f32 0xFF800000#32

/-- `relu (a + b)`, the bias `b` added along each row. -/
def biasRelu {M K : ℕ} (a : FVec Ideal ⟨2, ![M, K]⟩ .f32) (b : FVec Ideal ⟨1, ![K]⟩ .f32) : FVec Ideal ⟨2, ![M, K]⟩ .f32 :=
  fun i => max (a i + b (ix1 (i 1))) zeroWord

theorem biasRelu_apply {M K : ℕ} (a : FVec Ideal ⟨2, ![M, K]⟩ .f32) (b : FVec Ideal ⟨1, ![K]⟩ .f32) (p : Fin M) (k : Fin K) :
    biasRelu a b (ix2 p k) = max (a (ix2 p k) + b (ix1 k)) zeroWord := rfl

/-- The hidden layer `relu (a + b) · w`. -/
def hidden {M K N : ℕ} (a : FVec Ideal ⟨2, ![M, K]⟩ .f32) (b : FVec Ideal ⟨1, ![K]⟩ .f32) (w : FVec Ideal ⟨2, ![K, N]⟩ .f32) :
    FVec Ideal ⟨2, ![M, N]⟩ .f32 :=
  MatProd.matProd (biasRelu a b) w

theorem hidden_apply {M K N : ℕ} (a : FVec Ideal ⟨2, ![M, K]⟩ .f32) (b : FVec Ideal ⟨1, ![K]⟩ .f32)
    (w : FVec Ideal ⟨2, ![K, N]⟩ .f32) (p : Fin M) (q : Fin N) :
    hidden a b w (ix2 p q) = ∑ k : Fin K, max (a (ix2 p k) + b (ix1 k)) zeroWord * w (ix2 k q) := rfl

/-- Row `p` of `a + b`. -/
def biasedRow {M N : ℕ} (a : FVec Ideal ⟨2, ![M, N]⟩ .f32) (b : FVec Ideal ⟨1, ![N]⟩ .f32) (p : Fin M) : Fin N → EReal :=
  fun k => a (ix2 p k) + b (ix1 k)

/-- The maximum of a row, folded from the starting word. -/
def rowMax {N : ℕ} (z : Fin N → EReal) : EReal := (Finset.univ : Finset (Fin N)).fold max lowWord z

/-- `log_softmax` of one row at one position. -/
def rowLogSoftmax {N : ℕ} (z : Fin N → EReal) (q : Fin N) : EReal :=
  (z q - rowMax z) - Ideal.log (∑ k : Fin N, Ideal.exp (z k - rowMax z))

/-- The read-out `log_softmax (a + b)` along each row. -/
def biasLogSoftmax {M N : ℕ} (a : FVec Ideal ⟨2, ![M, N]⟩ .f32) (b : FVec Ideal ⟨1, ![N]⟩ .f32) : FVec Ideal ⟨2, ![M, N]⟩ .f32 :=
  fun i => rowLogSoftmax (biasedRow a b (i 0)) (i 1)

theorem biasLogSoftmax_apply {M N : ℕ} (a : FVec Ideal ⟨2, ![M, N]⟩ .f32) (b : FVec Ideal ⟨1, ![N]⟩ .f32) (p : Fin M) (q : Fin N) :
    biasLogSoftmax a b (ix2 p q) = rowLogSoftmax (biasedRow a b p) q := rfl

/-- Taking the maximum with the starting word once more changes nothing: the fold already lies above it. -/
theorem max_low_rowMax {N : ℕ} (z : Fin N → EReal) : max lowWord (rowMax z) = rowMax z :=
  max_eq_right ((Finset.le_fold_max lowWord).mpr (Or.inl le_rfl))

/-- A vector reshaped to one row and read back along that row is the vector. -/
theorem rowOf_cast {K : ℕ} (b : FVec Ideal ⟨1, ![K]⟩ .f32) (h : (⟨1, ![K]⟩ : Shape).ShapeCasts ⟨2, ![1, K]⟩) :
    (fun j : (⟨1, ![K]⟩ : Shape).Idx => shapeCast ⟨2, ![1, K]⟩ b h (ix2 (0 : Fin 1) (j 0 : Fin K))) = b := by
  funext j
  obtain ⟨k, rfl⟩ : ∃ k : Fin K, j = ix1 k := ⟨j 0, eq_ix1 j⟩
  exact shapeCast_a_1a_apply b h (0 : Fin 1) k

/-! ## The host's spelling of the three maps -/

/-- The host's hidden layer: the bias spread by two `broadcast_in_dim`s, `maximum` with a broadcast zero, a
    `dot_general` with the plain dimension numbers. -/
theorem host_hidden {M K N : ℕ} (d : DotDims ⟨2, ![M, K]⟩ ⟨2, ![K, N]⟩ ⟨2, ![M, N]⟩) (hd : d = DotDims.plain M K N)
    (prec : Option ContractPrecision) (sched : HostSchedule)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (a : FVec Ideal ⟨2, ![M, K]⟩ .f32) (b : FVec Ideal ⟨1, ![K]⟩ .f32) (w : FVec Ideal ⟨2, ![K, N]⟩ .f32) :
    FloatOps.dotGeneral d prec sched
        (maximumf (addf a (broadcastInDim ⟨2, ![M, K]⟩ ![0, 1] h2 (broadcastInDim ⟨2, ![1, K]⟩ ![1] h1 b)))
          (broadcastInDim ⟨2, ![M, K]⟩ ![] h0 (constant (F := Ideal) ⟨0, ![]⟩ .f32 0x00000000#32))) w
      = hidden a b w := by
  rw [MatProd.dotGeneral_eq_matProd d hd]
  unfold hidden
  refine congrArg (fun v => MatProd.matProd v w) (funext fun i => ?_)
  obtain ⟨p, k, rfl⟩ : ∃ (p : Fin M) (k : Fin K), i = ix2 p k := ⟨i 0, i 1, eq_ix2 i⟩
  rw [biasRelu_apply, maximumf_apply, addf_apply, DenseLayer.inDimRow_apply]
  rfl

/-- The host's read-out: the bias spread by two `broadcast_in_dim`s; the row maximum by a `reduce` from the starting
    word, once more `maximum` with that word, kept as a column and spread back; `exponential`; the row sum by a
    `reduce` from zero, kept as a column, `log`, spread back. -/
theorem host_biasLogSoftmax {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (hr : (⟨2, ![M, N]⟩ : Shape).ReducesTo [1] ⟨1, ![M]⟩) (hr' : (⟨2, ![M, N]⟩ : Shape).Reduces [1] ⟨1, ![M]⟩)
    (hu : 0 < (⟨0, ![]⟩ : Shape).numel)
    (hb0 : (⟨0, ![]⟩ : Shape).BroadcastsInDim ⟨1, ![M]⟩ ![])
    (hc : (⟨1, ![M]⟩ : Shape).BroadcastsInDim ⟨2, ![M, 1]⟩ ![0])
    (hs : (⟨2, ![M, 1]⟩ : Shape).BroadcastsInDim ⟨2, ![M, N]⟩ ![0, 1])
    (a : FVec Ideal ⟨2, ![M, N]⟩ .f32) (b : FVec Ideal ⟨1, ![N]⟩ .f32) :
    let z : FVec Ideal ⟨2, ![M, N]⟩ .f32 :=
        addf a (broadcastInDim ⟨2, ![M, N]⟩ ![0, 1] h2 (broadcastInDim ⟨2, ![1, N]⟩ ![1] h1 b))
    let sh : FVec Ideal ⟨2, ![M, N]⟩ .f32 :=
        subf z (broadcastInDim ⟨2, ![M, N]⟩ ![0, 1] hs (broadcastInDim ⟨2, ![M, 1]⟩ ![0] hc
          (maximumf (broadcastInDim ⟨1, ![M]⟩ ![] hb0 (constant (F := Ideal) ⟨0, ![]⟩ .f32 0xFF800000#32))
            (Host.reduce FloatOps.maximumf z (constant (F := Ideal) ⟨0, ![]⟩ .f32 0xFF800000#32) hr hu))))
    subf sh (broadcastInDim ⟨2, ![M, N]⟩ ![0, 1] hs (Host.log (broadcastInDim ⟨2, ![M, 1]⟩ ![0] hc
        (Host.reduceAdd (Host.exp sh) (constant (F := Ideal) ⟨0, ![]⟩ .f32 0x00000000#32) hr hu))))
      = biasLogSoftmax a b := by
  intro z sh
  have hz : ∀ (p : Fin M) (k : Fin N), z (ix2 p k) = biasedRow a b p k := fun p k => by
    show a (ix2 p k) + _ = _
    rw [DenseLayer.inDimRow_apply]; rfl
  have hsh : ∀ (p : Fin M) (k : Fin N), sh (ix2 p k) = biasedRow a b p k - rowMax (biasedRow a b p) := fun p k => by
    show z (ix2 p k) - _ = _
    rw [KeepDims.broadcastInDim_a1_ab_apply, KeepDims.broadcastInDim_a_a1_apply, maximumf_apply,
      RowReduce.hostReduce_maximumf_row z _ hr hr' hu p, hz]
    have e : (fun k => z (ix2 p k)) = biasedRow a b p := funext fun k => hz p k
    rw [e]
    exact congrArg (fun t => biasedRow a b p k - t) (max_low_rowMax (biasedRow a b p))
  funext i
  obtain ⟨p, q, rfl⟩ : ∃ (p : Fin M) (q : Fin N), i = ix2 p q := ⟨i 0, i 1, eq_ix2 i⟩
  rw [biasLogSoftmax_apply]
  show sh (ix2 p q) - _ = _
  rw [KeepDims.broadcastInDim_a1_ab_apply]
  have hlog : ∀ (v : FVec Ideal ⟨2, ![M, 1]⟩ .f32) (j : (⟨2, ![M, 1]⟩ : Shape).Idx), Host.log v j = Ideal.log (v j) :=
    fun _ _ => rfl
  rw [hlog, KeepDims.broadcastInDim_a_a1_apply, RowReduce.hostReduceAdd_row _ _ hr hr' hu p, hsh]
  have e : (fun k => Host.exp sh (ix2 p k)) = fun k => Ideal.exp (biasedRow a b p k - rowMax (biasedRow a b p)) :=
    funext fun k => congrArg Ideal.exp (hsh p k)
  unfold rowLogSoftmax
  refine congrArg (fun t => (biasedRow a b p q - rowMax (biasedRow a b p)) - Ideal.log t) ?_
  rw [show (∑ k : Fin N, Host.exp sh (ix2 p k)) = ∑ k : Fin N, Ideal.exp (biasedRow a b p k - rowMax (biasedRow a b p)) from
    Finset.sum_congr rfl fun k _ => congrFun e k]
  show Ideal.ofBits .f32 0x00000000#32 + _ = _
  rw [Ideal.ofBits_zero_f32, zero_add]

end GraphConvLayers

end
-- ==== Proof.LibMaxSup.lean ====
/-
  Maxima from minus infinity at the ideal values are suprema.

  At the ideal values a float is an extended real, `maximumf` is `max`, and the f32 pattern 0xFF800000 is minus infinity,
  the bottom element. A fold of `max` from the bottom over a finite set is the supremum over the set, so
  - a `vector.multi_reduction <maximumf>` over one axis with the accumulator 0xFF800000, read at a result index, is the
    supremum over that axis's coordinates (`multiReduction_maximumf_negInf_single`), and
  - a host `stablehlo.reduce` with a maximum body from a rank-0 constant 0xFF800000, over any list of axes, read at a
    result index, is the supremum over the operand indices that drop to it (`hostReduce_maximumf_negInf`).
  Suprema need no finiteness hypothesis and no order of evaluation.
-/
import Idealize.ShloMosaic.PureOps.Ideal
import Idealize.ShloMosaic.PureOps.Ideal.Laws
import Idealize.ShloMosaic.PureOps.Reduce
import Mathlib.Data.Finset.Fold

noncomputable section

namespace MaxSup

open Idealize.ShloMosaic

/-- The f32 pattern of minus infinity denotes the bottom of the extended reals. -/
theorem neg_inf_f32 : Ideal.ofBits .f32 0xFF800000#32 = (⊥ : EReal) := by
  simp [Ideal.ofBits, Ideal.ieee]

/-- The same, spelt with the float operations' own `ofBits` read at the ideal values. -/
theorem neg_inf_f32' : (FloatOps.ofBits .f32 0xFF800000#32 : Ideal .f32) = (⊥ : EReal) := neg_inf_f32

/-- The fold of max from the bottom over a finite set is the supremum over the set. -/
theorem fold_max_bot_eq {ι : Type} (s : Finset ι) (f : ι → EReal) :
    s.fold max ⊥ f = ⨆ i, ⨆ _ : i ∈ s, f i := by
  apply le_antisymm
  · exact (Finset.fold_max_le _).mpr ⟨bot_le, fun i hi => le_iSup₂_of_le i hi le_rfl⟩
  · exact iSup₂_le fun i hi => (Finset.le_fold_max _).mpr (Or.inr ⟨i, hi, le_rfl⟩)

/-- Over a whole finite type it is the supremum over the type. -/
theorem fold_max_bot_univ {ι : Type} [Fintype ι] (f : ι → EReal) :
    (Finset.univ : Finset ι).fold max ⊥ f = ⨆ i, f i := by
  rw [fold_max_bot_eq]
  exact iSup_congr fun i => iSup_pos (Finset.mem_univ i)

/-- A `vector.multi_reduction <maximumf>` over ONE axis from minus infinity, read at the ideal values at a result index
    `j`: the supremum, over that axis's coordinates `k`, of the source at `j` with `k` inserted on the reduced axis. The
    accumulator's proof is typed as a printed program carries it. -/
theorem multiReduction_maximumf_negInf_single {s t : Shape} {a : Fin s.rank} (src : FVec Ideal s .f32)
    (h : s.Reduces [a] t) (hφ : FKind.Formats .f32)
    (hacc : (0xFF800000#32 : BitVec 32) = FKind.maximumf.neutral .f32 hφ) (j : t.Idx) :
    multiReduction (F := Ideal) .maximumf [a] t src 0xFF800000#32 h hφ hacc j
      = ⨆ k : Fin (s.size a), src (h.lift j k) := by
  refine (Ideal.multiReduction_maximumf_single src _ h hφ hacc j).trans ?_
  rw [neg_inf_f32', fold_max_bot_univ]
  rfl

/-- A host one-operand reduce with a maximum body from a rank-0 minus infinity, over any axes, read at the ideal values
    at a result index `j`: the supremum of the operand over the indices that drop to `j`. -/
theorem hostReduce_maximumf_negInf {s t : Shape} {axes : List (Fin s.rank)} (x : s.Idx → EReal)
    (h : s.ReducesTo axes t) (hu : 0 < (⟨0, ![]⟩ : Shape).numel) (j : t.Idx) :
    Host.reduce (FloatOps.maximumf (F := Ideal) (φ := .f32)) x (constant (F := Ideal) ⟨0, ![]⟩ .f32 0xFF800000#32) h hu j
      = ⨆ i, ⨆ _ : h.drop i = j, x i := by
  rw [Host.reduce_eq_fold]
  show (Finset.univ.filter fun i => h.drop i = j).fold max (Ideal.ofBits .f32 0xFF800000#32) x = _
  rw [neg_inf_f32, fold_max_bot_eq]
  exact iSup_congr fun i => iSup_congr_Prop (by simp) (fun _ => rfl)

end MaxSup

end
-- ==== Proof.LibJoinRows.lean ====
/-
  A concatenation along the second axis, read at an index.

  Joining [M, n1] and [M, n2] (and [M, n3]) arrays along their second axis gives an [M, n] array whose row p is the
  pieces' rows p laid end to end: for k below n1 the first piece's entry k, then the second piece's entry k - n1, then
  the third's. Stated for any sizes with n1 + n2 (+ n3) = n given as a hypothesis, so that literal widths such as
  64 + 64 = 128 need no arithmetic in the statement; `join2` / `join3` are the rows laid end to end as functions on
  `Fin n`. The same statement serves a kernel's joined vectors and a host program's joined arrays, which are one
  operation at the level of values.
-/
import Idealize.ShloMosaic.Lib.ValueIdx
import Idealize.ShloMosaic.Lib.Pipeline.Value

noncomputable section

namespace Idealize.ShloMosaic.JoinRows

open Idealize.ShloMosaic Idealize.ShloMosaic.ValueIdx

/-- Two rows laid end to end. -/
def join2 {α : Type} {n1 n2 n : ℕ} (hn : n1 + n2 = n) (a : Fin n1 → α) (b : Fin n2 → α) : Fin n → α :=
  fun k => if h : k.val < n1 then a ⟨k.val, h⟩ else b ⟨k.val - n1, by have := k.isLt; omega⟩

/-- Three rows laid end to end. -/
def join3 {α : Type} {n1 n2 n3 n : ℕ} (hn : n1 + n2 + n3 = n) (a : Fin n1 → α) (b : Fin n2 → α) (c : Fin n3 → α) :
    Fin n → α :=
  fun k => if h : k.val < n1 then a ⟨k.val, h⟩
    else if h2 : k.val < n1 + n2 then b ⟨k.val - n1, by omega⟩
    else c ⟨k.val - (n1 + n2), by have := k.isLt; omega⟩

/-- A two-piece concatenation along the second axis, read at `(p, k)`: the two pieces' rows `p` laid end to end. -/
theorem concat2_apply {α : Type} {M n1 n2 n : ℕ} (hn : n1 + n2 = n)
    (x1 : (⟨2, ![M, n1]⟩ : Shape).Idx → α) (x2 : (⟨2, ![M, n2]⟩ : Shape).Idx → α)
    (h : Shape.Concatenates [(⟨2, ![M, n1]⟩ : Shape), ⟨2, ![M, n2]⟩] ⟨2, ![M, n]⟩ (1 : Fin 2)) (p : Fin M) (k : Fin n) :
    concatenate ⟨2, ![M, n]⟩ (1 : Fin 2) [⟨⟨2, ![M, n1]⟩, x1⟩, ⟨⟨2, ![M, n2]⟩, x2⟩] h (ix2 p k)
      = join2 hn (fun j => x1 (ix2 p j)) (fun j => x2 (ix2 p j)) k := by
  unfold join2
  by_cases hk : k.val < n1
  · rw [dif_pos hk]
    refine concatenate_pair_apply_left (1 : Fin 2) x1 x2 h (ix2 p k) rfl (ix2 p ⟨k.val, hk⟩) (fun b => ?_)
    match b with
    | ⟨0, _⟩ => rfl
    | ⟨1, _⟩ => rfl
  · rw [dif_neg hk]
    refine concatenate_pair_apply_right (1 : Fin 2) x1 x2 h (ix2 p k) rfl rfl
      (ix2 p ⟨k.val - n1, by have := k.isLt; omega⟩) (fun b hb => ?_) ?_
    · match b, hb with
      | ⟨0, _⟩, _ => rfl
      | ⟨1, _⟩, hb => exact absurd rfl hb
    · show k.val - n1 + n1 = k.val
      omega

/-- A three-piece concatenation along the second axis, read at `(p, k)`: the three pieces' rows `p` laid end to end. -/
theorem concat3_apply {α : Type} {M n1 n2 n3 n : ℕ} (hn : n1 + n2 + n3 = n)
    (x1 : (⟨2, ![M, n1]⟩ : Shape).Idx → α) (x2 : (⟨2, ![M, n2]⟩ : Shape).Idx → α) (x3 : (⟨2, ![M, n3]⟩ : Shape).Idx → α)
    (h : Shape.Concatenates [(⟨2, ![M, n1]⟩ : Shape), ⟨2, ![M, n2]⟩, ⟨2, ![M, n3]⟩] ⟨2, ![M, n]⟩ (1 : Fin 2))
    (p : Fin M) (k : Fin n) :
    concatenate ⟨2, ![M, n]⟩ (1 : Fin 2) [⟨⟨2, ![M, n1]⟩, x1⟩, ⟨⟨2, ![M, n2]⟩, x2⟩, ⟨⟨2, ![M, n3]⟩, x3⟩] h (ix2 p k)
      = join3 hn (fun j => x1 (ix2 p j)) (fun j => x2 (ix2 p j)) (fun j => x3 (ix2 p j)) k := by
  unfold join3
  have coords : ∀ {m : ℕ} (j : Fin m) (b : Fin 2), Fin.cast (rfl : 2 = 2) b ≠ (1 : Fin 2) →
      ((ix2 p j : (⟨2, ![M, m]⟩ : Shape).Idx) b).val = ((ix2 p k : (⟨2, ![M, n]⟩ : Shape).Idx) (Fin.cast (rfl : 2 = 2) b)).val := by
    intro m j b hb
    match b, hb with
    | ⟨0, _⟩, _ => rfl
    | ⟨1, _⟩, hb => exact absurd rfl hb
  by_cases hk : k.val < n1
  · rw [dif_pos hk]
    exact concatenate_apply_piece (t := ⟨2, ![M, n]⟩) (1 : Fin 2) [⟨⟨2, ![M, n1]⟩, x1⟩, ⟨⟨2, ![M, n2]⟩, x2⟩, ⟨⟨2, ![M, n3]⟩, x3⟩] h (ix2 p k)
      0 (by show (0 : ℕ) < 3; omega) ⟨2, ![M, n1]⟩ x1 rfl rfl 0 rfl
      (ix2 p ⟨k.val, hk⟩) (fun b hb => coords _ b hb) (by show 0 + k.val = k.val; omega)
  · rw [dif_neg hk]
    by_cases hk2 : k.val < n1 + n2
    · rw [dif_pos hk2]
      exact concatenate_apply_piece (t := ⟨2, ![M, n]⟩) (1 : Fin 2) [⟨⟨2, ![M, n1]⟩, x1⟩, ⟨⟨2, ![M, n2]⟩, x2⟩, ⟨⟨2, ![M, n3]⟩, x3⟩] h (ix2 p k)
        1 (by show (1 : ℕ) < 3; omega) ⟨2, ![M, n2]⟩ x2 rfl rfl n1 rfl
        (ix2 p ⟨k.val - n1, by omega⟩) (fun b hb => coords _ b hb) (by show n1 + (k.val - n1) = k.val; omega)
    · rw [dif_neg hk2]
      exact concatenate_apply_piece (t := ⟨2, ![M, n]⟩) (1 : Fin 2) [⟨⟨2, ![M, n1]⟩, x1⟩, ⟨⟨2, ![M, n2]⟩, x2⟩, ⟨⟨2, ![M, n3]⟩, x3⟩] h (ix2 p k)
        2 (by show (2 : ℕ) < 3; omega) ⟨2, ![M, n3]⟩ x3 rfl rfl (n1 + n2) rfl
        (ix2 p ⟨k.val - (n1 + n2), by have := k.isLt; omega⟩) (fun b hb => coords _ b hb)
        (by show n1 + n2 + (k.val - (n1 + n2)) = k.val; omega)

end Idealize.ShloMosaic.JoinRows

end
-- ==== Proof.HopSpec.lean ====
/-
  The hop-attention read-out of one node, as a function of that node's rows alone.

  For a node with JK rows c0 (128 wide), c1 (256), c2 (512) and projected feature row x (64):
    o_i      = relu (c_i · W_i + b_i)                                   (three dense heads, 64 wide)
    score(a, b) = sigmoid (⟨a ‖ b, w⟩ + β)                               (a ‖ b: the two 64-rows laid end to end)
    s0 = score(o0, x),  s1 = score(o0, o1)
    history  = softmax[s0, s1]₀ · o0 + softmax[s0, s1]₁ · o1
    s2 = score(history, o2)
    combined = α₀·o0 ‖ α₁·o1 ‖ α₂·o2,   α = softmax[s0, s1, s2]
    out      = log_softmax (combined · T + t)
  Every stage depends on the node's own rows only, so a block of nodes and the whole node array give the same rows.
  Also here: a concatenation along the second axis read at an index as rows laid end to end, and the one place where
  the two programs differ — a softmax over a single sigmoid score is identically one, because a sigmoid value is a
  real number.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«181484_j20667382628944_2_alg».proof.Proof.LibGraphConvLayers
import proofs.«181484_j20667382628944_2_alg».proof.Proof.LibMaxSup
import proofs.«181484_j20667382628944_2_alg».proof.Proof.LibJoinRows

noncomputable section

namespace HopAttn

open Idealize.ShloMosaic Idealize.ShloMosaic.ValueIdx

/-- The float word zero, read at the ideal values. -/
abbrev zeroW : EReal := Ideal.ofBits .f32 0x00000000#32
/-- The float word a row maximum starts from, read at the ideal values. -/
abbrev lowW : EReal := Ideal.ofBits .f32 0xFF800000#32

/-! ## Rows laid end to end: `join2`, `join3` and a joined array read at an index, from the general lemma file -/

export Idealize.ShloMosaic.JoinRows (join2 join3 concat2_apply concat3_apply)

/-! ## The stages of one node -/

/-- One dense head at column `q`: `relu (c · w + b)`. -/
def head {K N : ℕ} (c : Fin K → EReal) (w : (⟨2, ![K, N]⟩ : Shape).Idx → EReal) (b : Fin N → EReal) : Fin N → EReal :=
  fun q => max ((∑ k : Fin K, c k * w (ix2 k q)) + b q) zeroW

/-- The attention score of a pair of rows: the sigmoid of their joined row against the weight row, plus the offset. -/
def score (law : Fin 128 → EReal) (lab : EReal) (a b : Fin 64 → EReal) : EReal :=
  Ideal.logistic ((∑ k : Fin 128, join2 (show 64 + 64 = 128 from rfl) a b k * law k) + lab)

/-- The softmax of a row at position `j`, shifted by the row's maximum. -/
def softmaxRow {n : ℕ} (z : Fin n → EReal) (j : Fin n) : EReal :=
  Ideal.div (Ideal.exp (z j - GraphConvLayers.rowMax z)) (∑ k : Fin n, Ideal.exp (z k - GraphConvLayers.rowMax z))

/-- The two scores as a row of two. -/
def pair (s0 s1 : EReal) : Fin 2 → EReal := join2 (show 1 + 1 = 2 from rfl) (fun _ : Fin 1 => s0) (fun _ : Fin 1 => s1)

/-- The three scores as a row of three. -/
def triple (s0 s1 s2 : EReal) : Fin 3 → EReal :=
  join3 (show 1 + 1 + 1 = 3 from rfl) (fun _ : Fin 1 => s0) (fun _ : Fin 1 => s1) (fun _ : Fin 1 => s2)

/-- The history row after two hops: the softmax-weighted sum of the first two heads. -/
def history (s0 s1 : EReal) (o0 o1 : Fin 64 → EReal) : Fin 64 → EReal :=
  fun q => softmaxRow (pair s0 s1) 0 * o0 q + softmaxRow (pair s0 s1) 1 * o1 q

/-- The three heads, each scaled by its attention weight, laid end to end. -/
def combined (s0 s1 s2 : EReal) (o0 o1 o2 : Fin 64 → EReal) : Fin 192 → EReal :=
  join3 (show 64 + 64 + 64 = 192 from rfl) (fun q => softmaxRow (triple s0 s1 s2) 0 * o0 q)
    (fun q => softmaxRow (triple s0 s1 s2) 1 * o1 q) (fun q => softmaxRow (triple s0 s1 s2) 2 * o2 q)

/-- The read-out of one node from its heads and its feature row. -/
def readout (law : Fin 128 → EReal) (lab : EReal) (t2w : (⟨2, ![192, 64]⟩ : Shape).Idx → EReal) (t2b : Fin 64 → EReal)
    (o0 o1 o2 xr : Fin 64 → EReal) : Fin 64 → EReal :=
  let s0 := score law lab o0 xr
  let s1 := score law lab o0 o1
  let s2 := score law lab (history s0 s1 o0 o1) o2
  fun q => GraphConvLayers.rowLogSoftmax
    (fun q' => (∑ k : Fin 192, combined s0 s1 s2 o0 o1 o2 k * t2w (ix2 k q')) + t2b q') q

/-- The whole of one node: three heads, then the read-out. -/
def rowOut (c0 : Fin 128 → EReal) (c1 : Fin 256 → EReal) (c2 : Fin 512 → EReal) (xr : Fin 64 → EReal)
    (wb0 : (⟨2, ![128, 64]⟩ : Shape).Idx → EReal) (bb0 : Fin 64 → EReal)
    (wb1 : (⟨2, ![256, 64]⟩ : Shape).Idx → EReal) (bb1 : Fin 64 → EReal)
    (wb2 : (⟨2, ![512, 64]⟩ : Shape).Idx → EReal) (bb2 : Fin 64 → EReal)
    (law : Fin 128 → EReal) (lab : EReal) (t2w : (⟨2, ![192, 64]⟩ : Shape).Idx → EReal) (t2b : Fin 64 → EReal) :
    Fin 64 → EReal :=
  readout law lab t2w t2b (head c0 wb0 bb0) (head c1 wb1 bb1) (head c2 wb2 bb2) xr

/-! ## Whole arrays -/

/-- Row `r` of an array. -/
def row {M n : ℕ} (A : (⟨2, ![M, n]⟩ : Shape).Idx → EReal) (r : Fin M) : Fin n → EReal := fun k => A (ix2 r k)
/-- A vector's entries. -/
def vec {n : ℕ} (b : (⟨1, ![n]⟩ : Shape).Idx → EReal) : Fin n → EReal := fun k => b (ix1 k)
/-- The one column of an `[n, 1]` array. -/
def col0 {n : ℕ} (w : (⟨2, ![n, 1]⟩ : Shape).Idx → EReal) : Fin n → EReal := fun k => w (ix2 k (0 : Fin 1))

/-- The projected features of all nodes: `relu (h · w + b)`. -/
def features {M : ℕ} (h : (⟨2, ![M, 128]⟩ : Shape).Idx → EReal) (w : (⟨2, ![128, 64]⟩ : Shape).Idx → EReal)
    (b : (⟨1, ![64]⟩ : Shape).Idx → EReal) : (⟨2, ![M, 64]⟩ : Shape).Idx → EReal :=
  fun i => head (row h (i 0)) w (vec b) (i 1)

/-- The read-out of all nodes from the three JK arrays and the feature array. -/
def out {M : ℕ} (cat0 : (⟨2, ![M, 128]⟩ : Shape).Idx → EReal) (cat1 : (⟨2, ![M, 256]⟩ : Shape).Idx → EReal)
    (cat2 : (⟨2, ![M, 512]⟩ : Shape).Idx → EReal) (x : (⟨2, ![M, 64]⟩ : Shape).Idx → EReal)
    (law : (⟨2, ![128, 1]⟩ : Shape).Idx → EReal) (lab : (⟨1, ![1]⟩ : Shape).Idx → EReal)
    (t2w : (⟨2, ![192, 64]⟩ : Shape).Idx → EReal) (t2b : (⟨1, ![64]⟩ : Shape).Idx → EReal)
    (wb0 : (⟨2, ![128, 64]⟩ : Shape).Idx → EReal) (bb0 : (⟨1, ![64]⟩ : Shape).Idx → EReal)
    (wb1 : (⟨2, ![256, 64]⟩ : Shape).Idx → EReal) (bb1 : (⟨1, ![64]⟩ : Shape).Idx → EReal)
    (wb2 : (⟨2, ![512, 64]⟩ : Shape).Idx → EReal) (bb2 : (⟨1, ![64]⟩ : Shape).Idx → EReal) :
    (⟨2, ![M, 64]⟩ : Shape).Idx → EReal :=
  fun i => rowOut (row cat0 (i 0)) (row cat1 (i 0)) (row cat2 (i 0)) (row x (i 0)) wb0 (vec bb0) wb1 (vec bb1) wb2 (vec bb2)
    (col0 law) (lab (ix1 (0 : Fin 1))) t2w (vec t2b) (i 1)

theorem out_apply {M : ℕ} (cat0 : (⟨2, ![M, 128]⟩ : Shape).Idx → EReal) (cat1 : (⟨2, ![M, 256]⟩ : Shape).Idx → EReal)
    (cat2 : (⟨2, ![M, 512]⟩ : Shape).Idx → EReal) (x : (⟨2, ![M, 64]⟩ : Shape).Idx → EReal)
    (law : (⟨2, ![128, 1]⟩ : Shape).Idx → EReal) (lab : (⟨1, ![1]⟩ : Shape).Idx → EReal)
    (t2w : (⟨2, ![192, 64]⟩ : Shape).Idx → EReal) (t2b : (⟨1, ![64]⟩ : Shape).Idx → EReal)
    (wb0 : (⟨2, ![128, 64]⟩ : Shape).Idx → EReal) (bb0 : (⟨1, ![64]⟩ : Shape).Idx → EReal)
    (wb1 : (⟨2, ![256, 64]⟩ : Shape).Idx → EReal) (bb1 : (⟨1, ![64]⟩ : Shape).Idx → EReal)
    (wb2 : (⟨2, ![512, 64]⟩ : Shape).Idx → EReal) (bb2 : (⟨1, ![64]⟩ : Shape).Idx → EReal) (r : Fin M) (q : Fin 64) :
    out cat0 cat1 cat2 x law lab t2w t2b wb0 bb0 wb1 bb1 wb2 bb2 (ix2 r q)
      = rowOut (row cat0 r) (row cat1 r) (row cat2 r) (row x r) wb0 (vec bb0) wb1 (vec bb1) wb2 (vec bb2)
          (col0 law) (lab (ix1 (0 : Fin 1))) t2w (vec t2b) q := rfl

theorem features_apply {M : ℕ} (h : (⟨2, ![M, 128]⟩ : Shape).Idx → EReal) (w : (⟨2, ![128, 64]⟩ : Shape).Idx → EReal)
    (b : (⟨1, ![64]⟩ : Shape).Idx → EReal) (r : Fin M) (q : Fin 64) :
    features h w b (ix2 r q) = head (row h r) w (vec b) q := rfl

/-! ## The read-out over a tile, its rows' parameters held as `[1, n]` arrays -/

/-- The read-out of every row of a tile of `M` nodes, the bias rows, the score's weight row and its offset held as
    `[1, n]` arrays (the form a block of nodes is computed in). -/
def outTile {M : ℕ} (c0 : (⟨2, ![M, 128]⟩ : Shape).Idx → EReal) (c1 : (⟨2, ![M, 256]⟩ : Shape).Idx → EReal)
    (c2 : (⟨2, ![M, 512]⟩ : Shape).Idx → EReal) (x : (⟨2, ![M, 64]⟩ : Shape).Idx → EReal)
    (wb0 : (⟨2, ![128, 64]⟩ : Shape).Idx → EReal) (b0 : (⟨2, ![1, 64]⟩ : Shape).Idx → EReal)
    (wb1 : (⟨2, ![256, 64]⟩ : Shape).Idx → EReal) (b1 : (⟨2, ![1, 64]⟩ : Shape).Idx → EReal)
    (wb2 : (⟨2, ![512, 64]⟩ : Shape).Idx → EReal) (b2 : (⟨2, ![1, 64]⟩ : Shape).Idx → EReal)
    (law : (⟨2, ![1, 128]⟩ : Shape).Idx → EReal) (lab : (⟨2, ![1, 1]⟩ : Shape).Idx → EReal)
    (t2w : (⟨2, ![192, 64]⟩ : Shape).Idx → EReal) (t2b : (⟨2, ![1, 64]⟩ : Shape).Idx → EReal) :
    (⟨2, ![M, 64]⟩ : Shape).Idx → EReal :=
  fun i => rowOut (row c0 (i 0)) (row c1 (i 0)) (row c2 (i 0)) (row x (i 0))
    wb0 (fun j => b0 (ix2 (0 : Fin 1) j)) wb1 (fun j => b1 (ix2 (0 : Fin 1) j)) wb2 (fun j => b2 (ix2 (0 : Fin 1) j))
    (fun k => law (ix2 (0 : Fin 1) k)) (lab (ix2 (0 : Fin 1) (0 : Fin 1))) t2w (fun j => t2b (ix2 (0 : Fin 1) j)) (i 1)

theorem outTile_apply {M : ℕ} (c0 : (⟨2, ![M, 128]⟩ : Shape).Idx → EReal) (c1 : (⟨2, ![M, 256]⟩ : Shape).Idx → EReal)
    (c2 : (⟨2, ![M, 512]⟩ : Shape).Idx → EReal) (x : (⟨2, ![M, 64]⟩ : Shape).Idx → EReal)
    (wb0 : (⟨2, ![128, 64]⟩ : Shape).Idx → EReal) (b0 : (⟨2, ![1, 64]⟩ : Shape).Idx → EReal)
    (wb1 : (⟨2, ![256, 64]⟩ : Shape).Idx → EReal) (b1 : (⟨2, ![1, 64]⟩ : Shape).Idx → EReal)
    (wb2 : (⟨2, ![512, 64]⟩ : Shape).Idx → EReal) (b2 : (⟨2, ![1, 64]⟩ : Shape).Idx → EReal)
    (law : (⟨2, ![1, 128]⟩ : Shape).Idx → EReal) (lab : (⟨2, ![1, 1]⟩ : Shape).Idx → EReal)
    (t2w : (⟨2, ![192, 64]⟩ : Shape).Idx → EReal) (t2b : (⟨2, ![1, 64]⟩ : Shape).Idx → EReal) (p : Fin M) (q : Fin 64) :
    outTile c0 c1 c2 x wb0 b0 wb1 b1 wb2 b2 law lab t2w t2b (ix2 p q)
      = rowOut (row c0 p) (row c1 p) (row c2 p) (row x p)
          wb0 (fun j => b0 (ix2 (0 : Fin 1) j)) wb1 (fun j => b1 (ix2 (0 : Fin 1) j)) wb2 (fun j => b2 (ix2 (0 : Fin 1) j))
          (fun k => law (ix2 (0 : Fin 1) k)) (lab (ix2 (0 : Fin 1) (0 : Fin 1))) t2w (fun j => t2b (ix2 (0 : Fin 1) j)) q := rfl

/-- A row of a block of nodes reads out as the same row of the whole node array: if row `p` of each of the four blocks
    is row `r` of the corresponding array, the two read-outs agree along that row. -/
theorem outTile_row {T M : ℕ} (x0 : (⟨2, ![T, 128]⟩ : Shape).Idx → EReal) (x1 : (⟨2, ![T, 256]⟩ : Shape).Idx → EReal)
    (x2 : (⟨2, ![T, 512]⟩ : Shape).Idx → EReal) (x3 : (⟨2, ![T, 64]⟩ : Shape).Idx → EReal)
    (C0 : (⟨2, ![M, 128]⟩ : Shape).Idx → EReal) (C1 : (⟨2, ![M, 256]⟩ : Shape).Idx → EReal)
    (C2 : (⟨2, ![M, 512]⟩ : Shape).Idx → EReal) (X : (⟨2, ![M, 64]⟩ : Shape).Idx → EReal)
    (wb0 : (⟨2, ![128, 64]⟩ : Shape).Idx → EReal) (b0 : (⟨2, ![1, 64]⟩ : Shape).Idx → EReal)
    (wb1 : (⟨2, ![256, 64]⟩ : Shape).Idx → EReal) (b1 : (⟨2, ![1, 64]⟩ : Shape).Idx → EReal)
    (wb2 : (⟨2, ![512, 64]⟩ : Shape).Idx → EReal) (b2 : (⟨2, ![1, 64]⟩ : Shape).Idx → EReal)
    (law : (⟨2, ![1, 128]⟩ : Shape).Idx → EReal) (lab : (⟨2, ![1, 1]⟩ : Shape).Idx → EReal)
    (t2w : (⟨2, ![192, 64]⟩ : Shape).Idx → EReal) (t2b : (⟨2, ![1, 64]⟩ : Shape).Idx → EReal)
    (p : Fin T) (r : Fin M) (q : Fin 64)
    (h0 : ∀ k, x0 (ix2 p k) = C0 (ix2 r k)) (h1 : ∀ k, x1 (ix2 p k) = C1 (ix2 r k))
    (h2 : ∀ k, x2 (ix2 p k) = C2 (ix2 r k)) (h3 : ∀ k, x3 (ix2 p k) = X (ix2 r k)) :
    outTile x0 x1 x2 x3 wb0 b0 wb1 b1 wb2 b2 law lab t2w t2b (ix2 p q)
      = outTile C0 C1 C2 X wb0 b0 wb1 b1 wb2 b2 law lab t2w t2b (ix2 r q) := by
  rw [outTile_apply, outTile_apply, show row x0 p = row C0 r from funext h0, show row x1 p = row C1 r from funext h1,
    show row x2 p = row C2 r from funext h2, show row x3 p = row X r from funext h3]

/-! ## A softmax over one sigmoid score is one -/

/-- The starting word of a row maximum is the bottom of the extended reals. -/
theorem lowW_eq_bot : lowW = ⊥ := MaxSup.neg_inf_f32

/-- A sigmoid value is a real number. -/
theorem logistic_real (x : EReal) : ∃ r : ℝ, Ideal.logistic x = (r : EReal) := by
  induction x using EReal.rec with
  | bot => exact ⟨0, by rw [Ideal.logistic_bot]; rfl⟩
  | coe r => exact ⟨_, Ideal.logistic_coe r⟩
  | top => exact ⟨1, by rw [Ideal.logistic_top]; rfl⟩

/-- The softmax of a single real score is one: the score less itself is zero, `exp 0 = 1`, and `1 / 1 = 1`. -/
theorem softmax_single (r : ℝ) :
    Ideal.div (Ideal.exp ((r : EReal) - max lowW ((Finset.univ : Finset (Fin 1)).fold max lowW fun _ => (r : EReal))))
      (zeroW + ∑ _k : Fin 1, Ideal.exp ((r : EReal) - max lowW ((Finset.univ : Finset (Fin 1)).fold max lowW fun _ => (r : EReal))))
      = 1 := by
  have hu : (Finset.univ : Finset (Fin 1)) = {0} := by decide
  have hm : max lowW ((Finset.univ : Finset (Fin 1)).fold max lowW fun _ => (r : EReal)) = (r : EReal) := by
    rw [lowW_eq_bot, hu, Finset.fold_singleton]
    simp
  rw [hm]
  have h0 : (r : EReal) - (r : EReal) = 0 := by rw [← EReal.coe_sub, sub_self]; rfl
  have he : Ideal.exp (0 : EReal) = 1 := by
    have h1 : Ideal.exp (((0 : ℝ)) : EReal) = ((Real.exp 0 : ℝ) : EReal) := rfl
    rw [Real.exp_zero] at h1
    exact_mod_cast h1
  rw [h0, he, hu, Finset.sum_singleton, show zeroW = 0 from Ideal.ofBits_zero_f32, zero_add]
  rw [Ideal.div, if_neg one_ne_zero, one_mul, ← EReal.coe_one, ← EReal.coe_inv, inv_one]

end HopAttn

end
-- ==== Proof.HopTile.lean ====
/-
  One dense head over a tile of rows: relu (x · w + b), read at an entry.

  The kernel narrows both operands to bf16 before the product; at the ideal values a change of float format is the
  identity, so the product into the zero accumulator is the plain sum over the contracted coordinate. The bias arrives
  as a [1, N] row spread over the tile's rows. The entry (p, q) therefore depends on row p of the tile only: it is the
  head of that row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«181484_j20667382628944_2_alg».proof.Proof.LibPlainDot
import proofs.«181484_j20667382628944_2_alg».proof.Proof.HopSpec

noncomputable section

namespace HopAttn.Tile

open Idealize.ShloMosaic Idealize.ShloMosaic.ValueIdx

/-- The product of a tile with a weight matrix, both narrowed first, into the zero accumulator, at `(p, q)`. -/
theorem narrowedProduct_apply {T K N : ℕ} {ψ₁ ψ₂ : FTy} (d : DotDims ⟨2, ![T, K]⟩ ⟨2, ![K, N]⟩ ⟨2, ![T, N]⟩)
    (hd : d = DotDims.plain T K N) (prec : Option ContractPrecision)
    (x : FVec Ideal ⟨2, ![T, K]⟩ .f32) (w : FVec Ideal ⟨2, ![K, N]⟩ .f32)
    (h₁ : ψ₁.bits < FTy.f32.bits) (h₂ : ψ₂.bits < FTy.f32.bits) (p : Fin T) (q : Fin N) :
    FloatOps.matmul d prec (truncf ψ₁ x h₁) (truncf ψ₂ w h₂) (constant ⟨2, ![T, N]⟩ .f32 0x00000000#32) (ix2 p q)
      = ∑ k : Fin K, x (ix2 p k) * w (ix2 k q) :=
  PlainDot.matmul_zero_apply d hd prec (truncf ψ₁ x h₁) (truncf ψ₂ w h₂) p q

/-- A `[1, N]` row, cast to itself and spread over `T` rows, at `(p, q)`: the row's entry `q`. -/
theorem spreadRow_apply {T N : ℕ} (br : FVec Ideal ⟨2, ![1, N]⟩ .f32)
    (hc : (⟨2, ![1, N]⟩ : Shape).ShapeCasts ⟨2, ![1, N]⟩) (hb : (⟨2, ![1, N]⟩ : Shape).Broadcasts ⟨2, ![T, N]⟩)
    (p : Fin T) (q : Fin N) :
    broadcastTo ⟨2, ![T, N]⟩ (shapeCast ⟨2, ![1, N]⟩ br hc) hb (ix2 p q) = br (ix2 (0 : Fin 1) q) := by
  rw [shapeCast_self, broadcastTo_1b_ab_apply]

/-- The head of a tile at `(p, q)` is the head of the tile's row `p`. -/
theorem head_apply {T K N : ℕ} {ψ₁ ψ₂ : FTy} (d : DotDims ⟨2, ![T, K]⟩ ⟨2, ![K, N]⟩ ⟨2, ![T, N]⟩)
    (hd : d = DotDims.plain T K N) (prec : Option ContractPrecision)
    (x : FVec Ideal ⟨2, ![T, K]⟩ .f32) (w : FVec Ideal ⟨2, ![K, N]⟩ .f32) (br : FVec Ideal ⟨2, ![1, N]⟩ .f32)
    (h₁ : ψ₁.bits < FTy.f32.bits) (h₂ : ψ₂.bits < FTy.f32.bits)
    (hc : (⟨2, ![1, N]⟩ : Shape).ShapeCasts ⟨2, ![1, N]⟩) (hb : (⟨2, ![1, N]⟩ : Shape).Broadcasts ⟨2, ![T, N]⟩)
    (p : Fin T) (q : Fin N) :
    maximumf (addf (FloatOps.matmul d prec (truncf ψ₁ x h₁) (truncf ψ₂ w h₂) (constant ⟨2, ![T, N]⟩ .f32 0x00000000#32))
        (broadcastTo ⟨2, ![T, N]⟩ (shapeCast ⟨2, ![1, N]⟩ br hc) hb))
      (broadcast ⟨2, ![T, N]⟩ (Scalar.ofBits (F := Ideal) .f32 0x00000000#32)) (ix2 p q)
      = head (fun k => x (ix2 p k)) w (fun j => br (ix2 (0 : Fin 1) j)) q := by
  rw [maximumf_apply, addf_apply, broadcast_apply, narrowedProduct_apply d hd, spreadRow_apply]
  rfl

end HopAttn.Tile

end
-- ==== Proof.LibRowVec.lean ====
/-
  A one-row matrix read as a vector.

  A bias enters each dense stage as a `[1, K]` row. Read along that row it is a vector of length `K`; and a vector
  reshaped to one row and read back along the row is the vector itself.
-/
import Idealize.ShloMosaic.Lib.ValueIdx
import Idealize.ShloMosaic.Lib.ValueLayout
import Idealize.ShloMosaic.Lib.Pipeline.Value

noncomputable section

namespace Gcn

open Idealize.ShloMosaic Idealize.ShloMosaic.ValueIdx

/-- The entries of a `[1, K]` row, as a vector of length `K`. -/
def rowVec {K : ℕ} {α : Type} (br : (⟨2, ![1, K]⟩ : Shape).Idx → α) : (⟨1, ![K]⟩ : Shape).Idx → α :=
  fun j => br (ix2 (0 : Fin 1) (j 0))

theorem rowVec_apply {K : ℕ} {α : Type} (br : (⟨2, ![1, K]⟩ : Shape).Idx → α) (k : Fin K) :
    rowVec br (ix1 k) = br (ix2 (0 : Fin 1) k) := rfl

/-- A vector reshaped to one row and read back along that row is the vector. -/
theorem rowVec_shapeCast {K : ℕ} {α : Type} (b : (⟨1, ![K]⟩ : Shape).Idx → α)
    (h : (⟨1, ![K]⟩ : Shape).ShapeCasts ⟨2, ![1, K]⟩) : rowVec (shapeCast ⟨2, ![1, K]⟩ b h) = b := by
  funext j
  obtain ⟨k, rfl⟩ : ∃ k : Fin K, j = ix1 k := ⟨j 0, eq_ix1 j⟩
  exact shapeCast_a_1a_apply b h (0 : Fin 1) k

end Gcn

end
-- ==== Proof.Region0.lean ====
/-
  The first region's output array as a whole.

  The region runs the dense head over 25 blocks of 2000 rows. Block t of the node array is rows 2000 t … 2000 t + 1999;
  the weight matrix and the bias row are read whole at every point. What point t writes back at (p, q) is the head of
  row p of its block, that is of row 2000 t + p of the node array; the 25 blocks cover the output, so the output array
  ends as the projected features of all nodes.
-/
import proofs.«181484_j20667382628944_2_alg».proof.Proof.Gen.KernelIdeal.Frame
import proofs.«181484_j20667382628944_2_alg».proof.Proof.HopSpec
import proofs.«181484_j20667382628944_2_alg».proof.Proof.HopTile
import proofs.«181484_j20667382628944_2_alg».proof.Proof.LibRowVec
import Idealize.ShloMosaic.Lib.Pipeline.Value

set_option maxRecDepth 16384

noncomputable section

namespace Cert.KernelIdeal.Named

open Idealize.ShloMosaic Idealize.ShloMosaic.TcCoe Idealize.ShloMosaic.ValueIdx Idealize.SL.Sem
open Idealize.ShloMosaic.Pipeline (Dat Cfg Window)
open Cert.KernelIdeal Cert.KernelIdeal.Gen HopAttn

variable (V : (c : Dev nD) → (b : Ref sig .tc) → Buf (Elt Ideal) ((c : Thread nD τ).loc b))

theorem zeroOffsets : (![0, 0] : Fin 2 → Nat) = fun _ => 0 := funext fun a => by fin_cases a <;> rfl

/-- The first body's stored value at an entry: the head of the tile's row. -/
theorem body0_apply (x0 : Vec Ideal S2000x128 .f32) (x1 : Vec Ideal S128x64 .f32) (x2 : Vec Ideal S1x64 .f32)
    (p : Fin 2000) (q : Fin 64) :
    k0_pay1 (F := Ideal) x0 x1 x2 (ix2 p q) = head (fun k => x0 (ix2 p k)) x1 (fun j => x2 (ix2 (0 : Fin 1) j)) q := by
  unfold k0_pay1
  exact Tile.head_apply _ rfl none x0 x1 x2 _ _ _ _ p q

/-- If row `y 0` of the tile is row `i 0` of the node array, and the weights and bias row are the arrays', the stored
    value at `y` is the projected feature at `i` (same column). -/
theorem point0 (x0 : Vec Ideal S2000x128 .f32) (x1 : Vec Ideal S128x64 .f32) (x2 : Vec Ideal S1x64 .f32)
    (X : S50000x128.Idx → EReal) (W : S128x64.Idx → EReal) (B : S1x64.Idx → EReal)
    (y : S2000x64.Idx) (i : S50000x64.Idx)
    (h0 : ∀ k : Fin 128, x0 (ix2 (y 0) k) = X (ix2 (i 0) k)) (h1 : x1 = W) (h2 : x2 = B) (hq : y 1 = i 1) :
    k0_pay1 (F := Ideal) x0 x1 x2 y = features X W (Gcn.rowVec B) i := by
  obtain ⟨p, q, rfl⟩ : ∃ (p : Fin 2000) (q : Fin 64), y = ix2 p q := ⟨y 0, y 1, eq_ix2 y⟩
  obtain ⟨r, q', rfl⟩ : ∃ (r : Fin 50000) (q' : Fin 64), i = ix2 r q' := ⟨i 0, i 1, eq_ix2 i⟩
  have hqq : q = q' := hq
  subst hqq; subst h1; subst h2
  rw [body0_apply, features_apply]
  exact congrArg (fun f => head f x1 (fun j => x2 (ix2 (0 : Fin 1) j)) q) (funext h0)

/-- The printed block index maps over the grid: the node blocks move with the point, the weights and the bias row stay. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the projected features of the arrays the region finds. -/
theorem flushed0 (c : Dev nD) (t : Fin cfg0.N) :
    (dat0 V c).flushed 3 t = ((cfg0.win 3).blk t).view.read (Elt Ideal)
      (features (V c main_arg0) (V c main_arg3) (Gcn.rowVec (V c main_v8))) := by
  show (cfg0.win 3).cut (grid0.coords t) ((dat0 V c).after 3 t) = _
  rw [after0_3]
  unfold out0_3
  rw [View.canon_unit_zero zeroOffsets]
  simp only [View.ld_unit_zero (S := S2000x128) zeroOffsets, View.ld_unit_zero (S := S128x64) zeroOffsets,
    View.ld_unit_zero (S := S1x64) zeroOffsets]
  obtain ⟨e00, e01, e10, e11, e20, e21, e30, e31⟩ := blockIndex0 t
  funext j
  show k0_pay1 (F := Ideal) (iblk0 V c 0 t) (iblk0 V c 1 t) (iblk0 V c 2 t) j
    = features (V c main_arg0) (V c main_arg3) (Gcn.rowVec (V c main_v8)) (((cfg0.win 3).blk t).view.emb j)
  refine point0 _ _ _ _ _ _ j _ (fun k => ?_) ?_ ?_ ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 2000 + 1 * (j 0).val = win0_3.index t (0 : Fin 2) * 2000 + 1 * (j 0).val; rw [e00, e30]
    | ⟨1, _⟩ => show win0_0.index t (1 : Fin 2) * 128 + 1 * k.val = k.val; rw [e01]; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; rw [e10]; omega
    | ⟨1, _⟩ => show win0_1.index t (1 : Fin 2) * 64 + 1 * (y 1).val = (y 1).val; rw [e11]; omega
  · funext y
    show V c main_v8 (((cfg0.win 2).blk t).view.emb y) = V c main_v8 y
    refine congrArg (V c main_v8) (funext fun a => Fin.ext ?_)
    match a with
    | ⟨0, _⟩ => show win0_2.index t (0 : Fin 2) * 1 + 1 * (y 0).val = (y 0).val; rw [e20]; omega
    | ⟨1, _⟩ => show win0_2.index t (1 : Fin 2) * 64 + 1 * (y 1).val = (y 1).val; rw [e21]; omega
  · apply Fin.ext
    show (j 1).val = win0_3.index t (1 : Fin 2) * 64 + 1 * (j 1).val
    rw [e31]; omega

/-- An index of the output array is in point `t`'s block iff its row is among the block's 2000 rows. -/
theorem mem_block0 (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v9).slice (win0_3.rect t)).set ↔ _
  rw [View.set_slice_whole, Rect.mem_set_unit]
  exact Iff.rfl

/-- The 25 blocks cover the output array: row `r` lies in block `r / 2000`. -/
theorem cover0 (i : S50000x64.Idx) : ∃ t : Fin cfg0.N, (cfg0.win 3).flush t = true ∧ i ∈ ((cfg0.win 3).blk t).view.set := by
  have hN : grid0.N = 25 := N_0
  have hi0 : (i 0).val < 50000 := (i 0).isLt
  have hi1 : (i 1).val < 64 := (i 1).isLt
  let t : Fin cfg0.N := ⟨(i 0).val / 2000, by show (i 0).val / 2000 < grid0.N; rw [hN]; omega⟩
  obtain ⟨-, -, -, -, -, -, e30, e31⟩ := blockIndex0 t
  have ht : t.val = (i 0).val / 2000 := rfl
  refine ⟨t, flush0_3 t, ?_⟩
  rw [mem_block0]
  intro a
  match a with
  | ⟨0, _⟩ => show win0_3.index t (0 : Fin 2) * 2000 ≤ (i 0).val ∧ (i 0).val < win0_3.index t (0 : Fin 2) * 2000 + 2000; rw [e30, ht]; omega
  | ⟨1, _⟩ => show win0_3.index t (1 : Fin 2) * 64 ≤ (i 1).val ∧ (i 1).val < win0_3.index t (1 : Fin 2) * 64 + 64; rw [e31]; omega

/-- The first region's output array after the region: the projected features of all nodes. -/
theorem array0 (c : Dev nD) :
    (dat0 V c).arrAt 3 cfg0.N = features (V c main_arg0) (V c main_arg3) (Gcn.rowVec (V c main_v8)) :=
  (dat0 V c).arrAt_eq_of_cover 3 _ (fun t _ => flushed0 V c t) cover0

end Cert.KernelIdeal.Named

end
-- ==== Proof.Region1.lean ====
/-
  The second region's output array as a whole.

  The region runs the fused read-out over 25 blocks of 2000 nodes: block t of each of the three JK arrays and of the
  feature array is rows 2000 t … 2000 t + 1999; the head weights, the bias rows, the score's weight row and offset and
  the last projection are read whole at every point. What point t writes back at (p, q) is the read-out of row p of its
  blocks, which are row 2000 t + p of the arrays; the 25 blocks cover the output, so the output array ends as the
  read-out of every node, from the arrays the region finds.
-/
import proofs.«181484_j20667382628944_2_alg».proof.Proof.Gen.KernelIdeal.Frame
import proofs.«181484_j20667382628944_2_alg».proof.Proof.HopSpec
import Idealize.ShloMosaic.Lib.Pipeline.Value

set_option maxRecDepth 16384

noncomputable section

namespace Cert.KernelIdeal.Named

open Idealize.ShloMosaic Idealize.ShloMosaic.TcCoe Idealize.ShloMosaic.ValueIdx Idealize.SL.Sem
open Idealize.ShloMosaic.Pipeline (Dat Cfg Window)
open Cert.KernelIdeal Cert.KernelIdeal.Gen HopAttn

variable (V : (c : Dev nD) → (b : Ref sig .tc) → Buf (Elt Ideal) ((c : Thread nD τ).loc b))

theorem zeroOffsets1 : (![0, 0] : Fin 2 → Nat) = fun _ => 0 := funext fun a => by fin_cases a <;> rfl

/-- The printed block index maps over the grid: the four node blocks and the output block move with the point, the
    ten parameter arrays stay. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = 0 ∧ win1_13.index t (1 : Fin 2) = 0
    ∧ win1_14.index t (0 : Fin 2) = t.val ∧ win1_14.index t (1 : Fin 2) = 0 :=
  (by decide +kernel : ∀ t : Fin grid1.N, _)

/-- The second body's stored block, as the specification's read-out over a tile. -/
def BodyIsTile : Prop :=
  ∀ (x0 : Vec Ideal S2000x128 .f32) (x1 : Vec Ideal S2000x256 .f32) (x2 : Vec Ideal S2000x512 .f32) (x3 : Vec Ideal S2000x64 .f32) (x4 : Vec Ideal S128x64 .f32) (x5 : Vec Ideal S1x64 .f32) (x6 : Vec Ideal S256x64 .f32) (x7 : Vec Ideal S1x64 .f32) (x8 : Vec Ideal S512x64 .f32) (x9 : Vec Ideal S1x64 .f32) (x10 : Vec Ideal S1x128 .f32) (x11 : Vec Ideal S1x1 .f32) (x12 : Vec Ideal S192x64 .f32) (x13 : Vec Ideal S1x64 .f32),
    out1_14 (F := Ideal) x0 x1 x2 x3 x4 x5 x6 x7 x8 x9 x10 x11 x12 x13 = outTile x0 x1 x2 x3 x4 x5 x6 x7 x8 x9 x10 x11 x12 x13

/-- If row `y 0` of each of the four node blocks is row `i 0` of its array, the tile's read-out at `y` is the arrays'
    read-out at `i` (same column, same parameters). -/
theorem point1 (x0 : Vec Ideal S2000x128 .f32) (x1 : Vec Ideal S2000x256 .f32) (x2 : Vec Ideal S2000x512 .f32) (x3 : Vec Ideal S2000x64 .f32) (x4 : Vec Ideal S128x64 .f32) (x5 : Vec Ideal S1x64 .f32) (x6 : Vec Ideal S256x64 .f32) (x7 : Vec Ideal S1x64 .f32) (x8 : Vec Ideal S512x64 .f32) (x9 : Vec Ideal S1x64 .f32) (x10 : Vec Ideal S1x128 .f32) (x11 : Vec Ideal S1x1 .f32) (x12 : Vec Ideal S192x64 .f32) (x13 : Vec Ideal S1x64 .f32)
    (C0 : S50000x128.Idx → EReal) (C1 : S50000x256.Idx → EReal) (C2 : S50000x512.Idx → EReal) (X : S50000x64.Idx → EReal)
    (y : S2000x64.Idx) (i : S50000x64.Idx)
    (h0 : ∀ k : Fin 128, x0 (ix2 (y 0) k) = C0 (ix2 (i 0) k)) (h1 : ∀ k : Fin 256, x1 (ix2 (y 0) k) = C1 (ix2 (i 0) k))
    (h2 : ∀ k : Fin 512, x2 (ix2 (y 0) k) = C2 (ix2 (i 0) k)) (h3 : ∀ k : Fin 64, x3 (ix2 (y 0) k) = X (ix2 (i 0) k))
    (hq : y 1 = i 1) :
    outTile x0 x1 x2 x3 x4 x5 x6 x7 x8 x9 x10 x11 x12 x13 y = outTile C0 C1 C2 X x4 x5 x6 x7 x8 x9 x10 x11 x12 x13 i := by
  obtain ⟨p, q, rfl⟩ : ∃ (p : Fin 2000) (q : Fin 64), y = ix2 p q := ⟨y 0, y 1, eq_ix2 y⟩
  obtain ⟨r, q', rfl⟩ : ∃ (r : Fin 50000) (q' : Fin 64), i = ix2 r q' := ⟨i 0, i 1, eq_ix2 i⟩
  have hqq : q = q' := hq
  subst hqq
  exact outTile_row x0 x1 x2 x3 C0 C1 C2 X x4 x5 x6 x7 x8 x9 x10 x11 x12 x13 p r q h0 h1 h2 h3

/-- What point `t` writes back is block `t` of the read-out of the arrays the region finds. -/
theorem flushed1 (hbody : BodyIsTile) (c : Dev nD) (t : Fin cfg1.N) :
    (dat1 V c).flushed 14 t = ((cfg1.win 14).blk t).view.read (Elt Ideal)
      (outTile (V c main_v36) (V c main_v63) (V c main_v90) (V c main_v9) (V c main_arg9) (V c main_v93) (V c main_arg11) (V c main_v94) (V c main_arg13) (V c main_v95) (V c main_v91) (V c main_v92) (V c main_arg7) (V c main_v96)) := by
  show (cfg1.win 14).cut (grid1.coords t) ((dat1 V c).after 14 t) = _
  rw [after1_14, hbody]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1⟩ := blockIndex1 t
  have hw4 : iblk1 V c 4 t = V c main_arg9 := by
    funext y
    show V c main_arg9 (((cfg1.win 4).blk t).view.emb y) = V c main_arg9 y
    refine congrArg (V c main_arg9) (funext fun a => Fin.ext ?_)
    match a with
    | ⟨0, _⟩ => show win1_4.index t (0 : Fin 2) * 128 + 1 * (y 0).val = (y 0).val; rw [e4_0]; omega
    | ⟨1, _⟩ => show win1_4.index t (1 : Fin 2) * 64 + 1 * (y 1).val = (y 1).val; rw [e4_1]; omega
  have hw5 : iblk1 V c 5 t = V c main_v93 := by
    funext y
    show V c main_v93 (((cfg1.win 5).blk t).view.emb y) = V c main_v93 y
    refine congrArg (V c main_v93) (funext fun a => Fin.ext ?_)
    match a with
    | ⟨0, _⟩ => show win1_5.index t (0 : Fin 2) * 1 + 1 * (y 0).val = (y 0).val; rw [e5_0]; omega
    | ⟨1, _⟩ => show win1_5.index t (1 : Fin 2) * 64 + 1 * (y 1).val = (y 1).val; rw [e5_1]; omega
  have hw6 : iblk1 V c 6 t = V c main_arg11 := by
    funext y
    show V c main_arg11 (((cfg1.win 6).blk t).view.emb y) = V c main_arg11 y
    refine congrArg (V c main_arg11) (funext fun a => Fin.ext ?_)
    match a with
    | ⟨0, _⟩ => show win1_6.index t (0 : Fin 2) * 256 + 1 * (y 0).val = (y 0).val; rw [e6_0]; omega
    | ⟨1, _⟩ => show win1_6.index t (1 : Fin 2) * 64 + 1 * (y 1).val = (y 1).val; rw [e6_1]; omega
  have hw7 : iblk1 V c 7 t = V c main_v94 := by
    funext y
    show V c main_v94 (((cfg1.win 7).blk t).view.emb y) = V c main_v94 y
    refine congrArg (V c main_v94) (funext fun a => Fin.ext ?_)
    match a with
    | ⟨0, _⟩ => show win1_7.index t (0 : Fin 2) * 1 + 1 * (y 0).val = (y 0).val; rw [e7_0]; omega
    | ⟨1, _⟩ => show win1_7.index t (1 : Fin 2) * 64 + 1 * (y 1).val = (y 1).val; rw [e7_1]; omega
  have hw8 : iblk1 V c 8 t = V c main_arg13 := by
    funext y
    show V c main_arg13 (((cfg1.win 8).blk t).view.emb y) = V c main_arg13 y
    refine congrArg (V c main_arg13) (funext fun a => Fin.ext ?_)
    match a with
    | ⟨0, _⟩ => show win1_8.index t (0 : Fin 2) * 512 + 1 * (y 0).val = (y 0).val; rw [e8_0]; omega
    | ⟨1, _⟩ => show win1_8.index t (1 : Fin 2) * 64 + 1 * (y 1).val = (y 1).val; rw [e8_1]; omega
  have hw9 : iblk1 V c 9 t = V c main_v95 := by
    funext y
    show V c main_v95 (((cfg1.win 9).blk t).view.emb y) = V c main_v95 y
    refine congrArg (V c main_v95) (funext fun a => Fin.ext ?_)
    match a with
    | ⟨0, _⟩ => show win1_9.index t (0 : Fin 2) * 1 + 1 * (y 0).val = (y 0).val; rw [e9_0]; omega
    | ⟨1, _⟩ => show win1_9.index t (1 : Fin 2) * 64 + 1 * (y 1).val = (y 1).val; rw [e9_1]; omega
  have hw10 : iblk1 V c 10 t = V c main_v91 := by
    funext y
    show V c main_v91 (((cfg1.win 10).blk t).view.emb y) = V c main_v91 y
    refine congrArg (V c main_v91) (funext fun a => Fin.ext ?_)
    match a with
    | ⟨0, _⟩ => show win1_10.index t (0 : Fin 2) * 1 + 1 * (y 0).val = (y 0).val; rw [e10_0]; omega
    | ⟨1, _⟩ => show win1_10.index t (1 : Fin 2) * 128 + 1 * (y 1).val = (y 1).val; rw [e10_1]; omega
  have hw11 : iblk1 V c 11 t = V c main_v92 := by
    funext y
    show V c main_v92 (((cfg1.win 11).blk t).view.emb y) = V c main_v92 y
    refine congrArg (V c main_v92) (funext fun a => Fin.ext ?_)
    match a with
    | ⟨0, _⟩ => show win1_11.index t (0 : Fin 2) * 1 + 1 * (y 0).val = (y 0).val; rw [e11_0]; omega
    | ⟨1, _⟩ => show win1_11.index t (1 : Fin 2) * 1 + 1 * (y 1).val = (y 1).val; rw [e11_1]; omega
  have hw12 : iblk1 V c 12 t = V c main_arg7 := by
    funext y
    show V c main_arg7 (((cfg1.win 12).blk t).view.emb y) = V c main_arg7 y
    refine congrArg (V c main_arg7) (funext fun a => Fin.ext ?_)
    match a with
    | ⟨0, _⟩ => show win1_12.index t (0 : Fin 2) * 192 + 1 * (y 0).val = (y 0).val; rw [e12_0]; omega
    | ⟨1, _⟩ => show win1_12.index t (1 : Fin 2) * 64 + 1 * (y 1).val = (y 1).val; rw [e12_1]; omega
  have hw13 : iblk1 V c 13 t = V c main_v96 := by
    funext y
    show V c main_v96 (((cfg1.win 13).blk t).view.emb y) = V c main_v96 y
    refine congrArg (V c main_v96) (funext fun a => Fin.ext ?_)
    match a with
    | ⟨0, _⟩ => show win1_13.index t (0 : Fin 2) * 1 + 1 * (y 0).val = (y 0).val; rw [e13_0]; omega
    | ⟨1, _⟩ => show win1_13.index t (1 : Fin 2) * 64 + 1 * (y 1).val = (y 1).val; rw [e13_1]; omega
  rw [hw4, hw5, hw6, hw7, hw8, hw9, hw10, hw11, hw12, hw13]
  funext j
  show outTile (iblk1 V c 0 t) (iblk1 V c 1 t) (iblk1 V c 2 t) (iblk1 V c 3 t) (V c main_arg9) (V c main_v93) (V c main_arg11) (V c main_v94) (V c main_arg13) (V c main_v95) (V c main_v91) (V c main_v92) (V c main_arg7) (V c main_v96) j
    = outTile (V c main_v36) (V c main_v63) (V c main_v90) (V c main_v9) (V c main_arg9) (V c main_v93) (V c main_arg11) (V c main_v94) (V c main_arg13) (V c main_v95) (V c main_v91) (V c main_v92) (V c main_arg7) (V c main_v96) (((cfg1.win 14).blk t).view.emb j)
  refine point1 _ _ _ _ _ _ _ _ _ _ _ _ _ _ _ _ _ _ j _ ?_ ?_ ?_ ?_ ?_
  · intro k
    show V c main_v36 (((cfg1.win 0).blk t).view.emb (ix2 (j 0) k)) = V c main_v36 (ix2 ((((cfg1.win 14).blk t).view.emb j) 0) k)
    refine congrArg (V c main_v36) (funext fun a => Fin.ext ?_)
    match a with
    | ⟨0, _⟩ => show win1_0.index t (0 : Fin 2) * 2000 + 1 * (j 0).val = win1_14.index t (0 : Fin 2) * 2000 + 1 * (j 0).val; rw [e0_0, e14_0]
    | ⟨1, _⟩ => show win1_0.index t (1 : Fin 2) * 128 + 1 * k.val = k.val; rw [e0_1]; omega
  · intro k
    show V c main_v63 (((cfg1.win 1).blk t).view.emb (ix2 (j 0) k)) = V c main_v63 (ix2 ((((cfg1.win 14).blk t).view.emb j) 0) k)
    refine congrArg (V c main_v63) (funext fun a => Fin.ext ?_)
    match a with
    | ⟨0, _⟩ => show win1_1.index t (0 : Fin 2) * 2000 + 1 * (j 0).val = win1_14.index t (0 : Fin 2) * 2000 + 1 * (j 0).val; rw [e1_0, e14_0]
    | ⟨1, _⟩ => show win1_1.index t (1 : Fin 2) * 256 + 1 * k.val = k.val; rw [e1_1]; omega
  · intro k
    show V c main_v90 (((cfg1.win 2).blk t).view.emb (ix2 (j 0) k)) = V c main_v90 (ix2 ((((cfg1.win 14).blk t).view.emb j) 0) k)
    refine congrArg (V c main_v90) (funext fun a => Fin.ext ?_)
    match a with
    | ⟨0, _⟩ => show win1_2.index t (0 : Fin 2) * 2000 + 1 * (j 0).val = win1_14.index t (0 : Fin 2) * 2000 + 1 * (j 0).val; rw [e2_0, e14_0]
    | ⟨1, _⟩ => show win1_2.index t (1 : Fin 2) * 512 + 1 * k.val = k.val; rw [e2_1]; omega
  · intro k
    show V c main_v9 (((cfg1.win 3).blk t).view.emb (ix2 (j 0) k)) = V c main_v9 (ix2 ((((cfg1.win 14).blk t).view.emb j) 0) k)
    refine congrArg (V c main_v9) (funext fun a => Fin.ext ?_)
    match a with
    | ⟨0, _⟩ => show win1_3.index t (0 : Fin 2) * 2000 + 1 * (j 0).val = win1_14.index t (0 : Fin 2) * 2000 + 1 * (j 0).val; rw [e3_0, e14_0]
    | ⟨1, _⟩ => show win1_3.index t (1 : Fin 2) * 64 + 1 * k.val = k.val; rw [e3_1]; omega
  · apply Fin.ext
    show (j 1).val = win1_14.index t (1 : Fin 2) * 64 + 1 * (j 1).val
    rw [e14_1]; omega

/-- An index of the output array is in point `t`'s block iff its row is among the block's 2000 rows. -/
theorem mem_block1 (t : Fin cfg1.N) (i : S50000x64.Idx) :
    i ∈ ((cfg1.win 14).blk t).view.set ↔ ∀ a : Fin 2, win1_14.index t a * S2000x64.size a ≤ (i a).val
      ∧ (i a).val < win1_14.index t a * S2000x64.size a + S2000x64.size a := by
  show i ∈ ((View.whole main_v97).slice (win1_14.rect t)).set ↔ _
  rw [View.set_slice_whole, Rect.mem_set_unit]
  exact Iff.rfl

/-- The 25 blocks cover the output array: row `r` lies in block `r / 2000`. -/
theorem cover1 (i : S50000x64.Idx) : ∃ t : Fin cfg1.N, (cfg1.win 14).flush t = true ∧ i ∈ ((cfg1.win 14).blk t).view.set := by
  have hN : grid1.N = 25 := N_1
  have hi0 : (i 0).val < 50000 := (i 0).isLt
  have hi1 : (i 1).val < 64 := (i 1).isLt
  let t : Fin cfg1.N := ⟨(i 0).val / 2000, by show (i 0).val / 2000 < grid1.N; rw [hN]; omega⟩
  obtain ⟨-, -, -, -, -, -, -, -, -, -, -, -, -, -, -, -, -, -, -, -, -, -, -, -, -, -, -, -, e14_0, e14_1⟩ := blockIndex1 t
  have ht : t.val = (i 0).val / 2000 := rfl
  refine ⟨t, flush1_14 t, ?_⟩
  rw [mem_block1]
  intro a
  match a with
  | ⟨0, _⟩ => show win1_14.index t (0 : Fin 2) * 2000 ≤ (i 0).val ∧ (i 0).val < win1_14.index t (0 : Fin 2) * 2000 + 2000; rw [e14_0, ht]; omega
  | ⟨1, _⟩ => show win1_14.index t (1 : Fin 2) * 64 ≤ (i 1).val ∧ (i 1).val < win1_14.index t (1 : Fin 2) * 64 + 64; rw [e14_1]; omega

/-- The second region's output array after the region: the read-out of every node, from the arrays the region finds. -/
theorem array1 (hbody : BodyIsTile) (c : Dev nD) :
    (dat1 V c).arrAt 14 cfg1.N = outTile (V c main_v36) (V c main_v63) (V c main_v90) (V c main_v9) (V c main_arg9) (V c main_v93) (V c main_arg11) (V c main_v94) (V c main_arg13) (V c main_v95) (V c main_v91) (V c main_v92) (V c main_arg7) (V c main_v96) :=
  (dat1 V c).arrAt_eq_of_cover 14 _ (fun t _ => flushed1 V hbody c t) cover1

end Cert.KernelIdeal.Named

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.KernelStretch.lean ====
/-
  What the kernel's two stretches of host operations leave.

  The first stretch computes the in-degree of every node, its reciprocal (1 / max(deg, 1)), and lays the first bias
  vector out as a row. The second stretch is the graph part: six times, gather the rows at the edge sources, add them up
  at the edge targets and scale by the degree reciprocal; the six hop results are joined in pairs into three arrays
  (128, 256 and 512 wide). It also lays the remaining bias vectors, the score's weight column and its offset out as rows.
  The reference performs the same operations, written the same way, on the same feature array, so whenever the feature
  array the second stretch finds is the reference's, the three joined arrays are the reference's — one operation after
  the other, the same functions of the same operands. No operation of the second stretch writes the feature array or an
  argument.
-/
import proofs.«181484_j20667382628944_2_alg».proof.Proof.Gen.KernelIdeal.Frame
import proofs.«181484_j20667382628944_2_alg».proof.Proof.RefRead
import proofs.«181484_j20667382628944_2_alg».proof.Proof.LibJoinedPair
import Idealize.ShloMosaic.Lib.StableHlo.Run

set_option maxRecDepth 16384

noncomputable section

namespace Cert.KernelIdeal.Named

open Idealize.ShloMosaic Idealize.ShloMosaic.TcCoe Idealize.SL.Sem Idealize.ShloMosaic.StableHlo
open Cert.KernelIdeal Cert.KernelIdeal.Gen

/-! ## The first stretch -/

section First
variable (W : Valuation τ sig (Elt Ideal))

set_option maxHeartbeats 4000000 in
/-- The first bias vector, laid out as a row. -/
theorem first_biasRow :
    after (hostOps0 (F := Ideal)) W (Proc.devRef .tc main_v8)
      = shapeCast S1x64 (W (Proc.devRef .tc main_arg4)) shapeCasts_S64_S1x64 := by
  after_results_simp
  rfl

set_option maxHeartbeats 4000000 in
/-- The degree reciprocal is the reference's, as a function of the edge targets. -/
theorem first_degInv (x2 : (⟨Cert.ReferenceIdeal.S400000, .i32⟩ : BufTy).Contents (Elt Ideal)) (h2 : W (Proc.devRef .tc main_arg2) = x2) :
    after (hostOps0 (F := Ideal)) W (Proc.devRef .tc main_v7) = Cert.ReferenceIdeal.ReadP.val_main_v7 (F := Ideal) x2 := by
  after_results_simp
  rw [h2]
  rfl

set_option maxHeartbeats 4000000 in
theorem first_keeps_arg0 : after (hostOps0 (F := Ideal)) W (Proc.devRef .tc main_arg0) = W (Proc.devRef .tc main_arg0) := by
  after_results_simp
set_option maxHeartbeats 4000000 in
theorem first_keeps_arg1 : after (hostOps0 (F := Ideal)) W (Proc.devRef .tc main_arg1) = W (Proc.devRef .tc main_arg1) := by
  after_results_simp
set_option maxHeartbeats 4000000 in
theorem first_keeps_arg2 : after (hostOps0 (F := Ideal)) W (Proc.devRef .tc main_arg2) = W (Proc.devRef .tc main_arg2) := by
  after_results_simp
set_option maxHeartbeats 4000000 in
theorem first_keeps_arg3 : after (hostOps0 (F := Ideal)) W (Proc.devRef .tc main_arg3) = W (Proc.devRef .tc main_arg3) := by
  after_results_simp
set_option maxHeartbeats 4000000 in
theorem first_keeps_arg5 : after (hostOps0 (F := Ideal)) W (Proc.devRef .tc main_arg5) = W (Proc.devRef .tc main_arg5) := by
  after_results_simp
set_option maxHeartbeats 4000000 in
theorem first_keeps_arg6 : after (hostOps0 (F := Ideal)) W (Proc.devRef .tc main_arg6) = W (Proc.devRef .tc main_arg6) := by
  after_results_simp
set_option maxHeartbeats 4000000 in
theorem first_keeps_arg7 : after (hostOps0 (F := Ideal)) W (Proc.devRef .tc main_arg7) = W (Proc.devRef .tc main_arg7) := by
  after_results_simp
set_option maxHeartbeats 4000000 in
theorem first_keeps_arg8 : after (hostOps0 (F := Ideal)) W (Proc.devRef .tc main_arg8) = W (Proc.devRef .tc main_arg8) := by
  after_results_simp
set_option maxHeartbeats 4000000 in
theorem first_keeps_arg9 : after (hostOps0 (F := Ideal)) W (Proc.devRef .tc main_arg9) = W (Proc.devRef .tc main_arg9) := by
  after_results_simp
set_option maxHeartbeats 4000000 in
theorem first_keeps_arg10 : after (hostOps0 (F := Ideal)) W (Proc.devRef .tc main_arg10) = W (Proc.devRef .tc main_arg10) := by
  after_results_simp
set_option maxHeartbeats 4000000 in
theorem first_keeps_arg11 : after (hostOps0 (F := Ideal)) W (Proc.devRef .tc main_arg11) = W (Proc.devRef .tc main_arg11) := by
  after_results_simp
set_option maxHeartbeats 4000000 in
theorem first_keeps_arg12 : after (hostOps0 (F := Ideal)) W (Proc.devRef .tc main_arg12) = W (Proc.devRef .tc main_arg12) := by
  after_results_simp
set_option maxHeartbeats 4000000 in
theorem first_keeps_arg13 : after (hostOps0 (F := Ideal)) W (Proc.devRef .tc main_arg13) = W (Proc.devRef .tc main_arg13) := by
  after_results_simp
set_option maxHeartbeats 4000000 in
theorem first_keeps_arg14 : after (hostOps0 (F := Ideal)) W (Proc.devRef .tc main_arg14) = W (Proc.devRef .tc main_arg14) := by
  after_results_simp

end First

/-! ## The second stretch -/

section Second
variable (W : Valuation τ sig (Elt Ideal))
variable (x0 : (⟨Cert.ReferenceIdeal.S50000x128, .f32⟩ : BufTy).Contents (Elt Ideal)) (x1 x2 : (⟨Cert.ReferenceIdeal.S400000, .i32⟩ : BufTy).Contents (Elt Ideal))
  (x3 : (⟨Cert.ReferenceIdeal.S128x64, .f32⟩ : BufTy).Contents (Elt Ideal)) (x4 : (⟨Cert.ReferenceIdeal.S64, .f32⟩ : BufTy).Contents (Elt Ideal))

set_option maxHeartbeats 40000000 in
/-- The first joined array (two hops, 128 wide) is the reference's. -/
theorem second_cat0 (h9 : W (Proc.devRef .tc main_v9) = Cert.ReferenceIdeal.ReadP.val_main_v12 (F := Ideal) x0 x3 x4)
    (h1 : W (Proc.devRef .tc main_arg1) = x1) (h2 : W (Proc.devRef .tc main_arg2) = x2)
    (h7 : W (Proc.devRef .tc main_v7) = Cert.ReferenceIdeal.ReadP.val_main_v7 (F := Ideal) x2) :
    after (hostOps1 (F := Ideal)) W (Proc.devRef .tc main_v36) = Cert.ReferenceIdeal.ReadP.val_main_v39 (F := Ideal) x0 x1 x2 x3 x4 := by
  read_fold
  rw [h9, h1, h2, h7]
  rfl

set_option maxHeartbeats 40000000 in
/-- The second joined array (four hops, 256 wide) is the reference's. -/
theorem second_cat1 (h9 : W (Proc.devRef .tc main_v9) = Cert.ReferenceIdeal.ReadP.val_main_v12 (F := Ideal) x0 x3 x4)
    (h1 : W (Proc.devRef .tc main_arg1) = x1) (h2 : W (Proc.devRef .tc main_arg2) = x2)
    (h7 : W (Proc.devRef .tc main_v7) = Cert.ReferenceIdeal.ReadP.val_main_v7 (F := Ideal) x2) :
    after (hostOps1 (F := Ideal)) W (Proc.devRef .tc main_v63) = Cert.ReferenceIdeal.ReadP.val_main_v71 (F := Ideal) x0 x1 x2 x3 x4 := by
  read_fold
  rw [h9, h1, h2, h7]
  rfl

set_option maxHeartbeats 40000000 in
/-- The third joined array (six hops, 512 wide) is the reference's. -/
theorem second_cat2 (h9 : W (Proc.devRef .tc main_v9) = Cert.ReferenceIdeal.ReadP.val_main_v12 (F := Ideal) x0 x3 x4)
    (h1 : W (Proc.devRef .tc main_arg1) = x1) (h2 : W (Proc.devRef .tc main_arg2) = x2)
    (h7 : W (Proc.devRef .tc main_v7) = Cert.ReferenceIdeal.ReadP.val_main_v7 (F := Ideal) x2) :
    after (hostOps1 (F := Ideal)) W (Proc.devRef .tc main_v90) = Cert.ReferenceIdeal.ReadP.val_main_v103 (F := Ideal) x0 x1 x2 x3 x4 := by
  read_fold
  rw [h9, h1, h2, h7]
  rfl

set_option maxHeartbeats 40000000 in
/-- The feature array is not written. -/
theorem second_keeps_features : after (hostOps1 (F := Ideal)) W (Proc.devRef .tc main_v9) = W (Proc.devRef .tc main_v9) := by
  after_results_simp

set_option maxHeartbeats 40000000 in
theorem second_keeps_arg7 : after (hostOps1 (F := Ideal)) W (Proc.devRef .tc main_arg7) = W (Proc.devRef .tc main_arg7) := by
  after_results_simp
set_option maxHeartbeats 40000000 in
theorem second_keeps_arg9 : after (hostOps1 (F := Ideal)) W (Proc.devRef .tc main_arg9) = W (Proc.devRef .tc main_arg9) := by
  after_results_simp
set_option maxHeartbeats 40000000 in
theorem second_keeps_arg11 : after (hostOps1 (F := Ideal)) W (Proc.devRef .tc main_arg11) = W (Proc.devRef .tc main_arg11) := by
  after_results_simp
set_option maxHeartbeats 40000000 in
theorem second_keeps_arg13 : after (hostOps1 (F := Ideal)) W (Proc.devRef .tc main_arg13) = W (Proc.devRef .tc main_arg13) := by
  after_results_simp

set_option maxHeartbeats 40000000 in
/-- `main_arg5` laid out as a row. -/
theorem second_row_v91 :
    after (hostOps1 (F := Ideal)) W (Proc.devRef .tc main_v91) = shapeCast S1x128 (W (Proc.devRef .tc main_arg5)) shapeCasts_S128x1_S1x128 := by
  after_results_simp
  rfl
set_option maxHeartbeats 40000000 in
/-- `main_arg6` laid out as a row. -/
theorem second_row_v92 :
    after (hostOps1 (F := Ideal)) W (Proc.devRef .tc main_v92) = shapeCast S1x1 (W (Proc.devRef .tc main_arg6)) shapeCasts_S1_S1x1 := by
  after_results_simp
  rfl
set_option maxHeartbeats 40000000 in
/-- `main_arg10` laid out as a row. -/
theorem second_row_v93 :
    after (hostOps1 (F := Ideal)) W (Proc.devRef .tc main_v93) = shapeCast S1x64 (W (Proc.devRef .tc main_arg10)) shapeCasts_S64_S1x64 := by
  after_results_simp
  rfl
set_option maxHeartbeats 40000000 in
/-- `main_arg12` laid out as a row. -/
theorem second_row_v94 :
    after (hostOps1 (F := Ideal)) W (Proc.devRef .tc main_v94) = shapeCast S1x64 (W (Proc.devRef .tc main_arg12)) shapeCasts_S64_S1x64 := by
  after_results_simp
  rfl
set_option maxHeartbeats 40000000 in
/-- `main_arg14` laid out as a row. -/
theorem second_row_v95 :
    after (hostOps1 (F := Ideal)) W (Proc.devRef .tc main_v95) = shapeCast S1x64 (W (Proc.devRef .tc main_arg14)) shapeCasts_S64_S1x64 := by
  after_results_simp
  rfl
set_option maxHeartbeats 40000000 in
/-- `main_arg8` laid out as a row. -/
theorem second_row_v96 :
    after (hostOps1 (F := Ideal)) W (Proc.devRef .tc main_v96) = shapeCast S1x64 (W (Proc.devRef .tc main_arg8)) shapeCasts_S64_S1x64 := by
  after_results_simp
  rfl

end Second

end Cert.KernelIdeal.Named

end
-- ==== Proof.HopRows.lean ====
/-
  Vectors laid out as rows.

  The kernel receives each bias vector as a [1, 64] row, the score's weight column [128, 1] as a [1, 128] row and its
  offset [1] as a [1, 1] array: reshapes, which move no entry. Read back along the row they are the vector, the column
  and the offset, so the read-out over a tile fed with the reshaped parameters is the read-out of the whole node array
  fed with the parameters themselves.
-/
import Idealize.ShloMosaic.Lib.ValueIdx
import Idealize.ShloMosaic.Lib.ValueLayout
import Idealize.ShloMosaic.Lib.Pipeline.Value
import proofs.«181484_j20667382628944_2_alg».proof.Proof.HopSpec

noncomputable section

namespace HopAttn

open Idealize.ShloMosaic Idealize.ShloMosaic.ValueIdx

/-- A vector reshaped to one row, read back along the row, is the vector. -/
theorem rowOfVec {n : ℕ} (b : (⟨1, ![n]⟩ : Shape).Idx → EReal) (h : (⟨1, ![n]⟩ : Shape).ShapeCasts ⟨2, ![1, n]⟩) :
    (fun j : Fin n => shapeCast ⟨2, ![1, n]⟩ b h (ix2 (0 : Fin 1) j)) = vec b :=
  funext fun j => shapeCast_a_1a_apply b h (0 : Fin 1) j

/-- A column reshaped to one row, read back along the row, is the column. -/
theorem rowOfCol {n : ℕ} (w : (⟨2, ![n, 1]⟩ : Shape).Idx → EReal) (h : (⟨2, ![n, 1]⟩ : Shape).ShapeCasts ⟨2, ![1, n]⟩) :
    (fun k : Fin n => shapeCast ⟨2, ![1, n]⟩ w h (ix2 (0 : Fin 1) k)) = col0 w :=
  funext fun k => shapeCast_apply w h (ix2 (0 : Fin 1) k) (ix2 k (0 : Fin 1)) (by
    rw [Shape.rowMajor_val_two, Shape.rowMajor_val_two]
    show k.val * 1 + 0 = 0 * n + k.val
    omega)

/-- The tile read-out fed with the reshaped parameters is the whole-array read-out fed with the parameters. -/
theorem outTile_reshaped {M : ℕ} (c0 : (⟨2, ![M, 128]⟩ : Shape).Idx → EReal) (c1 : (⟨2, ![M, 256]⟩ : Shape).Idx → EReal)
    (c2 : (⟨2, ![M, 512]⟩ : Shape).Idx → EReal) (x : (⟨2, ![M, 64]⟩ : Shape).Idx → EReal)
    (law : (⟨2, ![128, 1]⟩ : Shape).Idx → EReal) (lab : (⟨1, ![1]⟩ : Shape).Idx → EReal)
    (t2w : (⟨2, ![192, 64]⟩ : Shape).Idx → EReal) (t2b : (⟨1, ![64]⟩ : Shape).Idx → EReal)
    (wb0 : (⟨2, ![128, 64]⟩ : Shape).Idx → EReal) (bb0 : (⟨1, ![64]⟩ : Shape).Idx → EReal)
    (wb1 : (⟨2, ![256, 64]⟩ : Shape).Idx → EReal) (bb1 : (⟨1, ![64]⟩ : Shape).Idx → EReal)
    (wb2 : (⟨2, ![512, 64]⟩ : Shape).Idx → EReal) (bb2 : (⟨1, ![64]⟩ : Shape).Idx → EReal)
    (h0 h1 h2 h3 : (⟨1, ![64]⟩ : Shape).ShapeCasts ⟨2, ![1, 64]⟩)
    (hl : (⟨2, ![128, 1]⟩ : Shape).ShapeCasts ⟨2, ![1, 128]⟩) (hb : (⟨1, ![1]⟩ : Shape).ShapeCasts ⟨2, ![1, 1]⟩) :
    outTile c0 c1 c2 x wb0 (shapeCast ⟨2, ![1, 64]⟩ bb0 h0) wb1 (shapeCast ⟨2, ![1, 64]⟩ bb1 h1)
        wb2 (shapeCast ⟨2, ![1, 64]⟩ bb2 h2) (shapeCast ⟨2, ![1, 128]⟩ law hl) (shapeCast ⟨2, ![1, 1]⟩ lab hb)
        t2w (shapeCast ⟨2, ![1, 64]⟩ t2b h3)
      = out c0 c1 c2 x law lab t2w t2b wb0 bb0 wb1 bb1 wb2 bb2 := by
  funext i
  unfold outTile out
  rw [rowOfVec bb0 h0, rowOfVec bb1 h1, rowOfVec bb2 h2, rowOfVec t2b h3, rowOfCol law hl,
    show shapeCast ⟨2, ![1, 1]⟩ lab hb (ix2 (0 : Fin 1) (0 : Fin 1)) = lab (ix1 (0 : Fin 1)) from
      shapeCast_a_1a_apply lab hb (0 : Fin 1) (0 : Fin 1)]

end HopAttn

end
-- ==== Proof.KernelValue.lean ====
/-
  The kernel's result, read back to the arguments.

  After the run the result's buffer holds what the second region's 25 write-backs leave: the read-out of every node from
  the arrays that region finds. Those are what the second stretch of host operations leaves from the first region's
  output (the projected features) and the arguments; the first region's inputs are what the first stretch leaves from
  the arguments. Following the contents back: the feature array is the reference's, hence the three joined hop arrays
  are the reference's, the parameters are the arguments (reshaped), and the read-out of all that is the reference's last
  stage.
-/
import proofs.«181484_j20667382628944_2_alg».proof.Proof.KernelRun
import proofs.«181484_j20667382628944_2_alg».proof.Proof.Region0
import proofs.«181484_j20667382628944_2_alg».proof.Proof.Region1
import proofs.«181484_j20667382628944_2_alg».proof.Proof.KernelStretch
import proofs.«181484_j20667382628944_2_alg».proof.Proof.HopRows
import proofs.«181484_j20667382628944_2_alg».proof.Proof.RefRead
import proofs.«181484_j20667382628944_2_alg».proof.Proof.LibRowVec

set_option maxRecDepth 16384

noncomputable section

namespace Cert.KernelIdeal.Named

open Idealize.ShloMosaic Idealize.ShloMosaic.TcCoe Idealize.ShloMosaic.ValueIdx Idealize.SL.Sem Idealize.ShloMosaic.StableHlo
open Cert.KernelIdeal Cert.KernelIdeal.Gen HopAttn

variable (m : (ℓ : Loc nD τ sig) → Buf (Elt Ideal) ℓ) (ρ : Dev nD → PrngReg)

/-- The statement that the reference's feature stage is the projected features: a statement about the reference's
    stages alone, taken here as a hypothesis. -/
def FeaturesAreSpec : Prop :=
  ∀ (x0 : (⟨Cert.ReferenceIdeal.S50000x128, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)),
    Cert.ReferenceIdeal.ReadP.val_main_v12 (F := Ideal) x0 x3 x4 = features x0 x3 x4

/-- The statement that the reference's last stage is the read-out of its joined hop arrays and its features: a
    statement about the reference's stages alone, taken here as a hypothesis. -/
def TailIsSpec : Prop :=
  ∀ (x0 : (⟨Cert.ReferenceIdeal.S50000x128, .f32⟩ : BufTy).Contents (Elt Ideal)) (x1 x2 : (⟨Cert.ReferenceIdeal.S400000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S128x1, .f32⟩ : BufTy).Contents (Elt Ideal)) (x6 : (⟨Cert.ReferenceIdeal.S1, .f32⟩ : BufTy).Contents (Elt Ideal)) (x7 : (⟨Cert.ReferenceIdeal.S192x64, .f32⟩ : BufTy).Contents (Elt Ideal)) (x8 : (⟨Cert.ReferenceIdeal.S64, .f32⟩ : BufTy).Contents (Elt Ideal)) (x9 : (⟨Cert.ReferenceIdeal.S128x64, .f32⟩ : BufTy).Contents (Elt Ideal)) (x10 : (⟨Cert.ReferenceIdeal.S64, .f32⟩ : BufTy).Contents (Elt Ideal)) (x11 : (⟨Cert.ReferenceIdeal.S256x64, .f32⟩ : BufTy).Contents (Elt Ideal)) (x12 : (⟨Cert.ReferenceIdeal.S64, .f32⟩ : BufTy).Contents (Elt Ideal)) (x13 : (⟨Cert.ReferenceIdeal.S512x64, .f32⟩ : BufTy).Contents (Elt Ideal)) (x14 : (⟨Cert.ReferenceIdeal.S64, .f32⟩ : BufTy).Contents (Elt Ideal)),
    Cert.ReferenceIdeal.ReadP.val_main_v202 (F := Ideal) x0 x1 x2 x3 x4 x5 x6 x7 x8 x9 x10 x11 x12 x13 x14
      = out (Cert.ReferenceIdeal.ReadP.val_main_v39 (F := Ideal) x0 x1 x2 x3 x4) (Cert.ReferenceIdeal.ReadP.val_main_v71 (F := Ideal) x0 x1 x2 x3 x4)
          (Cert.ReferenceIdeal.ReadP.val_main_v103 (F := Ideal) x0 x1 x2 x3 x4) (Cert.ReferenceIdeal.ReadP.val_main_v12 (F := Ideal) x0 x3 x4)
          x5 x6 x7 x8 x9 x10 x11 x12 x13 x14

/-! ## After the first stretch and the first region -/

theorem V1_arg0 (c : Dev nD) : V1 m ρ c main_arg0 = m ((c : Thread nD τ).loc main_arg0) := first_keeps_arg0 (W0 m ρ c)
theorem V1_arg3 (c : Dev nD) : V1 m ρ c main_arg3 = m ((c : Thread nD τ).loc main_arg3) := first_keeps_arg3 (W0 m ρ c)
theorem V1_biasRow (c : Dev nD) :
    V1 m ρ c main_v8 = shapeCast S1x64 (m ((c : Thread nD τ).loc main_arg4)) shapeCasts_S64_S1x64 := first_biasRow (W0 m ρ c)

/-- The first region's output, the feature array, is the reference's feature stage. -/
theorem W2_features (hfeat : FeaturesAreSpec) (c : Dev nD) :
    W2 m ρ c (Proc.devRef .tc main_v9)
      = Cert.ReferenceIdeal.ReadP.val_main_v12 (F := Ideal) (m ((c : Thread nD τ).loc main_arg0)) (m ((c : Thread nD τ).loc main_arg3)) (m ((c : Thread nD τ).loc main_arg4)) := by
  refine (W2_arr m ρ c 3).trans ?_
  rw [array0 (V1 m ρ) c, V1_arg0, V1_arg3, V1_biasRow, Gcn.rowVec_shapeCast]
  exact (hfeat _ _ _).symm

theorem W2_arg1 (c : Dev nD) : W2 m ρ c (Proc.devRef .tc main_arg1) = m ((c : Thread nD τ).loc main_arg1) :=
  (W2_of_ne m ρ c main_arg1 (by decide)).trans (first_keeps_arg1 (W0 m ρ c))
theorem W2_arg2 (c : Dev nD) : W2 m ρ c (Proc.devRef .tc main_arg2) = m ((c : Thread nD τ).loc main_arg2) :=
  (W2_of_ne m ρ c main_arg2 (by decide)).trans (first_keeps_arg2 (W0 m ρ c))
theorem W2_arg5 (c : Dev nD) : W2 m ρ c (Proc.devRef .tc main_arg5) = m ((c : Thread nD τ).loc main_arg5) :=
  (W2_of_ne m ρ c main_arg5 (by decide)).trans (first_keeps_arg5 (W0 m ρ c))
theorem W2_arg6 (c : Dev nD) : W2 m ρ c (Proc.devRef .tc main_arg6) = m ((c : Thread nD τ).loc main_arg6) :=
  (W2_of_ne m ρ c main_arg6 (by decide)).trans (first_keeps_arg6 (W0 m ρ c))
theorem W2_arg7 (c : Dev nD) : W2 m ρ c (Proc.devRef .tc main_arg7) = m ((c : Thread nD τ).loc main_arg7) :=
  (W2_of_ne m ρ c main_arg7 (by decide)).trans (first_keeps_arg7 (W0 m ρ c))
theorem W2_arg8 (c : Dev nD) : W2 m ρ c (Proc.devRef .tc main_arg8) = m ((c : Thread nD τ).loc main_arg8) :=
  (W2_of_ne m ρ c main_arg8 (by decide)).trans (first_keeps_arg8 (W0 m ρ c))
theorem W2_arg9 (c : Dev nD) : W2 m ρ c (Proc.devRef .tc main_arg9) = m ((c : Thread nD τ).loc main_arg9) :=
  (W2_of_ne m ρ c main_arg9 (by decide)).trans (first_keeps_arg9 (W0 m ρ c))
theorem W2_arg10 (c : Dev nD) : W2 m ρ c (Proc.devRef .tc main_arg10) = m ((c : Thread nD τ).loc main_arg10) :=
  (W2_of_ne m ρ c main_arg10 (by decide)).trans (first_keeps_arg10 (W0 m ρ c))
theorem W2_arg11 (c : Dev nD) : W2 m ρ c (Proc.devRef .tc main_arg11) = m ((c : Thread nD τ).loc main_arg11) :=
  (W2_of_ne m ρ c main_arg11 (by decide)).trans (first_keeps_arg11 (W0 m ρ c))
theorem W2_arg12 (c : Dev nD) : W2 m ρ c (Proc.devRef .tc main_arg12) = m ((c : Thread nD τ).loc main_arg12) :=
  (W2_of_ne m ρ c main_arg12 (by decide)).trans (first_keeps_arg12 (W0 m ρ c))
theorem W2_arg13 (c : Dev nD) : W2 m ρ c (Proc.devRef .tc main_arg13) = m ((c : Thread nD τ).loc main_arg13) :=
  (W2_of_ne m ρ c main_arg13 (by decide)).trans (first_keeps_arg13 (W0 m ρ c))
theorem W2_arg14 (c : Dev nD) : W2 m ρ c (Proc.devRef .tc main_arg14) = m ((c : Thread nD τ).loc main_arg14) :=
  (W2_of_ne m ρ c main_arg14 (by decide)).trans (first_keeps_arg14 (W0 m ρ c))

theorem W2_degInv (c : Dev nD) :
    W2 m ρ c (Proc.devRef .tc main_v7) = Cert.ReferenceIdeal.ReadP.val_main_v7 (F := Ideal) (m ((c : Thread nD τ).loc main_arg2)) :=
  (W2_of_ne m ρ c main_v7 (by decide)).trans (first_degInv (W0 m ρ c) _ rfl)

/-! ## After the second stretch -/

theorem V3_cat0 (hfeat : FeaturesAreSpec) (c : Dev nD) :
    V3 m ρ c main_v36 = Cert.ReferenceIdeal.ReadP.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  second_cat0 (W2 m ρ c) _ _ _ _ _ (W2_features m ρ hfeat c) (W2_arg1 m ρ c) (W2_arg2 m ρ c) (W2_degInv m ρ c)
theorem V3_cat1 (hfeat : FeaturesAreSpec) (c : Dev nD) :
    V3 m ρ c main_v63 = Cert.ReferenceIdeal.ReadP.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  second_cat1 (W2 m ρ c) _ _ _ _ _ (W2_features m ρ hfeat c) (W2_arg1 m ρ c) (W2_arg2 m ρ c) (W2_degInv m ρ c)
theorem V3_cat2 (hfeat : FeaturesAreSpec) (c : Dev nD) :
    V3 m ρ c main_v90 = Cert.ReferenceIdeal.ReadP.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  second_cat2 (W2 m ρ c) _ _ _ _ _ (W2_features m ρ hfeat c) (W2_arg1 m ρ c) (W2_arg2 m ρ c) (W2_degInv m ρ c)
theorem V3_features (hfeat : FeaturesAreSpec) (c : Dev nD) :
    V3 m ρ c main_v9 = Cert.ReferenceIdeal.ReadP.val_main_v12 (F := Ideal) (m ((c : Thread nD τ).loc main_arg0)) (m ((c : Thread nD τ).loc main_arg3)) (m ((c : Thread nD τ).loc main_arg4)) :=
  (second_keeps_features (W2 m ρ c)).trans (W2_features m ρ hfeat c)
theorem V3_arg7 (c : Dev nD) : V3 m ρ c main_arg7 = m ((c : Thread nD τ).loc main_arg7) :=
  (second_keeps_arg7 (W2 m ρ c)).trans (W2_arg7 m ρ c)
theorem V3_arg9 (c : Dev nD) : V3 m ρ c main_arg9 = m ((c : Thread nD τ).loc main_arg9) :=
  (second_keeps_arg9 (W2 m ρ c)).trans (W2_arg9 m ρ c)
theorem V3_arg11 (c : Dev nD) : V3 m ρ c main_arg11 = m ((c : Thread nD τ).loc main_arg11) :=
  (second_keeps_arg11 (W2 m ρ c)).trans (W2_arg11 m ρ c)
theorem V3_arg13 (c : Dev nD) : V3 m ρ c main_arg13 = m ((c : Thread nD τ).loc main_arg13) :=
  (second_keeps_arg13 (W2 m ρ c)).trans (W2_arg13 m ρ c)
theorem V3_v91 (c : Dev nD) : V3 m ρ c main_v91 = shapeCast S1x128 (m ((c : Thread nD τ).loc main_arg5)) shapeCasts_S128x1_S1x128 := by
  refine (second_row_v91 (W2 m ρ c)).trans ?_
  rw [W2_arg5]
theorem V3_v92 (c : Dev nD) : V3 m ρ c main_v92 = shapeCast S1x1 (m ((c : Thread nD τ).loc main_arg6)) shapeCasts_S1_S1x1 := by
  refine (second_row_v92 (W2 m ρ c)).trans ?_
  rw [W2_arg6]
theorem V3_v93 (c : Dev nD) : V3 m ρ c main_v93 = shapeCast S1x64 (m ((c : Thread nD τ).loc main_arg10)) shapeCasts_S64_S1x64 := by
  refine (second_row_v93 (W2 m ρ c)).trans ?_
  rw [W2_arg10]
theorem V3_v94 (c : Dev nD) : V3 m ρ c main_v94 = shapeCast S1x64 (m ((c : Thread nD τ).loc main_arg12)) shapeCasts_S64_S1x64 := by
  refine (second_row_v94 (W2 m ρ c)).trans ?_
  rw [W2_arg12]
theorem V3_v95 (c : Dev nD) : V3 m ρ c main_v95 = shapeCast S1x64 (m ((c : Thread nD τ).loc main_arg14)) shapeCasts_S64_S1x64 := by
  refine (second_row_v95 (W2 m ρ c)).trans ?_
  rw [W2_arg14]
theorem V3_v96 (c : Dev nD) : V3 m ρ c main_v96 = shapeCast S1x64 (m ((c : Thread nD τ).loc main_arg8)) shapeCasts_S64_S1x64 := by
  refine (second_row_v96 (W2 m ρ c)).trans ?_
  rw [W2_arg8]

/-! ## The result -/

/-- The result's buffer after the run holds the reference's last stage of the arguments. -/
theorem value (hbody : BodyIsTile) (hfeat : FeaturesAreSpec) (htail : TailIsSpec) (c : Dev nD) :
    W4 m ρ c (Proc.devRef .tc main_v97)
      = Cert.ReferenceIdeal.ReadP.val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W4_arr m ρ c 14).trans ?_
  rw [array1 (V3 m ρ) hbody c, V3_cat0 m ρ hfeat, V3_cat1 m ρ hfeat, V3_cat2 m ρ hfeat, V3_features m ρ hfeat,
    V3_arg9, V3_v93, V3_arg11, V3_v94, V3_arg13, V3_v95, V3_v91, V3_v92, V3_arg7, V3_v96, htail]
  exact outTile_reshaped _ _ _ _ _ _ _ _ _ _ _ _ _ _ _ _ _ _ _ _

end Cert.KernelIdeal.Named

end
-- ==== Proof.LibNary3.lean ====
/-
  A host operation over a literal family of three buffers (a three-piece concatenation), read at its result.

  The operation's function takes its operands as a family indexed by `Fin 3`.  Read at the result buffer it gives the
  function applied to the family of the three buffers' contents; written with each operand's contents at its own
  literal buffer, the contents themselves can go on being rewritten (under the family's binder the buffer
  `![x, a, b] k` is no literal).
-/
import Idealize.ShloMosaic.Lib.StableHlo.Run

noncomputable section

namespace Idealize.ShloMosaic.StableHlo

variable {τ : Topo} {sig : RefSig} {Val : EltTy → Type} {x a b y : Ref sig .tc}

/-- The three-operand operation's result with each operand's contents at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a rewriting pass on the operation alone. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A three-operand operation's function applied to its three operands' contents, the operands as plain arguments:
    a rewriting pass goes on rewriting them there, where it would not look inside the family (or inside the
    shape-and-array pairs a concatenation makes of it). -/
def apply3 (f : ((k : Fin 3) → ((![x, a, b] : Fin 3 → Ref sig .tc) k).ty.Contents Val) → y.ty.Contents Val)
    (A : x.ty.Contents Val) (B : a.ty.Contents Val) (C : b.ty.Contents Val) : y.ty.Contents Val :=
  f (Fin.cons A (Fin.cons B (Fin.cons C (fun i => i.elim0))))

/-- The same for four operands. -/
def apply4 {c : Ref sig .tc} (f : ((k : Fin 4) → ((![x, a, b, c] : Fin 4 → Ref sig .tc) k).ty.Contents Val) → y.ty.Contents Val)
    (A : x.ty.Contents Val) (B : a.ty.Contents Val) (C : b.ty.Contents Val) (D : c.ty.Contents Val) : y.ty.Contents Val :=
  f (Fin.cons A (Fin.cons B (Fin.cons C (Fin.cons D (fun i => i.elim0)))))

/-- The three-operand operation's result as its function applied to the operands' contents. -/
theorem nary3_result_app'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 f (F (Proc.devRef .tc x)) (F (Proc.devRef .tc a)) (F (Proc.devRef .tc b)) :=
  nary3_result f hxs hy F

/-- The four-operand operation's result as its function applied to the operands' contents. -/
theorem nary4_result_app' {c : Ref sig .tc}
    (f : ((k : Fin 4) → ((![x, a, b, c] : Fin 4 → Ref sig .tc) k).ty.Contents Val) → y.ty.Contents Val) (hxs hy)
    (F : Valuation τ sig Val) :
    (nary (τ := τ) ![x, a, b, c] y f hxs hy).result F (no_index (Proc.devRef .tc y))
      = apply4 f (F (Proc.devRef .tc x)) (F (Proc.devRef .tc a)) (F (Proc.devRef .tc b)) (F (Proc.devRef .tc c)) :=
  nary4_result f hxs hy F

end Idealize.ShloMosaic.StableHlo

/-- What one buffer holds after a literal list of host operations, as the operations' functions of what the buffers
    held before, with every three- and four-operand operation read at its literal operands (the rule for a family of
    any length is left out: it would leave the operands under the family's binder, unread); two-piece concatenations
    are read through `joined` when the caller passes that equation. -/
macro "read_fold_lit" "[" ls:Lean.Parser.Tactic.simpLemma,* "]" : tactic =>
  `(tactic| (simp (disch := decide) only [
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result_app', Idealize.ShloMosaic.StableHlo.nary3_result_app',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.LibTypedTransport.lean ====
/-
  A typed reference's transport of contents, there and back.

  A function called from a program names its arrays by typed references: a buffer together with the equation "this
  buffer's type is the value's type". Contents are moved into the buffer's own type along that equation when an operation
  writes them, and back along the same equation when a later operation reads them. The two moves cancel, whatever the
  equation's proof: so, reading a line of such operations, every value handed from one operation to the next arrives
  unchanged, and only the first reads and the last write keep a transport. (With this rule added to the one-pass reading
  of a line of operations, what is left to compare is the operations' own term.)
-/
import Idealize.ShloMosaic.Lib.StableHlo.Run

noncomputable section

namespace Idealize.ShloMosaic.StableHlo.TRef

variable {sig : RefSig} {Val : EltTy → Type} {T : BufTy}

/-- Contents moved to a buffer's own type and back along the same equation are themselves. -/
theorem ofBuf_toBuf (x : TRef sig T) (v : T.Contents Val) : x.ofBuf (x.toBuf v) = v := by
  unfold ofBuf toBuf
  simp

/-- Contents of the buffer's own type moved to the value's type and back are themselves. -/
theorem toBuf_ofBuf (x : TRef sig T) (v : x.ref.ty.Contents Val) : x.toBuf (x.ofBuf v) = v := by
  unfold ofBuf toBuf
  simp

end Idealize.ShloMosaic.StableHlo.TRef

end
-- ==== Proof.RefResult.lean ====
/-
  The reference's result as the composition of its stages.

  The reference is a straight line of 264 host operations. Each operation writes one buffer of its own and reads earlier
  ones, so what the result's buffer holds after the whole line is the last operation's function of what its operands'
  buffers held, and so on back to the arguments: the composition of the stages `val_…`, each of which is, by its
  definition, its operation's function of the earlier stages. The three-operand joins are read at their three literal
  operands, and the contents transports around the inlined calls (relu, log_softmax) cancel.
-/
import proofs.«181484_j20667382628944_2_alg».proof.Proof.RefRun
import proofs.«181484_j20667382628944_2_alg».proof.Proof.RefRead
import proofs.«181484_j20667382628944_2_alg».proof.Proof.LibNary3
import proofs.«181484_j20667382628944_2_alg».proof.Proof.LibTypedTransport
import proofs.«181484_j20667382628944_2_alg».proof.Proof.LibJoinedPair

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 16384 in
set_option maxHeartbeats 400000000 in
/-- After the whole line, from any contents `V`, the result's buffer holds the last stage of the arguments' contents. -/
theorem result_eq (V : Valuation τ sig (Elt F)) :
    after (ops (F := F)) V (Proc.devRef .tc main_v202)
      = val_main_v202 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  read_fold_lit [Idealize.ShloMosaic.JoinedPair.joined_eq, TRef.ofBuf_toBuf, TRef.toBuf_ofBuf]
  rfl

end Cert.ReferenceIdeal.RefValue

end
-- ==== Proof.RefKeptA.lean ====
/-
  No operation of the reference's straight line writes an argument's buffer, so after the whole line each argument's
  buffer holds what it held before (arguments 0 to 4).
-/
import proofs.«181484_j20667382628944_2_alg».proof.Proof.RefRun

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 16384 in
set_option maxHeartbeats 40000000 in
theorem kept_arg0 (V : Valuation τ sig (Elt F)) :
    after (ops (F := F)) V (Proc.devRef .tc main_arg0) = V (Proc.devRef .tc main_arg0) := by
  after_results_simp

set_option maxRecDepth 16384 in
set_option maxHeartbeats 40000000 in
theorem kept_arg1 (V : Valuation τ sig (Elt F)) :
    after (ops (F := F)) V (Proc.devRef .tc main_arg1) = V (Proc.devRef .tc main_arg1) := by
  after_results_simp

set_option maxRecDepth 16384 in
set_option maxHeartbeats 40000000 in
theorem kept_arg2 (V : Valuation τ sig (Elt F)) :
    after (ops (F := F)) V (Proc.devRef .tc main_arg2) = V (Proc.devRef .tc main_arg2) := by
  after_results_simp

set_option maxRecDepth 16384 in
set_option maxHeartbeats 40000000 in
theorem kept_arg3 (V : Valuation τ sig (Elt F)) :
    after (ops (F := F)) V (Proc.devRef .tc main_arg3) = V (Proc.devRef .tc main_arg3) := by
  after_results_simp

set_option maxRecDepth 16384 in
set_option maxHeartbeats 40000000 in
theorem kept_arg4 (V : Valuation τ sig (Elt F)) :
    after (ops (F := F)) V (Proc.devRef .tc main_arg4) = V (Proc.devRef .tc main_arg4) := by
  after_results_simp

end Cert.ReferenceIdeal.RefValue

end
-- ==== Proof.RefKeptB.lean ====
/-
  No operation of the reference's straight line writes an argument's buffer, so after the whole line each argument's
  buffer holds what it held before (arguments 5 to 9).
-/
import proofs.«181484_j20667382628944_2_alg».proof.Proof.RefRun

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 16384 in
set_option maxHeartbeats 40000000 in
theorem kept_arg5 (V : Valuation τ sig (Elt F)) :
    after (ops (F := F)) V (Proc.devRef .tc main_arg5) = V (Proc.devRef .tc main_arg5) := by
  after_results_simp

set_option maxRecDepth 16384 in
set_option maxHeartbeats 40000000 in
theorem kept_arg6 (V : Valuation τ sig (Elt F)) :
    after (ops (F := F)) V (Proc.devRef .tc main_arg6) = V (Proc.devRef .tc main_arg6) := by
  after_results_simp

set_option maxRecDepth 16384 in
set_option maxHeartbeats 40000000 in
theorem kept_arg7 (V : Valuation τ sig (Elt F)) :
    after (ops (F := F)) V (Proc.devRef .tc main_arg7) = V (Proc.devRef .tc main_arg7) := by
  after_results_simp

set_option maxRecDepth 16384 in
set_option maxHeartbeats 40000000 in
theorem kept_arg8 (V : Valuation τ sig (Elt F)) :
    after (ops (F := F)) V (Proc.devRef .tc main_arg8) = V (Proc.devRef .tc main_arg8) := by
  after_results_simp

set_option maxRecDepth 16384 in
set_option maxHeartbeats 40000000 in
theorem kept_arg9 (V : Valuation τ sig (Elt F)) :
    after (ops (F := F)) V (Proc.devRef .tc main_arg9) = V (Proc.devRef .tc main_arg9) := by
  after_results_simp

end Cert.ReferenceIdeal.RefValue

end
-- ==== Proof.RefKeptC.lean ====
/-
  No operation of the reference's straight line writes an argument's buffer, so after the whole line each argument's
  buffer holds what it held before (arguments 10 to 14).
-/
import proofs.«181484_j20667382628944_2_alg».proof.Proof.RefRun

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 16384 in
set_option maxHeartbeats 40000000 in
theorem kept_arg10 (V : Valuation τ sig (Elt F)) :
    after (ops (F := F)) V (Proc.devRef .tc main_arg10) = V (Proc.devRef .tc main_arg10) := by
  after_results_simp

set_option maxRecDepth 16384 in
set_option maxHeartbeats 40000000 in
theorem kept_arg11 (V : Valuation τ sig (Elt F)) :
    after (ops (F := F)) V (Proc.devRef .tc main_arg11) = V (Proc.devRef .tc main_arg11) := by
  after_results_simp

set_option maxRecDepth 16384 in
set_option maxHeartbeats 40000000 in
theorem kept_arg12 (V : Valuation τ sig (Elt F)) :
    after (ops (F := F)) V (Proc.devRef .tc main_arg12) = V (Proc.devRef .tc main_arg12) := by
  after_results_simp

set_option maxRecDepth 16384 in
set_option maxHeartbeats 40000000 in
theorem kept_arg13 (V : Valuation τ sig (Elt F)) :
    after (ops (F := F)) V (Proc.devRef .tc main_arg13) = V (Proc.devRef .tc main_arg13) := by
  after_results_simp

set_option maxRecDepth 16384 in
set_option maxHeartbeats 40000000 in
theorem kept_arg14 (V : Valuation τ sig (Elt F)) :
    after (ops (F := F)) V (Proc.devRef .tc main_arg14) = V (Proc.devRef .tc main_arg14) := by
  after_results_simp

end Cert.ReferenceIdeal.RefValue

end
-- ==== Proof.RefValue.lean ====
/-
  The reference's run: every weakly fair execution of the straight line terminates, the result's buffer holding the
  last stage of the arguments and every argument as launched (no operation of the line writes an argument's buffer).
-/
import proofs.«181484_j20667382628944_2_alg».proof.Proof.RefResult
import proofs.«181484_j20667382628944_2_alg».proof.Proof.RefKeptA
import proofs.«181484_j20667382628944_2_alg».proof.Proof.RefKeptB
import proofs.«181484_j20667382628944_2_alg».proof.Proof.RefKeptC

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The run, with the result named by the stages. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v202) = val_main_v202 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v202).trans (result_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c)),
      (h c main_arg14).trans (kept_arg14 (launchContents m c))⟩)
    (run_seq scopedRefs_eq scopedSems_eq defs main (fun _ => ops) main_eq (fun _ => ops_sub) m ρ)

end Cert.ReferenceIdeal.RefValue

end
-- ==== Proof.RefTail.lean ====
/-
  The reference's tail is the hop-attention specification.

  Past the three gathered-and-summed JK arrays (kept opaque here), the reference is a straight line of dense maps, each
  acting on one node's rows alone:

    * the projected features and the three heads are `relu (row · W + b)`: a row-by-column sum, the bias entry, a
      maximum with zero;
    * a score is `1 / (1 + exp (-(⟨a ‖ b, w⟩ + β)))`, which is the sigmoid of the joined row against the weight column;
    * the first attention step takes a softmax over the ONE score it has. A sigmoid value is a real number, so that
      softmax is `exp 0 / (0 + exp 0) = 1`, and the history after one hop, `0 + 1 · o₀`, is the first head itself;
      hence the second score is `score (o₀, o₁)`.

  This module proves these stages entry by entry and then chains them: given the later stages (the two- and three-score
  softmaxes, the history, the third score, the weighted concatenation and the final log-softmax) read at an index in
  terms of the earlier ones, the reference's result is the specification applied to the three JK arrays and the
  feature array.
-/
import proofs.«181484_j20667382628944_2_alg».proof.Proof.RefRead
import proofs.«181484_j20667382628944_2_alg».proof.Proof.HopSpec
import proofs.«181484_j20667382628944_2_alg».proof.Proof.LibRowReduce
import proofs.«181484_j20667382628944_2_alg».proof.Proof.LibGraphConvLayers
import proofs.«181484_j20667382628944_2_alg».proof.Proof.LibMaxSup

noncomputable section

namespace Cert.ReferenceIdeal.RefTail

open Cert.ReferenceIdeal Cert.ReferenceIdeal.Gen Cert.ReferenceIdeal.ReadP
open Idealize.ShloMosaic Idealize.ShloMosaic.ValueIdx

variable (x0 : (⟨S50000x128, .f32⟩ : BufTy).Contents (Elt Ideal)) (x1 : (⟨S400000, .i32⟩ : BufTy).Contents (Elt Ideal)) (x2 : (⟨S400000, .i32⟩ : BufTy).Contents (Elt Ideal)) (x3 : (⟨S128x64, .f32⟩ : BufTy).Contents (Elt Ideal)) (x4 : (⟨S64, .f32⟩ : BufTy).Contents (Elt Ideal)) (x5 : (⟨S128x1, .f32⟩ : BufTy).Contents (Elt Ideal)) (x6 : (⟨S1, .f32⟩ : BufTy).Contents (Elt Ideal)) (x7 : (⟨S192x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S256x64, .f32⟩ : BufTy).Contents (Elt Ideal)) (x12 : (⟨S64, .f32⟩ : BufTy).Contents (Elt Ideal)) (x13 : (⟨S512x64, .f32⟩ : BufTy).Contents (Elt Ideal)) (x14 : (⟨S64, .f32⟩ : BufTy).Contents (Elt Ideal))

/-! ## Indices and the repeated stages, stated once -/

/-- A rank-2 index with coordinates `a`, `b` is `(a, b)`. -/
theorem ix2_mk {n0 n1 : ℕ} (j : (⟨2, ![n0, n1]⟩ : Shape).Idx) (a : Fin n0) (b : Fin n1)
    (h0 : (j 0).val = a.val) (h1 : (j 1).val = b.val) : j = ix2 a b := by
  funext c
  apply Fin.ext
  match c with
  | ⟨0, _⟩ => exact h0
  | ⟨1, _⟩ => exact h1

/-- A rank-1 index with coordinate `a` is `(a)`. -/
theorem ix1_mk {n : ℕ} (j : (⟨1, ![n]⟩ : Shape).Idx) (a : Fin n) (h0 : (j 0).val = a.val) : j = ix1 a := by
  funext c
  apply Fin.ext
  match c with
  | ⟨0, _⟩ => exact h0

/-- A dense head read at `(r, q)`: the row-by-column sum plus the bias entry, cut off below at zero. -/
theorem dense_at {M K : ℕ} (A : (⟨2, ![M, K]⟩ : Shape).Idx → EReal) (w : (⟨2, ![K, 64]⟩ : Shape).Idx → EReal)
    (b : (⟨1, ![64]⟩ : Shape).Idx → EReal) (li : Fin K → (⟨2, ![M, K]⟩ : Shape).Idx)
    (ri : Fin K → (⟨2, ![K, 64]⟩ : Shape).Idx) (bi : (⟨1, ![64]⟩ : Shape).Idx) (r : Fin M) (q : Fin 64)
    (hl : ∀ k, li k = ix2 r k) (hr : ∀ k, ri k = ix2 k q) (hb : bi = ix1 q) :
    max ((∑ k : Fin K, A (li k) * w (ri k)) + b bi) HopAttn.zeroW = HopAttn.head (HopAttn.row A r) w (HopAttn.vec b) q := by
  rw [hb]
  unfold HopAttn.head HopAttn.row HopAttn.vec
  exact congrArg (fun t => max (t + b (ix1 q)) HopAttn.zeroW) (Finset.sum_congr rfl fun k _ => by rw [hl, hr])

/-! ## The four dense heads -/

theorem feat_at (r : Fin 50000) (q : Fin 64) :
    (val_main_v12 (F := Ideal) x0 x3 x4) (ix2 r q) = HopAttn.head (HopAttn.row x0 r) x3 (HopAttn.vec x4) q := by
  rw [val_main_v12_apply, val_main_v11_apply, val_main_v8_apply, val_main_v10_apply, val_main_v9_apply,
    val_main_call0_v0_apply, val_main_call0_cst_apply]
  exact dense_at _ x3 x4 (lidx_main_v8 (ix2 r q)) (ridx_main_v8 (ix2 r q)) (idx_main_v9 (idx_main_v10 (ix2 r q))) r q
    (fun k => ix2_mk _ _ _ rfl rfl) (fun k => ix2_mk _ _ _ rfl rfl) (ix1_mk _ _ rfl)

theorem features_eq : (val_main_v12 (F := Ideal) x0 x3 x4) = HopAttn.features x0 x3 x4 := by
  funext i
  obtain ⟨r, q, rfl⟩ : ∃ (r : Fin 50000) (q : Fin 64), i = ix2 r q := ⟨i 0, i 1, eq_ix2 i⟩
  rw [HopAttn.features_apply, feat_at]

theorem head0_at (r : Fin 50000) (q : Fin 64) :
    (val_main_v44 (F := Ideal) x0 x1 x2 x3 x4 x9 x10) (ix2 r q) = HopAttn.head (HopAttn.row (val_main_v39 (F := Ideal) x0 x1 x2 x3 x4) r) x9 (HopAttn.vec x10) q := by
  rw [val_main_v44_apply, val_main_v43_apply, val_main_v40_apply, val_main_v42_apply, val_main_v41_apply,
    val_main_call1_v0_apply, val_main_call1_cst_apply]
  exact dense_at _ x9 x10 (lidx_main_v40 (ix2 r q)) (ridx_main_v40 (ix2 r q)) (idx_main_v41 (idx_main_v42 (ix2 r q))) r q
    (fun k => ix2_mk _ _ _ rfl rfl) (fun k => ix2_mk _ _ _ rfl rfl) (ix1_mk _ _ rfl)

theorem head1_at (r : Fin 50000) (q : Fin 64) :
    (val_main_v76 (F := Ideal) x0 x1 x2 x3 x4 x11 x12) (ix2 r q) = HopAttn.head (HopAttn.row (val_main_v71 (F := Ideal) x0 x1 x2 x3 x4) r) x11 (HopAttn.vec x12) q := by
  rw [val_main_v76_apply, val_main_v75_apply, val_main_v72_apply, val_main_v74_apply, val_main_v73_apply,
    val_main_call2_v0_apply, val_main_call2_cst_apply]
  exact dense_at _ x11 x12 (lidx_main_v72 (ix2 r q)) (ridx_main_v72 (ix2 r q)) (idx_main_v73 (idx_main_v74 (ix2 r q))) r q
    (fun k => ix2_mk _ _ _ rfl rfl) (fun k => ix2_mk _ _ _ rfl rfl) (ix1_mk _ _ rfl)

theorem head2_at (r : Fin 50000) (q : Fin 64) :
    (val_main_v108 (F := Ideal) x0 x1 x2 x3 x4 x13 x14) (ix2 r q) = HopAttn.head (HopAttn.row (val_main_v103 (F := Ideal) x0 x1 x2 x3 x4) r) x13 (HopAttn.vec x14) q := by
  rw [val_main_v108_apply, val_main_v107_apply, val_main_v104_apply, val_main_v106_apply, val_main_v105_apply,
    val_main_call3_v0_apply, val_main_call3_cst_apply]
  exact dense_at _ x13 x14 (lidx_main_v104 (ix2 r q)) (ridx_main_v104 (ix2 r q)) (idx_main_v105 (idx_main_v106 (ix2 r q))) r q
    (fun k => ix2_mk _ _ _ rfl rfl) (fun k => ix2_mk _ _ _ rfl rfl) (ix1_mk _ _ rfl)

/-- A sigmoid score read at row `r`: one over one plus the exponential of minus the joined row against the weight
    column plus the offset. -/
theorem score_at {M : ℕ} (D : (⟨2, ![M, 128]⟩ : Shape).Idx → EReal) (law : (⟨2, ![128, 1]⟩ : Shape).Idx → EReal)
    (lab : (⟨1, ![1]⟩ : Shape).Idx → EReal) (a b : Fin 64 → EReal)
    (li : Fin 128 → (⟨2, ![M, 128]⟩ : Shape).Idx) (ri : Fin 128 → (⟨2, ![128, 1]⟩ : Shape).Idx)
    (bi : (⟨1, ![1]⟩ : Shape).Idx) (r : Fin M)
    (hD : ∀ k, D (ix2 r k) = HopAttn.join2 (show 64 + 64 = 128 from rfl) a b k)
    (hl : ∀ k, li k = ix2 r k) (hr : ∀ k, ri k = ix2 k (0 : Fin 1)) (hb : bi = ix1 (0 : Fin 1)) :
    Ideal.div (Ideal.ofBits .f32 0x3F800000#32)
        (Ideal.ofBits .f32 0x3F800000#32 + Ideal.exp (-((∑ k : Fin 128, D (li k) * law (ri k)) + lab bi)))
      = HopAttn.score (HopAttn.col0 law) (lab (ix1 (0 : Fin 1))) a b := by
  rw [hb, Ideal.ofBits_one_f32]
  unfold HopAttn.score HopAttn.col0 Ideal.logistic
  refine congrArg (fun t => Ideal.div 1 (1 + Ideal.exp (-(t + lab (ix1 (0 : Fin 1)))))) (Finset.sum_congr rfl fun k _ => ?_)
  rw [hl, hr, hD]

/-- A softmax entry as the host spells it (the row maximum once more compared with its starting word, the row sum
    started from the zero word) is the specification's softmax entry. -/
theorem softmax_at {n : ℕ} (z : Fin n → EReal) (j : Fin n) :
    Ideal.div (Ideal.exp (z j - max HopAttn.lowW ((Finset.univ : Finset (Fin n)).fold max HopAttn.lowW z)))
        (HopAttn.zeroW + ∑ k : Fin n, Ideal.exp (z k - max HopAttn.lowW ((Finset.univ : Finset (Fin n)).fold max HopAttn.lowW z)))
      = HopAttn.softmaxRow z j := by
  unfold HopAttn.softmaxRow
  rw [show max HopAttn.lowW ((Finset.univ : Finset (Fin n)).fold max HopAttn.lowW z) = GraphConvLayers.rowMax z from
    GraphConvLayers.max_low_rowMax z, show HopAttn.zeroW = 0 from Ideal.ofBits_zero_f32, zero_add]

/-! ## The first score, and the one-score softmax -/

theorem cat109_at (r : Fin 50000) (k : Fin 128) :
    (val_main_v109 (F := Ideal) x0 x1 x2 x3 x4 x9 x10) (ix2 r k) = HopAttn.join2 (show 64 + 64 = 128 from rfl) (HopAttn.row (val_main_v44 (F := Ideal) x0 x1 x2 x3 x4 x9 x10) r) (HopAttn.row (val_main_v12 (F := Ideal) x0 x3 x4) r) k := by
  unfold val_main_v109
  exact HopAttn.concat2_apply _ _ _ _ r k

theorem score0_at (r : Fin 50000) (z : Fin 1) :
    (val_main_v119 (F := Ideal) x0 x1 x2 x3 x4 x5 x6 x9 x10) (ix2 r z) = HopAttn.score (HopAttn.col0 x5) (x6 (ix1 (0 : Fin 1))) (HopAttn.row (val_main_v44 (F := Ideal) x0 x1 x2 x3 x4 x9 x10) r) (HopAttn.row (val_main_v12 (F := Ideal) x0 x3 x4) r) := by
  obtain rfl : z = 0 := Subsingleton.elim _ _
  rw [val_main_v119_apply, val_main_v118_apply, val_main_cst_21_apply, val_main_v117_apply, val_main_v116_apply,
    val_main_cst_20_apply, val_main_v115_apply, val_main_v114_apply, val_main_v113_apply, val_main_v110_apply,
    val_main_v112_apply, val_main_v111_apply]
  simp only [Ideal.hostDivf_def, Ideal.addf_def, Ideal.subf_def, Ideal.mulf_def, Ideal.maximumf_def, Ideal.hostUnary_exp_def, Ideal.hostUnary_log_def, Ideal.hostNegf_def, Ideal.negf_def, Ideal.ofBits_def]
  exact score_at (val_main_v109 (F := Ideal) x0 x1 x2 x3 x4 x9 x10) x5 x6 _ _ (lidx_main_v110 (ix2 r 0)) (ridx_main_v110 (ix2 r 0))
    (idx_main_v111 (idx_main_v112 (ix2 r 0))) r (cat109_at x0 x1 x2 x3 x4 x9 x10 r)
    (fun k => ix2_mk _ _ _ rfl rfl) (fun k => ix2_mk _ _ _ rfl rfl) (ix1_mk _ _ rfl)

/-- The softmax over the single first score is one. -/
theorem att1_at (r : Fin 50000) (z : Fin 1) : (val_main_v128 (F := Ideal) x0 x1 x2 x3 x4 x5 x6 x9 x10) (ix2 r z) = 1 := by
  obtain rfl : z = 0 := Subsingleton.elim _ _
  obtain ⟨ρ, hρ⟩ : ∃ ρ : ℝ, (val_main_v119 (F := Ideal) x0 x1 x2 x3 x4 x5 x6 x9 x10) (ix2 r (0 : Fin 1)) = (ρ : EReal) := by
    rw [score0_at]
    exact HopAttn.logistic_real _
  have hrow : (fun k : Fin 1 => (val_main_v119 (F := Ideal) x0 x1 x2 x3 x4 x5 x6 x9 x10) (ix2 r k)) = fun _ => (ρ : EReal) := funext fun k => by
    rw [Subsingleton.elim k 0]
    exact hρ
  have h120 : (val_main_v120 (F := Ideal) x0 x1 x2 x3 x4 x5 x6 x9 x10) (ix1 r) = (Finset.univ : Finset (Fin 1)).fold max HopAttn.lowW fun _ => (ρ : EReal) := by
    unfold val_main_v120
    refine (RowReduce.hostReduce_maximumf_row _ _ _ (by decide) _ r).trans ?_
    rw [hrow]
    rfl
  have h123 : (val_main_v123 (F := Ideal) x0 x1 x2 x3 x4 x5 x6 x9 x10) (ix2 r (0 : Fin 1)) = max HopAttn.lowW ((Finset.univ : Finset (Fin 1)).fold max HopAttn.lowW fun _ => (ρ : EReal)) := by
    rw [val_main_v123_apply, val_main_v122_apply, val_main_v121_apply, val_main_cst_23_apply,
      show idx_main_v123 (ix2 r (0 : Fin 1)) = ix1 r from ix1_mk _ _ rfl, h120]
    rfl
  have h125 : ∀ k : Fin 1, (val_main_v125 (F := Ideal) x0 x1 x2 x3 x4 x5 x6 x9 x10) (ix2 r k) = Ideal.exp ((ρ : EReal) - max HopAttn.lowW ((Finset.univ : Finset (Fin 1)).fold max HopAttn.lowW fun _ => (ρ : EReal))) := fun k => by
    obtain rfl : k = 0 := Subsingleton.elim _ _
    rw [val_main_v125_apply, val_main_v124_apply, h123, hρ]
    rfl
  have h127 : (val_main_v127 (F := Ideal) x0 x1 x2 x3 x4 x5 x6 x9 x10) (ix2 r (0 : Fin 1))
      = HopAttn.zeroW + ∑ _k : Fin 1, Ideal.exp ((ρ : EReal) - max HopAttn.lowW ((Finset.univ : Finset (Fin 1)).fold max HopAttn.lowW fun _ => (ρ : EReal))) := by
    rw [val_main_v127_apply, val_main_v126_apply, val_main_cst_24_apply]
    refine congrArg (fun t => HopAttn.zeroW + t) (Finset.sum_congr rfl fun k _ => ?_)
    rw [show idx_main_v126 (idx_main_v127 (ix2 r (0 : Fin 1))) k = ix2 r k from ix2_mk _ _ _ rfl rfl, h125]
  rw [val_main_v128_apply, h125, h127]
  exact HopAttn.softmax_single ρ

/-- So the history after one hop is the first head itself. -/
theorem hist1_eq : (val_main_v132 (F := Ideal) x0 x1 x2 x3 x4 x5 x6 x9 x10) = (val_main_v44 (F := Ideal) x0 x1 x2 x3 x4 x9 x10) := by
  funext i
  obtain ⟨r, q, rfl⟩ : ∃ (r : Fin 50000) (q : Fin 64), i = ix2 r q := ⟨i 0, i 1, eq_ix2 i⟩
  rw [val_main_v132_apply, val_main_v131_apply, val_main_cst_25_apply, val_main_v130_apply, val_main_v129_apply,
    show idx_main_v129 (ix2 r q) = ix2 r (0 : Fin 1) from ix2_mk _ _ _ rfl rfl, att1_at]
  simp only [Ideal.hostDivf_def, Ideal.addf_def, Ideal.subf_def, Ideal.mulf_def, Ideal.maximumf_def, Ideal.hostUnary_exp_def, Ideal.hostUnary_log_def, Ideal.hostNegf_def, Ideal.negf_def, Ideal.ofBits_def]
  rw [Ideal.ofBits_zero_f32, zero_add, one_mul]

/-! ## The second score and the two-score softmax -/

theorem cat133_at (r : Fin 50000) (k : Fin 128) :
    (val_main_v133 (F := Ideal) x0 x1 x2 x3 x4 x5 x6 x9 x10 x11 x12) (ix2 r k) = HopAttn.join2 (show 64 + 64 = 128 from rfl) (HopAttn.row (val_main_v44 (F := Ideal) x0 x1 x2 x3 x4 x9 x10) r) (HopAttn.row (val_main_v76 (F := Ideal) x0 x1 x2 x3 x4 x11 x12) r) k := by
  unfold val_main_v133
  rw [hist1_eq]
  exact HopAttn.concat2_apply _ _ _ _ r k

theorem score1_at (r : Fin 50000) (z : Fin 1) :
    (val_main_v143 (F := Ideal) x0 x1 x2 x3 x4 x5 x6 x9 x10 x11 x12) (ix2 r z) = HopAttn.score (HopAttn.col0 x5) (x6 (ix1 (0 : Fin 1))) (HopAttn.row (val_main_v44 (F := Ideal) x0 x1 x2 x3 x4 x9 x10) r) (HopAttn.row (val_main_v76 (F := Ideal) x0 x1 x2 x3 x4 x11 x12) r) := by
  obtain rfl : z = 0 := Subsingleton.elim _ _
  rw [val_main_v143_apply, val_main_v142_apply, val_main_cst_27_apply, val_main_v141_apply, val_main_v140_apply,
    val_main_cst_26_apply, val_main_v139_apply, val_main_v138_apply, val_main_v137_apply, val_main_v134_apply,
    val_main_v136_apply, val_main_v135_apply]
  simp only [Ideal.hostDivf_def, Ideal.addf_def, Ideal.subf_def, Ideal.mulf_def, Ideal.maximumf_def, Ideal.hostUnary_exp_def, Ideal.hostUnary_log_def, Ideal.hostNegf_def, Ideal.negf_def, Ideal.ofBits_def]
  exact score_at (val_main_v133 (F := Ideal) x0 x1 x2 x3 x4 x5 x6 x9 x10 x11 x12) x5 x6 _ _ (lidx_main_v134 (ix2 r 0)) (ridx_main_v134 (ix2 r 0))
    (idx_main_v135 (idx_main_v136 (ix2 r 0))) r (cat133_at x0 x1 x2 x3 x4 x5 x6 x9 x10 x11 x12 r)
    (fun k => ix2_mk _ _ _ rfl rfl) (fun k => ix2_mk _ _ _ rfl rfl) (ix1_mk _ _ rfl)

/-! ## The chain -/

theorem tail_eq_of
    (hist : ∀ (r : Fin 50000) (q : Fin 64), (val_main_v164 (F := Ideal) x0 x1 x2 x3 x4 x5 x6 x9 x10 x11 x12) (ix2 r q)
      = HopAttn.history ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) (HopAttn.row (val_main_v44 (F := Ideal) x0 x1 x2 x3 x4 x9 x10) r) (HopAttn.row (val_main_v76 (F := Ideal) x0 x1 x2 x3 x4 x11 x12) r) q)
    (sc2 : ∀ (r : Fin 50000) (z : Fin 1), (val_main_v175 (F := Ideal) x0 x1 x2 x3 x4 x5 x6 x9 x10 x11 x12 x13 x14) (ix2 r z)
      = HopAttn.score (HopAttn.col0 x5) (x6 (ix1 (0 : Fin 1))) (HopAttn.row (val_main_v164 (F := Ideal) x0 x1 x2 x3 x4 x5 x6 x9 x10 x11 x12) r) (HopAttn.row (val_main_v108 (F := Ideal) x0 x1 x2 x3 x4 x13 x14) r))
    (comb : ∀ (r : Fin 50000) (k : Fin 192), (val_main_v197 (F := Ideal) x0 x1 x2 x3 x4 x5 x6 x9 x10 x11 x12 x13 x14) (ix2 r k)
      = HopAttn.combined ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1))) (HopAttn.row (val_main_v44 (F := Ideal) x0 x1 x2 x3 x4 x9 x10) r) (HopAttn.row (val_main_v76 (F := Ideal) x0 x1 x2 x3 x4 x11 x12) r) (HopAttn.row (val_main_v108 (F := Ideal) x0 x1 x2 x3 x4 x13 x14) r) k)
    (fin : ∀ (r : Fin 50000) (q : Fin 64), (val_main_v202 (F := Ideal) x0 x1 x2 x3 x4 x5 x6 x7 x8 x9 x10 x11 x12 x13 x14) (ix2 r q)
      = GraphConvLayers.rowLogSoftmax (fun q' => (∑ k : Fin 192, (val_main_v197 (F := Ideal) x0 x1 x2 x3 x4 x5 x6 x9 x10 x11 x12 x13 x14) (ix2 r k) * x7 (ix2 k q')) + x8 (ix1 q')) q) :
    (val_main_v202 (F := Ideal) x0 x1 x2 x3 x4 x5 x6 x7 x8 x9 x10 x11 x12 x13 x14) = HopAttn.out (val_main_v39 (F := Ideal) x0 x1 x2 x3 x4) (val_main_v71 (F := Ideal) x0 x1 x2 x3 x4) (val_main_v103 (F := Ideal) x0 x1 x2 x3 x4) (val_main_v12 (F := Ideal) x0 x3 x4) x5 x6 x7 x8 x9 x10 x11 x12 x13 x14 := by
  funext i
  obtain ⟨r, q, rfl⟩ : ∃ (r : Fin 50000) (q : Fin 64), i = ix2 r q := ⟨i 0, i 1, eq_ix2 i⟩
  have ho0 : HopAttn.row (val_main_v44 (F := Ideal) x0 x1 x2 x3 x4 x9 x10) r = HopAttn.head (HopAttn.row (val_main_v39 (F := Ideal) x0 x1 x2 x3 x4) r) x9 (HopAttn.vec x10) := funext fun q' => head0_at x0 x1 x2 x3 x4 x9 x10 r q'
  have ho1 : HopAttn.row (val_main_v76 (F := Ideal) x0 x1 x2 x3 x4 x11 x12) r = HopAttn.head (HopAttn.row (val_main_v71 (F := Ideal) x0 x1 x2 x3 x4) r) x11 (HopAttn.vec x12) := funext fun q' => head1_at x0 x1 x2 x3 x4 x11 x12 r q'
  have ho2 : HopAttn.row (val_main_v108 (F := Ideal) x0 x1 x2 x3 x4 x13 x14) r = HopAttn.head (HopAttn.row (val_main_v103 (F := Ideal) x0 x1 x2 x3 x4) r) x13 (HopAttn.vec x14) := funext fun q' => head2_at x0 x1 x2 x3 x4 x13 x14 r q'
  have hs0 : (val_main_v119 (F := Ideal) x0 x1 x2 x3 x4 x5 x6 x9 x10) (ix2 r (0 : Fin 1)) = HopAttn.score (HopAttn.col0 x5) (x6 (ix1 (0 : Fin 1))) (HopAttn.head (HopAttn.row (val_main_v39 (F := Ideal) x0 x1 x2 x3 x4) r) x9 (HopAttn.vec x10)) (HopAttn.row (val_main_v12 (F := Ideal) x0 x3 x4) r) := by
    rw [score0_at, ho0]
  have hs1 : (val_main_v143 (F := Ideal) x0 x1 x2 x3 x4 x5 x6 x9 x10 x11 x12) (ix2 r (0 : Fin 1)) = HopAttn.score (HopAttn.col0 x5) (x6 (ix1 (0 : Fin 1))) (HopAttn.head (HopAttn.row (val_main_v39 (F := Ideal) x0 x1 x2 x3 x4) r) x9 (HopAttn.vec x10)) (HopAttn.head (HopAttn.row (val_main_v71 (F := Ideal) x0 x1 x2 x3 x4) r) x11 (HopAttn.vec x12)) := by
    rw [score1_at, ho0, ho1]
  have hh : HopAttn.row (val_main_v164 (F := Ideal) x0 x1 x2 x3 x4 x5 x6 x9 x10 x11 x12) r = HopAttn.history (HopAttn.score (HopAttn.col0 x5) (x6 (ix1 (0 : Fin 1))) (HopAttn.head (HopAttn.row (val_main_v39 (F := Ideal) x0 x1 x2 x3 x4) r) x9 (HopAttn.vec x10)) (HopAttn.row (val_main_v12 (F := Ideal) x0 x3 x4) r)) (HopAttn.score (HopAttn.col0 x5) (x6 (ix1 (0 : Fin 1))) (HopAttn.head (HopAttn.row (val_main_v39 (F := Ideal) x0 x1 x2 x3 x4) r) x9 (HopAttn.vec x10)) (HopAttn.head (HopAttn.row (val_main_v71 (F := Ideal) x0 x1 x2 x3 x4) r) x11 (HopAttn.vec x12))) (HopAttn.head (HopAttn.row (val_main_v39 (F := Ideal) x0 x1 x2 x3 x4) r) x9 (HopAttn.vec x10)) (HopAttn.head (HopAttn.row (val_main_v71 (F := Ideal) x0 x1 x2 x3 x4) r) x11 (HopAttn.vec x12)) := funext fun q' => by
    show (val_main_v164 (F := Ideal) x0 x1 x2 x3 x4 x5 x6 x9 x10 x11 x12) (ix2 r q') = _
    rw [hist, hs0, hs1, ho0, ho1]
  have hs2 : (val_main_v175 (F := Ideal) x0 x1 x2 x3 x4 x5 x6 x9 x10 x11 x12 x13 x14) (ix2 r (0 : Fin 1)) = HopAttn.score (HopAttn.col0 x5) (x6 (ix1 (0 : Fin 1))) (HopAttn.history (HopAttn.score (HopAttn.col0 x5) (x6 (ix1 (0 : Fin 1))) (HopAttn.head (HopAttn.row (val_main_v39 (F := Ideal) x0 x1 x2 x3 x4) r) x9 (HopAttn.vec x10)) (HopAttn.row (val_main_v12 (F := Ideal) x0 x3 x4) r)) (HopAttn.score (HopAttn.col0 x5) (x6 (ix1 (0 : Fin 1))) (HopAttn.head (HopAttn.row (val_main_v39 (F := Ideal) x0 x1 x2 x3 x4) r) x9 (HopAttn.vec x10)) (HopAttn.head (HopAttn.row (val_main_v71 (F := Ideal) x0 x1 x2 x3 x4) r) x11 (HopAttn.vec x12))) (HopAttn.head (HopAttn.row (val_main_v39 (F := Ideal) x0 x1 x2 x3 x4) r) x9 (HopAttn.vec x10)) (HopAttn.head (HopAttn.row (val_main_v71 (F := Ideal) x0 x1 x2 x3 x4) r) x11 (HopAttn.vec x12))) (HopAttn.head (HopAttn.row (val_main_v103 (F := Ideal) x0 x1 x2 x3 x4) r) x13 (HopAttn.vec x14)) := by
    rw [sc2, hh, ho2]
  have hc : ∀ k : Fin 192, (val_main_v197 (F := Ideal) x0 x1 x2 x3 x4 x5 x6 x9 x10 x11 x12 x13 x14) (ix2 r k)
      = HopAttn.combined (HopAttn.score (HopAttn.col0 x5) (x6 (ix1 (0 : Fin 1))) (HopAttn.head (HopAttn.row (val_main_v39 (F := Ideal) x0 x1 x2 x3 x4) r) x9 (HopAttn.vec x10)) (HopAttn.row (val_main_v12 (F := Ideal) x0 x3 x4) r)) (HopAttn.score (HopAttn.col0 x5) (x6 (ix1 (0 : Fin 1))) (HopAttn.head (HopAttn.row (val_main_v39 (F := Ideal) x0 x1 x2 x3 x4) r) x9 (HopAttn.vec x10)) (HopAttn.head (HopAttn.row (val_main_v71 (F := Ideal) x0 x1 x2 x3 x4) r) x11 (HopAttn.vec x12))) (HopAttn.score (HopAttn.col0 x5) (x6 (ix1 (0 : Fin 1))) (HopAttn.history (HopAttn.score (HopAttn.col0 x5) (x6 (ix1 (0 : Fin 1))) (HopAttn.head (HopAttn.row (val_main_v39 (F := Ideal) x0 x1 x2 x3 x4) r) x9 (HopAttn.vec x10)) (HopAttn.row (val_main_v12 (F := Ideal) x0 x3 x4) r)) (HopAttn.score (HopAttn.col0 x5) (x6 (ix1 (0 : Fin 1))) (HopAttn.head (HopAttn.row (val_main_v39 (F := Ideal) x0 x1 x2 x3 x4) r) x9 (HopAttn.vec x10)) (HopAttn.head (HopAttn.row (val_main_v71 (F := Ideal) x0 x1 x2 x3 x4) r) x11 (HopAttn.vec x12))) (HopAttn.head (HopAttn.row (val_main_v39 (F := Ideal) x0 x1 x2 x3 x4) r) x9 (HopAttn.vec x10)) (HopAttn.head (HopAttn.row (val_main_v71 (F := Ideal) x0 x1 x2 x3 x4) r) x11 (HopAttn.vec x12))) (HopAttn.head (HopAttn.row (val_main_v103 (F := Ideal) x0 x1 x2 x3 x4) r) x13 (HopAttn.vec x14))) (HopAttn.head (HopAttn.row (val_main_v39 (F := Ideal) x0 x1 x2 x3 x4) r) x9 (HopAttn.vec x10)) (HopAttn.head (HopAttn.row (val_main_v71 (F := Ideal) x0 x1 x2 x3 x4) r) x11 (HopAttn.vec x12)) (HopAttn.head (HopAttn.row (val_main_v103 (F := Ideal) x0 x1 x2 x3 x4) r) x13 (HopAttn.vec x14)) k := fun k => by
    rw [comb, hs0, hs1, hs2, ho0, ho1, ho2]
  rw [HopAttn.out_apply, fin]
  unfold HopAttn.rowOut HopAttn.readout
  show GraphConvLayers.rowLogSoftmax _ q = GraphConvLayers.rowLogSoftmax _ q
  refine congrArg (fun f => GraphConvLayers.rowLogSoftmax f q) (funext fun q' => ?_)
  refine congrArg (fun t => t + x8 (ix1 q')) (Finset.sum_congr rfl fun k _ => ?_)
  rw [hc k]

end Cert.ReferenceIdeal.RefTail

end
-- ==== Proof.RefTailC.lean ====
/-
  The reference's last stage: the read-out product, its bias, and the log-softmax along each row.

  The weighted concatenation `c` of the three heads is multiplied into the read-out weights, the bias is spread along
  the rows, and each row `z` of the result is replaced by `(z - μ) - log (∑ exp (z - μ))` with `μ` the row's maximum.
  The host spells the log-softmax with a row maximum started from the lowest word and compared with it once more, kept
  as a column and spread back, and a row sum started from the zero word, kept as a column, its logarithm spread back;
  as a function of whole arrays that is the row-wise log-softmax of product plus bias.  Read at `(r, q)` it is the
  log-softmax, at position `q`, of the row `q' ↦ (∑ k, c (r, k) · T (k, q')) + t q'`.
-/
import proofs.«181484_j20667382628944_2_alg».proof.Proof.RefRead
import proofs.«181484_j20667382628944_2_alg».proof.Proof.HopSpec
import proofs.«181484_j20667382628944_2_alg».proof.Proof.LibRowReduce
import proofs.«181484_j20667382628944_2_alg».proof.Proof.LibGraphConvLayers

noncomputable section

namespace Cert.ReferenceIdeal.RefTailC

open Cert.ReferenceIdeal Cert.ReferenceIdeal.Gen Cert.ReferenceIdeal.ReadP
open Idealize.ShloMosaic Idealize.ShloMosaic.ValueIdx

variable (x0 : (⟨S50000x128, .f32⟩ : BufTy).Contents (Elt Ideal)) (x1 : (⟨S400000, .i32⟩ : BufTy).Contents (Elt Ideal)) (x2 : (⟨S400000, .i32⟩ : BufTy).Contents (Elt Ideal)) (x3 : (⟨S128x64, .f32⟩ : BufTy).Contents (Elt Ideal)) (x4 : (⟨S64, .f32⟩ : BufTy).Contents (Elt Ideal)) (x5 : (⟨S128x1, .f32⟩ : BufTy).Contents (Elt Ideal)) (x6 : (⟨S1, .f32⟩ : BufTy).Contents (Elt Ideal)) (x7 : (⟨S192x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S256x64, .f32⟩ : BufTy).Contents (Elt Ideal)) (x12 : (⟨S64, .f32⟩ : BufTy).Contents (Elt Ideal)) (x13 : (⟨S512x64, .f32⟩ : BufTy).Contents (Elt Ideal)) (x14 : (⟨S64, .f32⟩ : BufTy).Contents (Elt Ideal))

/-- A rank-2 index with coordinates `a`, `b` is `(a, b)`. -/
theorem ix2_mk {n0 n1 : ℕ} (j : (⟨2, ![n0, n1]⟩ : Shape).Idx) (a : Fin n0) (b : Fin n1)
    (h0 : (j 0).val = a.val) (h1 : (j 1).val = b.val) : j = ix2 a b := by
  funext c
  apply Fin.ext
  match c with
  | ⟨0, _⟩ => exact h0
  | ⟨1, _⟩ => exact h1

/-- The read-out product at `(r, q)`: row `r` of the weighted concatenation against column `q` of the weights. -/
theorem logit_at (r : Fin 50000) (q : Fin 64) :
    (val_main_v198 (F := Ideal) x0 x1 x2 x3 x4 x5 x6 x7 x9 x10 x11 x12 x13 x14) (ix2 r q) = ∑ k : Fin 192, (val_main_v197 (F := Ideal) x0 x1 x2 x3 x4 x5 x6 x9 x10 x11 x12 x13 x14) (ix2 r k) * x7 (ix2 k q) := by
  rw [val_main_v198_apply]
  refine Finset.sum_congr rfl fun k _ => ?_
  rw [show lidx_main_v198 (ix2 r q) k = ix2 r k from ix2_mk _ _ _ rfl rfl,
    show ridx_main_v198 (ix2 r q) k = ix2 k q from ix2_mk _ _ _ rfl rfl]

/-- The inlined log-softmax of product plus bias, as a function of whole arrays. -/
theorem logsm_eq : (val_main_v202 (F := Ideal) x0 x1 x2 x3 x4 x5 x6 x7 x8 x9 x10 x11 x12 x13 x14) = GraphConvLayers.biasLogSoftmax (val_main_v198 (F := Ideal) x0 x1 x2 x3 x4 x5 x6 x7 x9 x10 x11 x12 x13 x14) x8 := by
  unfold val_main_v202 val_main_call4_v10 val_main_call4_v9 val_main_call4_v8 val_main_call4_v7 val_main_call4_v6
    val_main_call4_v5 val_main_call4_v4 val_main_call4_v3 val_main_call4_v2 val_main_call4_v1 val_main_call4_v0
    val_main_call4_cst val_main_call4_cst_0 val_main_call4_cst_1 val_main_v201 val_main_v200 val_main_v199
  generalize (val_main_v198 (F := Ideal) x0 x1 x2 x3 x4 x5 x6 x7 x9 x10 x11 x12 x13 x14) = a
  exact GraphConvLayers.host_biasLogSoftmax _ _ _ (by decide) _ _ _ _ a x8

/-- The reference's result at `(r, q)`. -/
theorem final_apply (r : Fin 50000) (q : Fin 64) :
    (val_main_v202 (F := Ideal) x0 x1 x2 x3 x4 x5 x6 x7 x8 x9 x10 x11 x12 x13 x14) (ix2 r q)
      = GraphConvLayers.rowLogSoftmax
          (fun q' => (∑ k : Fin 192, (val_main_v197 (F := Ideal) x0 x1 x2 x3 x4 x5 x6 x9 x10 x11 x12 x13 x14) (ix2 r k) * x7 (ix2 k q')) + x8 (ix1 q')) q := by
  rw [logsm_eq, GraphConvLayers.biasLogSoftmax_apply]
  refine congrArg (fun f => GraphConvLayers.rowLogSoftmax f q) (funext fun q' => ?_)
  show (val_main_v198 (F := Ideal) x0 x1 x2 x3 x4 x5 x6 x7 x9 x10 x11 x12 x13 x14) (ix2 r q') + x8 (ix1 q') = _
  rw [logit_at]

end Cert.ReferenceIdeal.RefTailC

end
-- ==== Proof.RefTailLate.lean ====
/-
  The later attention stages of the reference, and the whole tail.

  With the first two scores `s₀, s₁` in hand:

    * the two scores are laid side by side and softmaxed along the row: the row maximum (started from the lowest word
      and compared with it once more, which changes nothing), the shifted exponentials, the row sum (started from the
      zero word), the quotient;
    * the history after two hops is `(0 + α₀ · o₀) + α₁ · o₁`, the two softmax columns sliced out and spread along the
      rows;
    * the third score joins the history with the third head; the three scores are softmaxed the same way;
    * the three heads, each scaled by its softmax column, are laid end to end.

  Each is read at an index in the specification's words; together with the last stage (product, bias, log-softmax) and
  the chain of the earlier module this gives the reference's result as the specification of the three JK arrays and
  the feature array.
-/
import proofs.«181484_j20667382628944_2_alg».proof.Proof.RefRead
import proofs.«181484_j20667382628944_2_alg».proof.Proof.HopSpec
import proofs.«181484_j20667382628944_2_alg».proof.Proof.LibRowReduce
import proofs.«181484_j20667382628944_2_alg».proof.Proof.LibGraphConvLayers
import proofs.«181484_j20667382628944_2_alg».proof.Proof.LibMaxSup
import proofs.«181484_j20667382628944_2_alg».proof.Proof.RefTail
import proofs.«181484_j20667382628944_2_alg».proof.Proof.RefTailC

noncomputable section

namespace Cert.ReferenceIdeal.RefTailLate

open Cert.ReferenceIdeal Cert.ReferenceIdeal.Gen Cert.ReferenceIdeal.ReadP Cert.ReferenceIdeal.RefTail
open Idealize.ShloMosaic Idealize.ShloMosaic.ValueIdx

variable (x0 : (⟨S50000x128, .f32⟩ : BufTy).Contents (Elt Ideal)) (x1 : (⟨S400000, .i32⟩ : BufTy).Contents (Elt Ideal)) (x2 : (⟨S400000, .i32⟩ : BufTy).Contents (Elt Ideal)) (x3 : (⟨S128x64, .f32⟩ : BufTy).Contents (Elt Ideal)) (x4 : (⟨S64, .f32⟩ : BufTy).Contents (Elt Ideal)) (x5 : (⟨S128x1, .f32⟩ : BufTy).Contents (Elt Ideal)) (x6 : (⟨S1, .f32⟩ : BufTy).Contents (Elt Ideal)) (x7 : (⟨S192x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S256x64, .f32⟩ : BufTy).Contents (Elt Ideal)) (x12 : (⟨S64, .f32⟩ : BufTy).Contents (Elt Ideal)) (x13 : (⟨S512x64, .f32⟩ : BufTy).Contents (Elt Ideal)) (x14 : (⟨S64, .f32⟩ : BufTy).Contents (Elt Ideal))

/-! ## The two-score softmax and the history -/

theorem cat144_at (r : Fin 50000) (k : Fin 2) : (val_main_v144 (F := Ideal) x0 x1 x2 x3 x4 x5 x6 x9 x10 x11 x12) (ix2 r k) = (HopAttn.pair ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1)))) k := by
  unfold val_main_v144
  refine (HopAttn.concat2_apply (show 1 + 1 = 2 from rfl) _ _ _ r k).trans ?_
  rw [show (fun j : Fin 1 => (val_main_v119 (F := Ideal) x0 x1 x2 x3 x4 x5 x6 x9 x10) (ix2 r j)) = fun _ => (val_main_v119 (F := Ideal) x0 x1 x2 x3 x4 x5 x6 x9 x10) (ix2 r (0 : Fin 1)) from
      funext fun j => by rw [Subsingleton.elim j 0],
    show (fun j : Fin 1 => (val_main_v143 (F := Ideal) x0 x1 x2 x3 x4 x5 x6 x9 x10 x11 x12) (ix2 r j)) = fun _ => (val_main_v143 (F := Ideal) x0 x1 x2 x3 x4 x5 x6 x9 x10 x11 x12) (ix2 r (0 : Fin 1)) from
      funext fun j => by rw [Subsingleton.elim j 0]]
  rfl

theorem att2_at (r : Fin 50000) (j : Fin 2) : (val_main_v155 (F := Ideal) x0 x1 x2 x3 x4 x5 x6 x9 x10 x11 x12) (ix2 r j) = HopAttn.softmaxRow (HopAttn.pair ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1)))) j := by
  have hrow : (fun k : Fin 2 => (val_main_v144 (F := Ideal) x0 x1 x2 x3 x4 x5 x6 x9 x10 x11 x12) (ix2 r k)) = (HopAttn.pair ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1)))) := funext fun k => by rw [cat144_at]
  have hmax : (val_main_v145 (F := Ideal) x0 x1 x2 x3 x4 x5 x6 x9 x10 x11 x12) (ix1 r) = (Finset.univ : Finset (Fin 2)).fold max HopAttn.lowW (HopAttn.pair ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1)))) := by
    unfold val_main_v145
    refine (RowReduce.hostReduce_maximumf_row _ _ _ (by decide) _ r).trans ?_
    rw [hrow]
    rfl
  have hspread : ∀ k : Fin 2, (val_main_v149 (F := Ideal) x0 x1 x2 x3 x4 x5 x6 x9 x10 x11 x12) (ix2 r k) = max HopAttn.lowW ((Finset.univ : Finset (Fin 2)).fold max HopAttn.lowW (HopAttn.pair ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))))) := fun k => by
    rw [val_main_v149_apply, val_main_v148_apply, val_main_v147_apply, val_main_v146_apply, val_main_cst_29_apply,
      show idx_main_v148 (idx_main_v149 (ix2 r k)) = ix1 r from ix1_mk _ _ rfl, hmax]
    rfl
  have hexp : ∀ k : Fin 2, (val_main_v151 (F := Ideal) x0 x1 x2 x3 x4 x5 x6 x9 x10 x11 x12) (ix2 r k) = Ideal.exp ((HopAttn.pair ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1)))) k - max HopAttn.lowW ((Finset.univ : Finset (Fin 2)).fold max HopAttn.lowW (HopAttn.pair ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1)))))) := fun k => by
    rw [val_main_v151_apply, val_main_v150_apply, hspread, cat144_at]
    rfl
  have hsum : (val_main_v154 (F := Ideal) x0 x1 x2 x3 x4 x5 x6 x9 x10 x11 x12) (ix2 r j) = HopAttn.zeroW + ∑ k : Fin 2, Ideal.exp ((HopAttn.pair ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1)))) k - max HopAttn.lowW ((Finset.univ : Finset (Fin 2)).fold max HopAttn.lowW (HopAttn.pair ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1)))))) := by
    rw [val_main_v154_apply, val_main_v153_apply, val_main_v152_apply, val_main_cst_30_apply]
    refine congrArg (fun t => HopAttn.zeroW + t) (Finset.sum_congr rfl fun k _ => ?_)
    rw [show idx_main_v152 (idx_main_v153 (idx_main_v154 (ix2 r j))) k = ix2 r k from ix2_mk _ _ _ rfl rfl, hexp]
  rw [val_main_v155_apply, hexp, hsum, Ideal.hostDivf_def]
  exact softmax_at _ j

theorem hist2_at (r : Fin 50000) (q : Fin 64) : (val_main_v164 (F := Ideal) x0 x1 x2 x3 x4 x5 x6 x9 x10 x11 x12) (ix2 r q) = HopAttn.history ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) (HopAttn.row (val_main_v44 (F := Ideal) x0 x1 x2 x3 x4 x9 x10) r) (HopAttn.row (val_main_v76 (F := Ideal) x0 x1 x2 x3 x4 x11 x12) r) q := by
  rw [val_main_v164_apply, val_main_v160_apply, val_main_v159_apply, val_main_cst_31_apply, val_main_v158_apply, val_main_v157_apply,
    val_main_v156_apply, val_main_v163_apply, val_main_v162_apply, val_main_v161_apply,
    show idx_main_v156 (idx_main_v157 (ix2 r q)) = ix2 r (0 : Fin 2) from ix2_mk _ _ _ rfl rfl,
    show idx_main_v161 (idx_main_v162 (ix2 r q)) = ix2 r (1 : Fin 2) from ix2_mk _ _ _ rfl rfl, att2_at, att2_at]
  simp only [Ideal.hostDivf_def, Ideal.addf_def, Ideal.subf_def, Ideal.mulf_def, Ideal.maximumf_def, Ideal.hostUnary_exp_def, Ideal.hostUnary_log_def, Ideal.hostNegf_def, Ideal.negf_def, Ideal.ofBits_def]
  rw [Ideal.ofBits_zero_f32, zero_add]
  rfl

/-! ## The third score and the three-score softmax -/

theorem cat165_at (r : Fin 50000) (k : Fin 128) :
    (val_main_v165 (F := Ideal) x0 x1 x2 x3 x4 x5 x6 x9 x10 x11 x12 x13 x14) (ix2 r k) = HopAttn.join2 (show 64 + 64 = 128 from rfl) (HopAttn.history ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) (HopAttn.row (val_main_v44 (F := Ideal) x0 x1 x2 x3 x4 x9 x10) r) (HopAttn.row (val_main_v76 (F := Ideal) x0 x1 x2 x3 x4 x11 x12) r)) (HopAttn.row (val_main_v108 (F := Ideal) x0 x1 x2 x3 x4 x13 x14) r) k := by
  unfold val_main_v165
  refine (HopAttn.concat2_apply (show 64 + 64 = 128 from rfl) _ _ _ r k).trans ?_
  rw [show (fun j : Fin 64 => (val_main_v164 (F := Ideal) x0 x1 x2 x3 x4 x5 x6 x9 x10 x11 x12) (ix2 r j)) = HopAttn.history ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) (HopAttn.row (val_main_v44 (F := Ideal) x0 x1 x2 x3 x4 x9 x10) r) (HopAttn.row (val_main_v76 (F := Ideal) x0 x1 x2 x3 x4 x11 x12) r) from funext fun j => by rw [hist2_at]]
  rfl

theorem score2_at (r : Fin 50000) (z : Fin 1) :
    (val_main_v175 (F := Ideal) x0 x1 x2 x3 x4 x5 x6 x9 x10 x11 x12 x13 x14) (ix2 r z) = HopAttn.score (HopAttn.col0 x5) (x6 (ix1 (0 : Fin 1))) (HopAttn.history ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) (HopAttn.row (val_main_v44 (F := Ideal) x0 x1 x2 x3 x4 x9 x10) r) (HopAttn.row (val_main_v76 (F := Ideal) x0 x1 x2 x3 x4 x11 x12) r)) (HopAttn.row (val_main_v108 (F := Ideal) x0 x1 x2 x3 x4 x13 x14) r) := by
  obtain rfl : z = 0 := Subsingleton.elim _ _
  rw [val_main_v175_apply, val_main_v174_apply, val_main_cst_33_apply, val_main_v173_apply, val_main_v172_apply,
    val_main_cst_32_apply, val_main_v171_apply, val_main_v170_apply, val_main_v169_apply, val_main_v166_apply,
    val_main_v168_apply, val_main_v167_apply]
  simp only [Ideal.hostDivf_def, Ideal.addf_def, Ideal.subf_def, Ideal.mulf_def, Ideal.maximumf_def, Ideal.hostUnary_exp_def, Ideal.hostUnary_log_def, Ideal.hostNegf_def, Ideal.negf_def, Ideal.ofBits_def]
  exact score_at (val_main_v165 (F := Ideal) x0 x1 x2 x3 x4 x5 x6 x9 x10 x11 x12 x13 x14) x5 x6 _ _ (lidx_main_v166 (ix2 r 0)) (ridx_main_v166 (ix2 r 0))
    (idx_main_v167 (idx_main_v168 (ix2 r 0))) r (cat165_at x0 x1 x2 x3 x4 x5 x6 x9 x10 x11 x12 x13 x14 r)
    (fun k => ix2_mk _ _ _ rfl rfl) (fun k => ix2_mk _ _ _ rfl rfl) (ix1_mk _ _ rfl)

theorem cat176_at (r : Fin 50000) (k : Fin 3) : (val_main_v176 (F := Ideal) x0 x1 x2 x3 x4 x5 x6 x9 x10 x11 x12 x13 x14) (ix2 r k) = (HopAttn.triple ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1)))) k := by
  unfold val_main_v176
  refine (HopAttn.concat3_apply (show 1 + 1 + 1 = 3 from rfl) _ _ _ _ r k).trans ?_
  rw [show (fun j : Fin 1 => (val_main_v119 (F := Ideal) x0 x1 x2 x3 x4 x5 x6 x9 x10) (ix2 r j)) = fun _ => (val_main_v119 (F := Ideal) x0 x1 x2 x3 x4 x5 x6 x9 x10) (ix2 r (0 : Fin 1)) from
      funext fun j => by rw [Subsingleton.elim j 0],
    show (fun j : Fin 1 => (val_main_v143 (F := Ideal) x0 x1 x2 x3 x4 x5 x6 x9 x10 x11 x12) (ix2 r j)) = fun _ => (val_main_v143 (F := Ideal) x0 x1 x2 x3 x4 x5 x6 x9 x10 x11 x12) (ix2 r (0 : Fin 1)) from
      funext fun j => by rw [Subsingleton.elim j 0],
    show (fun j : Fin 1 => (val_main_v175 (F := Ideal) x0 x1 x2 x3 x4 x5 x6 x9 x10 x11 x12 x13 x14) (ix2 r j)) = fun _ => (val_main_v175 (F := Ideal) x0 x1 x2 x3 x4 x5 x6 x9 x10 x11 x12 x13 x14) (ix2 r (0 : Fin 1)) from
      funext fun j => by rw [Subsingleton.elim j 0]]
  rfl

theorem att3_at (r : Fin 50000) (j : Fin 3) : (val_main_v187 (F := Ideal) x0 x1 x2 x3 x4 x5 x6 x9 x10 x11 x12 x13 x14) (ix2 r j) = HopAttn.softmaxRow (HopAttn.triple ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1)))) j := by
  have hrow : (fun k : Fin 3 => (val_main_v176 (F := Ideal) x0 x1 x2 x3 x4 x5 x6 x9 x10 x11 x12 x13 x14) (ix2 r k)) = (HopAttn.triple ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1)))) := funext fun k => by rw [cat176_at]
  have hmax : (val_main_v177 (F := Ideal) x0 x1 x2 x3 x4 x5 x6 x9 x10 x11 x12 x13 x14) (ix1 r) = (Finset.univ : Finset (Fin 3)).fold max HopAttn.lowW (HopAttn.triple ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1)))) := by
    unfold val_main_v177
    refine (RowReduce.hostReduce_maximumf_row _ _ _ (by decide) _ r).trans ?_
    rw [hrow]
    rfl
  have hspread : ∀ k : Fin 3, (val_main_v181 (F := Ideal) x0 x1 x2 x3 x4 x5 x6 x9 x10 x11 x12 x13 x14) (ix2 r k) = max HopAttn.lowW ((Finset.univ : Finset (Fin 3)).fold max HopAttn.lowW (HopAttn.triple ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1))))) := fun k => by
    rw [val_main_v181_apply, val_main_v180_apply, val_main_v179_apply, val_main_v178_apply, val_main_cst_35_apply,
      show idx_main_v180 (idx_main_v181 (ix2 r k)) = ix1 r from ix1_mk _ _ rfl, hmax]
    rfl
  have hexp : ∀ k : Fin 3, (val_main_v183 (F := Ideal) x0 x1 x2 x3 x4 x5 x6 x9 x10 x11 x12 x13 x14) (ix2 r k) = Ideal.exp ((HopAttn.triple ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1)))) k - max HopAttn.lowW ((Finset.univ : Finset (Fin 3)).fold max HopAttn.lowW (HopAttn.triple ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1)))))) := fun k => by
    rw [val_main_v183_apply, val_main_v182_apply, hspread, cat176_at]
    rfl
  have hsum : (val_main_v186 (F := Ideal) x0 x1 x2 x3 x4 x5 x6 x9 x10 x11 x12 x13 x14) (ix2 r j) = HopAttn.zeroW + ∑ k : Fin 3, Ideal.exp ((HopAttn.triple ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1)))) k - max HopAttn.lowW ((Finset.univ : Finset (Fin 3)).fold max HopAttn.lowW (HopAttn.triple ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1)))))) := by
    rw [val_main_v186_apply, val_main_v185_apply, val_main_v184_apply, val_main_cst_36_apply]
    refine congrArg (fun t => HopAttn.zeroW + t) (Finset.sum_congr rfl fun k _ => ?_)
    rw [show idx_main_v184 (idx_main_v185 (idx_main_v186 (ix2 r j))) k = ix2 r k from ix2_mk _ _ _ rfl rfl, hexp]
  rw [val_main_v187_apply, hexp, hsum, Ideal.hostDivf_def]
  exact softmax_at _ j

/-! ## The three weighted heads laid end to end -/

theorem combined_apply (r : Fin 50000) (k : Fin 192) : (val_main_v197 (F := Ideal) x0 x1 x2 x3 x4 x5 x6 x9 x10 x11 x12 x13 x14) (ix2 r k)
    = HopAttn.combined ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1))) (HopAttn.row (val_main_v44 (F := Ideal) x0 x1 x2 x3 x4 x9 x10) r) (HopAttn.row (val_main_v76 (F := Ideal) x0 x1 x2 x3 x4 x11 x12) r) (HopAttn.row (val_main_v108 (F := Ideal) x0 x1 x2 x3 x4 x13 x14) r) k := by
  have e0 : (fun j : Fin 64 => (val_main_v190 (F := Ideal) x0 x1 x2 x3 x4 x5 x6 x9 x10 x11 x12 x13 x14) (ix2 r j))
      = fun q' => HopAttn.softmaxRow (HopAttn.triple ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1)))) 0 * HopAttn.row (val_main_v44 (F := Ideal) x0 x1 x2 x3 x4 x9 x10) r q' := funext fun q' => by
    rw [val_main_v190_apply, val_main_v189_apply, val_main_v188_apply,
      show idx_main_v188 (idx_main_v189 (ix2 r q')) = ix2 r (0 : Fin 3) from ix2_mk _ _ _ rfl rfl, att3_at]
    rfl
  have e1 : (fun j : Fin 64 => (val_main_v193 (F := Ideal) x0 x1 x2 x3 x4 x5 x6 x9 x10 x11 x12 x13 x14) (ix2 r j))
      = fun q' => HopAttn.softmaxRow (HopAttn.triple ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1)))) 1 * HopAttn.row (val_main_v76 (F := Ideal) x0 x1 x2 x3 x4 x11 x12) r q' := funext fun q' => by
    rw [val_main_v193_apply, val_main_v192_apply, val_main_v191_apply,
      show idx_main_v191 (idx_main_v192 (ix2 r q')) = ix2 r (1 : Fin 3) from ix2_mk _ _ _ rfl rfl, att3_at]
    rfl
  have e2 : (fun j : Fin 64 => (val_main_v196 (F := Ideal) x0 x1 x2 x3 x4 x5 x6 x9 x10 x11 x12 x13 x14) (ix2 r j))
      = fun q' => HopAttn.softmaxRow (HopAttn.triple ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) ((val_main_v175 (F := Ideal) x0 x1 x2 x3 x4 x5 x6 x9 x10 x11 x12 x13 x14) (ix2 r (0 : Fin 1)))) 2 * HopAttn.row (val_main_v108 (F := Ideal) x0 x1 x2 x3 x4 x13 x14) r q' := funext fun q' => by
    rw [val_main_v196_apply, val_main_v195_apply, val_main_v194_apply,
      show idx_main_v194 (idx_main_v195 (ix2 r q')) = ix2 r (2 : Fin 3) from ix2_mk _ _ _ rfl rfl, att3_at]
    rfl
  unfold val_main_v197
  refine (HopAttn.concat3_apply (show 64 + 64 + 64 = 192 from rfl) _ _ _ _ r k).trans ?_
  rw [e0, e1, e2]
  rfl

/-- The third score, its first row named as a row of the history array. -/
theorem sc2_row (r : Fin 50000) (z : Fin 1) : (val_main_v175 (F := Ideal) x0 x1 x2 x3 x4 x5 x6 x9 x10 x11 x12 x13 x14) (ix2 r z)
    = HopAttn.score (HopAttn.col0 x5) (x6 (ix1 (0 : Fin 1))) (HopAttn.row (val_main_v164 (F := Ideal) x0 x1 x2 x3 x4 x5 x6 x9 x10 x11 x12) r) (HopAttn.row (val_main_v108 (F := Ideal) x0 x1 x2 x3 x4 x13 x14) r) := by
  rw [score2_at, show HopAttn.row (val_main_v164 (F := Ideal) x0 x1 x2 x3 x4 x5 x6 x9 x10 x11 x12) r = HopAttn.history ((val_main_v119 (F := Ideal) x0 x1 x2 x3 x4 x5 x6 x9 x10) (ix2 r (0 : Fin 1))) ((val_main_v143 (F := Ideal) x0 x1 x2 x3 x4 x5 x6 x9 x10 x11 x12) (ix2 r (0 : Fin 1))) (HopAttn.row (val_main_v44 (F := Ideal) x0 x1 x2 x3 x4 x9 x10) r) (HopAttn.row (val_main_v76 (F := Ideal) x0 x1 x2 x3 x4 x11 x12) r) from funext fun j => by
    show (val_main_v164 (F := Ideal) x0 x1 x2 x3 x4 x5 x6 x9 x10 x11 x12) (ix2 r j) = _
    rw [hist2_at]]

/-- The reference's result is the specification of the three JK arrays and the feature array. -/
theorem tail_eq : (val_main_v202 (F := Ideal) x0 x1 x2 x3 x4 x5 x6 x7 x8 x9 x10 x11 x12 x13 x14) = HopAttn.out (val_main_v39 (F := Ideal) x0 x1 x2 x3 x4) (val_main_v71 (F := Ideal) x0 x1 x2 x3 x4) (val_main_v103 (F := Ideal) x0 x1 x2 x3 x4) (val_main_v12 (F := Ideal) x0 x3 x4) x5 x6 x7 x8 x9 x10 x11 x12 x13 x14 :=
  tail_eq_of x0 x1 x2 x3 x4 x5 x6 x7 x8 x9 x10 x11 x12 x13 x14
    (hist2_at x0 x1 x2 x3 x4 x5 x6 x9 x10 x11 x12) (sc2_row x0 x1 x2 x3 x4 x5 x6 x9 x10 x11 x12 x13 x14)
    (combined_apply x0 x1 x2 x3 x4 x5 x6 x9 x10 x11 x12 x13 x14) (RefTailC.final_apply x0 x1 x2 x3 x4 x5 x6 x7 x8 x9 x10 x11 x12 x13 x14)

end Cert.ReferenceIdeal.RefTailLate

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.Body2.lean ====
/-
  The second kernel body over a tile of nodes is the hop-attention read-out of each of the tile's rows.

  The body receives a block of T rows of each of the three JK arrays and of the feature array, and the parameters
  whole (bias rows, the score's weight row and its offset as one-row arrays). Every value it forms at row p is a
  function of row p of its operands only:

    * a dense head is relu (c · W + b): the product of the narrowed operands is the plain sum over the contracted
      coordinate, the bias row is spread over the rows;
    * a score is the sigmoid of ⟨a ‖ b, w⟩ + β: the two rows are laid end to end by a concatenation, multiplied by the
      spread weight row, summed along the row, kept as a column, and the spread offset is added;
    * a softmax over a short row (two or three scores laid side by side) is exp (z - μ) / ∑ exp (z - μ) with μ the
      row maximum; the maximum is compared once more with the word it was folded from, which changes nothing;
    * one column of that softmax, spread over 64 lanes, scales a head;
    * the read-out is the log-softmax of (α₀ o0 ‖ α₁ o1 ‖ α₂ o2) · T + t.

  The stages are first stated over a tile of any height in the body's own spelling, then each of the body's payloads is
  read at an entry, and the payloads are put together into the specification's read-out of the tile.
-/
import proofs.«181484_j20667382628944_2_alg».proof.Proof.Gen.KernelIdeal.Frame
import proofs.«181484_j20667382628944_2_alg».proof.Proof.HopSpec
import proofs.«181484_j20667382628944_2_alg».proof.Proof.HopTile
import proofs.«181484_j20667382628944_2_alg».proof.Proof.LibRowReduce
import proofs.«181484_j20667382628944_2_alg».proof.Proof.LibColumns
import proofs.«181484_j20667382628944_2_alg».proof.Proof.LibGraphConvLayers
import Idealize.ShloMosaic.Lib.ValueLayout
import Idealize.ShloMosaic.Lib.Pipeline.Value

set_option maxRecDepth 16384

noncomputable section

namespace Cert.KernelIdeal.Body2

open Idealize.ShloMosaic Idealize.ShloMosaic.ValueIdx Idealize.SL.Sem
open Cert.KernelIdeal Cert.KernelIdeal.Gen HopAttn

/-! ## The stages over a tile of any height -/

/-- A one-row array, cast to itself and spread over the rows of a one-column tile: the row's single entry. -/
theorem spreadOne_apply {T : ℕ} (o : FVec Ideal ⟨2, ![1, 1]⟩ .f32)
    (hco : (⟨2, ![1, 1]⟩ : Shape).ShapeCasts ⟨2, ![1, 1]⟩) (hbo : (⟨2, ![1, 1]⟩ : Shape).Broadcasts ⟨2, ![T, 1]⟩)
    (p : Fin T) (z : Fin 1) :
    broadcastTo ⟨2, ![T, 1]⟩ (shapeCast ⟨2, ![1, 1]⟩ o hco) hbo (ix2 p z) = o (ix2 (0 : Fin 1) (0 : Fin 1)) := by
  obtain rfl : z = 0 := Subsingleton.elim _ _
  exact Tile.spreadRow_apply o hco hbo p 0

/-- Two rows of 64 laid end to end, multiplied lane by lane by the spread weight row and summed along the row, kept as
    a column: at row `p` the inner product of the joined row with the weight row. -/
theorem weightedSum_apply {T : ℕ} (a b : FVec Ideal ⟨2, ![T, 64]⟩ .f32) (w : FVec Ideal ⟨2, ![1, 128]⟩ .f32)
    (hcat : Shape.Concatenates [(⟨2, ![T, 64]⟩ : Shape), ⟨2, ![T, 64]⟩] ⟨2, ![T, 128]⟩ (1 : Fin 2))
    (hcw : (⟨2, ![1, 128]⟩ : Shape).ShapeCasts ⟨2, ![1, 128]⟩)
    (hbw : (⟨2, ![1, 128]⟩ : Shape).Broadcasts ⟨2, ![T, 128]⟩)
    (hr : (⟨2, ![T, 128]⟩ : Shape).Reduces [1] ⟨1, ![T]⟩)
    (hφ : FKind.Formats .f32) (hadd : (0x00000000#32 : BitVec FTy.f32.bits) = FKind.add.neutral .f32 hφ)
    (hc : (⟨1, ![T]⟩ : Shape).ShapeCasts ⟨2, ![T, 1]⟩) (p : Fin T) (z : Fin 1) :
    shapeCast ⟨2, ![T, 1]⟩ (multiReduction (F := Ideal) .add [1] ⟨1, ![T]⟩
        (mulf (concatenate ⟨2, ![T, 128]⟩ (1 : Fin 2) [⟨⟨2, ![T, 64]⟩, a⟩, ⟨⟨2, ![T, 64]⟩, b⟩] hcat)
          (broadcastTo ⟨2, ![T, 128]⟩ (shapeCast ⟨2, ![1, 128]⟩ w hcw) hbw)) 0x00000000#32 hr hφ hadd) hc (ix2 p z)
      = ∑ k : Fin 128, join2 (show 64 + 64 = 128 from rfl) (fun j => a (ix2 p j)) (fun j => b (ix2 p j)) k
          * w (ix2 (0 : Fin 1) k) := by
  rw [RowReduce.shapeCast_a_a1_apply, RowReduce.multiReduction_add_row]
  refine Finset.sum_congr rfl fun k _ => ?_
  rw [mulf_apply, concat2_apply (show 64 + 64 = 128 from rfl), Tile.spreadRow_apply]

/-- The score column: the sigmoid of the weighted sum plus the spread offset is the score of the two rows. -/
theorem score_apply {T : ℕ} (a b : FVec Ideal ⟨2, ![T, 64]⟩ .f32) (w : FVec Ideal ⟨2, ![1, 128]⟩ .f32)
    (o : FVec Ideal ⟨2, ![1, 1]⟩ .f32)
    (hcat : Shape.Concatenates [(⟨2, ![T, 64]⟩ : Shape), ⟨2, ![T, 64]⟩] ⟨2, ![T, 128]⟩ (1 : Fin 2))
    (hcw : (⟨2, ![1, 128]⟩ : Shape).ShapeCasts ⟨2, ![1, 128]⟩)
    (hbw : (⟨2, ![1, 128]⟩ : Shape).Broadcasts ⟨2, ![T, 128]⟩)
    (hr : (⟨2, ![T, 128]⟩ : Shape).Reduces [1] ⟨1, ![T]⟩)
    (hφ : FKind.Formats .f32) (hadd : (0x00000000#32 : BitVec FTy.f32.bits) = FKind.add.neutral .f32 hφ)
    (hc : (⟨1, ![T]⟩ : Shape).ShapeCasts ⟨2, ![T, 1]⟩)
    (hco : (⟨2, ![1, 1]⟩ : Shape).ShapeCasts ⟨2, ![1, 1]⟩) (hbo : (⟨2, ![1, 1]⟩ : Shape).Broadcasts ⟨2, ![T, 1]⟩)
    (p : Fin T) (z : Fin 1) :
    logistic (addf (shapeCast ⟨2, ![T, 1]⟩ (multiReduction (F := Ideal) .add [1] ⟨1, ![T]⟩
        (mulf (concatenate ⟨2, ![T, 128]⟩ (1 : Fin 2) [⟨⟨2, ![T, 64]⟩, a⟩, ⟨⟨2, ![T, 64]⟩, b⟩] hcat)
          (broadcastTo ⟨2, ![T, 128]⟩ (shapeCast ⟨2, ![1, 128]⟩ w hcw) hbw)) 0x00000000#32 hr hφ hadd) hc)
        (broadcastTo ⟨2, ![T, 1]⟩ (shapeCast ⟨2, ![1, 1]⟩ o hco) hbo)) (ix2 p z)
      = score (fun k => w (ix2 (0 : Fin 1) k)) (o (ix2 (0 : Fin 1) (0 : Fin 1))) (fun j => a (ix2 p j))
          (fun j => b (ix2 p j)) := by
  show Ideal.logistic (shapeCast ⟨2, ![T, 1]⟩ _ hc (ix2 p z) + broadcastTo ⟨2, ![T, 1]⟩ _ hbo (ix2 p z)) = _
  rw [weightedSum_apply, spreadOne_apply]
  rfl

/-- The body's spelling of a softmax along the rows of a tile: the row maximum (compared once more with the word it
    was folded from), kept as a column and spread back; the exponentials, their row sum kept as a column and spread
    back; the quotient. -/
def softmaxK {T n : ℕ} (s : FVec Ideal ⟨2, ![T, n]⟩ .f32)
    (hr : (⟨2, ![T, n]⟩ : Shape).Reduces [1] ⟨1, ![T]⟩)
    (hc : (⟨1, ![T]⟩ : Shape).ShapeCasts ⟨2, ![T, 1]⟩)
    (hw : (⟨2, ![T, 1]⟩ : Shape).Broadcasts ⟨2, ![T, n]⟩)
    (hφ : FKind.Formats .f32)
    (hmax : (0xFF800000#32 : BitVec FTy.f32.bits) = FKind.maximumf.neutral .f32 hφ)
    (hadd : (0x00000000#32 : BitVec FTy.f32.bits) = FKind.add.neutral .f32 hφ) : FVec Ideal ⟨2, ![T, n]⟩ .f32 :=
  divf (exp (subf s (broadcastTo ⟨2, ![T, n]⟩ (shapeCast ⟨2, ![T, 1]⟩
      (maximumf (broadcast ⟨1, ![T]⟩ (Scalar.ofBits (F := Ideal) .f32 0xFF800000#32))
        (multiReduction (F := Ideal) .maximumf [1] ⟨1, ![T]⟩ s 0xFF800000#32 hr hφ hmax)) hc) hw)))
    (broadcastTo ⟨2, ![T, n]⟩ (shapeCast ⟨2, ![T, 1]⟩
      (multiReduction (F := Ideal) .add [1] ⟨1, ![T]⟩
        (exp (subf s (broadcastTo ⟨2, ![T, n]⟩ (shapeCast ⟨2, ![T, 1]⟩
          (maximumf (broadcast ⟨1, ![T]⟩ (Scalar.ofBits (F := Ideal) .f32 0xFF800000#32))
            (multiReduction (F := Ideal) .maximumf [1] ⟨1, ![T]⟩ s 0xFF800000#32 hr hφ hmax)) hc) hw)))
        0x00000000#32 hr hφ hadd) hc) hw)

/-- The shifted row: an entry less the row's maximum. -/
theorem shifted_apply {T n : ℕ} (s : FVec Ideal ⟨2, ![T, n]⟩ .f32)
    (hr : (⟨2, ![T, n]⟩ : Shape).Reduces [1] ⟨1, ![T]⟩)
    (hc : (⟨1, ![T]⟩ : Shape).ShapeCasts ⟨2, ![T, 1]⟩)
    (hw : (⟨2, ![T, 1]⟩ : Shape).Broadcasts ⟨2, ![T, n]⟩)
    (hφ : FKind.Formats .f32)
    (hmax : (0xFF800000#32 : BitVec FTy.f32.bits) = FKind.maximumf.neutral .f32 hφ) (p : Fin T) (k : Fin n) :
    subf s (broadcastTo ⟨2, ![T, n]⟩ (shapeCast ⟨2, ![T, 1]⟩
      (maximumf (broadcast ⟨1, ![T]⟩ (Scalar.ofBits (F := Ideal) .f32 0xFF800000#32))
        (multiReduction (F := Ideal) .maximumf [1] ⟨1, ![T]⟩ s 0xFF800000#32 hr hφ hmax)) hc) hw) (ix2 p k)
      = s (ix2 p k) - GraphConvLayers.rowMax (fun k => s (ix2 p k)) := by
  rw [subf_apply, broadcastTo_a1_ab_apply, RowReduce.shapeCast_a_a1_apply, maximumf_apply, broadcast_apply,
    RowReduce.multiReduction_maximumf_row]
  exact congrArg (fun t => s (ix2 p k) - t) (GraphConvLayers.max_low_rowMax fun k => s (ix2 p k))

/-- The body's softmax at `(p, j)` is the softmax of row `p` at position `j`. -/
theorem softmaxK_apply {T n : ℕ} (s : FVec Ideal ⟨2, ![T, n]⟩ .f32)
    (hr : (⟨2, ![T, n]⟩ : Shape).Reduces [1] ⟨1, ![T]⟩)
    (hc : (⟨1, ![T]⟩ : Shape).ShapeCasts ⟨2, ![T, 1]⟩)
    (hw : (⟨2, ![T, 1]⟩ : Shape).Broadcasts ⟨2, ![T, n]⟩)
    (hφ : FKind.Formats .f32)
    (hmax : (0xFF800000#32 : BitVec FTy.f32.bits) = FKind.maximumf.neutral .f32 hφ)
    (hadd : (0x00000000#32 : BitVec FTy.f32.bits) = FKind.add.neutral .f32 hφ) (p : Fin T) (j : Fin n) :
    softmaxK s hr hc hw hφ hmax hadd (ix2 p j) = softmaxRow (fun k => s (ix2 p k)) j := by
  unfold softmaxK softmaxRow
  rw [divf_apply, broadcastTo_a1_ab_apply, RowReduce.shapeCast_a_a1_apply, RowReduce.multiReduction_add_row]
  refine congr (congrArg Ideal.div (congrArg Ideal.exp (shifted_apply s hr hc hw hφ hmax p j))) ?_
  exact Finset.sum_congr rfl fun k _ => congrArg Ideal.exp (shifted_apply s hr hc hw hφ hmax p k)

/-- Two score columns laid side by side: row `p` is the pair of the two scores of row `p`. -/
theorem pairRow {T : ℕ} (c0 c1 : FVec Ideal ⟨2, ![T, 1]⟩ .f32)
    (hcat : Shape.Concatenates [(⟨2, ![T, 1]⟩ : Shape), ⟨2, ![T, 1]⟩] ⟨2, ![T, 2]⟩ (1 : Fin 2)) (p : Fin T) :
    (fun k => concatenate ⟨2, ![T, 2]⟩ (1 : Fin 2) [⟨⟨2, ![T, 1]⟩, c0⟩, ⟨⟨2, ![T, 1]⟩, c1⟩] hcat (ix2 p k))
      = pair (c0 (ix2 p (0 : Fin 1))) (c1 (ix2 p (0 : Fin 1))) := by
  funext k
  rw [concat2_apply (show 1 + 1 = 2 from rfl)]
  have e0 : (fun j : Fin 1 => c0 (ix2 p j)) = fun _ => c0 (ix2 p (0 : Fin 1)) :=
    funext fun j => congrArg (fun t => c0 (ix2 p t)) (Subsingleton.elim j 0)
  have e1 : (fun j : Fin 1 => c1 (ix2 p j)) = fun _ => c1 (ix2 p (0 : Fin 1)) :=
    funext fun j => congrArg (fun t => c1 (ix2 p t)) (Subsingleton.elim j 0)
  rw [e0, e1]
  rfl

/-- Three score columns laid side by side: row `p` is the triple of the three scores of row `p`. -/
theorem tripleRow {T : ℕ} (c0 c1 c2 : FVec Ideal ⟨2, ![T, 1]⟩ .f32)
    (hcat : Shape.Concatenates [(⟨2, ![T, 1]⟩ : Shape), ⟨2, ![T, 1]⟩, ⟨2, ![T, 1]⟩] ⟨2, ![T, 3]⟩ (1 : Fin 2)) (p : Fin T) :
    (fun k => concatenate ⟨2, ![T, 3]⟩ (1 : Fin 2)
        [⟨⟨2, ![T, 1]⟩, c0⟩, ⟨⟨2, ![T, 1]⟩, c1⟩, ⟨⟨2, ![T, 1]⟩, c2⟩] hcat (ix2 p k))
      = triple (c0 (ix2 p (0 : Fin 1))) (c1 (ix2 p (0 : Fin 1))) (c2 (ix2 p (0 : Fin 1))) := by
  funext k
  rw [concat3_apply (show 1 + 1 + 1 = 3 from rfl)]
  have e0 : (fun j : Fin 1 => c0 (ix2 p j)) = fun _ => c0 (ix2 p (0 : Fin 1)) :=
    funext fun j => congrArg (fun t => c0 (ix2 p t)) (Subsingleton.elim j 0)
  have e1 : (fun j : Fin 1 => c1 (ix2 p j)) = fun _ => c1 (ix2 p (0 : Fin 1)) :=
    funext fun j => congrArg (fun t => c1 (ix2 p t)) (Subsingleton.elim j 0)
  have e2 : (fun j : Fin 1 => c2 (ix2 p j)) = fun _ => c2 (ix2 p (0 : Fin 1)) :=
    funext fun j => congrArg (fun t => c2 (ix2 p t)) (Subsingleton.elim j 0)
  rw [e0, e1, e2]
  rfl

/-- One column of a short array, sliced out, spread over 64 lanes and multiplied into a head: at `(p, q)` the
    column's entry of row `p` times the head's entry. -/
theorem scaled_apply {T n : ℕ} (sm : FVec Ideal ⟨2, ![T, n]⟩ .f32) (o : FVec Ideal ⟨2, ![T, 64]⟩ .f32)
    (off : Fin 2 → ℕ) (col : Fin n) (h0 : off 0 = 0) (h1 : off 1 = col.val)
    (hs : (⟨2, ![T, n]⟩ : Shape).Slices off ⟨2, ![T, 1]⟩) (hb : (⟨2, ![T, 1]⟩ : Shape).Broadcasts ⟨2, ![T, 64]⟩)
    (p : Fin T) (q : Fin 64) :
    mulf (broadcastTo ⟨2, ![T, 64]⟩ (extractStridedSlice ⟨2, ![T, 1]⟩ off sm hs) hb) o (ix2 p q)
      = sm (ix2 p col) * o (ix2 p q) := by
  rw [mulf_apply, broadcastTo_a1_ab_apply, extractStridedSlice_column_apply off col h0 h1]

/-- The history stage: the two-way softmax of the two score columns, its two columns scaling the first two heads,
    summed. At `(p, q)` it is the history row of row `p`. -/
theorem history_apply {T : ℕ} (c0 c1 : FVec Ideal ⟨2, ![T, 1]⟩ .f32) (o0 o1 : FVec Ideal ⟨2, ![T, 64]⟩ .f32)
    (hcat : Shape.Concatenates [(⟨2, ![T, 1]⟩ : Shape), ⟨2, ![T, 1]⟩] ⟨2, ![T, 2]⟩ (1 : Fin 2))
    (hr : (⟨2, ![T, 2]⟩ : Shape).Reduces [1] ⟨1, ![T]⟩)
    (hc : (⟨1, ![T]⟩ : Shape).ShapeCasts ⟨2, ![T, 1]⟩)
    (hw : (⟨2, ![T, 1]⟩ : Shape).Broadcasts ⟨2, ![T, 2]⟩)
    (hφ : FKind.Formats .f32)
    (hmax : (0xFF800000#32 : BitVec FTy.f32.bits) = FKind.maximumf.neutral .f32 hφ)
    (hadd : (0x00000000#32 : BitVec FTy.f32.bits) = FKind.add.neutral .f32 hφ)
    (hs0 : (⟨2, ![T, 2]⟩ : Shape).Slices ![0, 0] ⟨2, ![T, 1]⟩)
    (hs1 : (⟨2, ![T, 2]⟩ : Shape).Slices ![0, 1] ⟨2, ![T, 1]⟩)
    (hb : (⟨2, ![T, 1]⟩ : Shape).Broadcasts ⟨2, ![T, 64]⟩) (p : Fin T) (q : Fin 64) :
    addf
        (mulf (broadcastTo ⟨2, ![T, 64]⟩ (extractStridedSlice ⟨2, ![T, 1]⟩ ![0, 0]
          (softmaxK (concatenate ⟨2, ![T, 2]⟩ (1 : Fin 2) [⟨⟨2, ![T, 1]⟩, c0⟩, ⟨⟨2, ![T, 1]⟩, c1⟩] hcat)
            hr hc hw hφ hmax hadd) hs0) hb) o0)
        (mulf (broadcastTo ⟨2, ![T, 64]⟩ (extractStridedSlice ⟨2, ![T, 1]⟩ ![0, 1]
          (softmaxK (concatenate ⟨2, ![T, 2]⟩ (1 : Fin 2) [⟨⟨2, ![T, 1]⟩, c0⟩, ⟨⟨2, ![T, 1]⟩, c1⟩] hcat)
            hr hc hw hφ hmax hadd) hs1) hb) o1) (ix2 p q)
      = history (c0 (ix2 p (0 : Fin 1))) (c1 (ix2 p (0 : Fin 1))) (fun j => o0 (ix2 p j)) (fun j => o1 (ix2 p j)) q := by
  rw [addf_apply, scaled_apply _ o0 ![0, 0] (0 : Fin 2) rfl rfl, scaled_apply _ o1 ![0, 1] (1 : Fin 2) rfl rfl,
    softmaxK_apply, softmaxK_apply, pairRow]
  rfl

/-- The combined stage: the three-way softmax of the three score columns, its columns scaling the three heads, the
    scaled heads laid end to end. At `(p, k)` it is the combined row of row `p`. -/
theorem combined_apply {T : ℕ} (c0 c1 c2 : FVec Ideal ⟨2, ![T, 1]⟩ .f32) (o0 o1 o2 : FVec Ideal ⟨2, ![T, 64]⟩ .f32)
    (hcat : Shape.Concatenates [(⟨2, ![T, 1]⟩ : Shape), ⟨2, ![T, 1]⟩, ⟨2, ![T, 1]⟩] ⟨2, ![T, 3]⟩ (1 : Fin 2))
    (hr : (⟨2, ![T, 3]⟩ : Shape).Reduces [1] ⟨1, ![T]⟩)
    (hc : (⟨1, ![T]⟩ : Shape).ShapeCasts ⟨2, ![T, 1]⟩)
    (hw : (⟨2, ![T, 1]⟩ : Shape).Broadcasts ⟨2, ![T, 3]⟩)
    (hφ : FKind.Formats .f32)
    (hmax : (0xFF800000#32 : BitVec FTy.f32.bits) = FKind.maximumf.neutral .f32 hφ)
    (hadd : (0x00000000#32 : BitVec FTy.f32.bits) = FKind.add.neutral .f32 hφ)
    (hs0 : (⟨2, ![T, 3]⟩ : Shape).Slices ![0, 0] ⟨2, ![T, 1]⟩)
    (hs1 : (⟨2, ![T, 3]⟩ : Shape).Slices ![0, 1] ⟨2, ![T, 1]⟩)
    (hs2 : (⟨2, ![T, 3]⟩ : Shape).Slices ![0, 2] ⟨2, ![T, 1]⟩)
    (hb : (⟨2, ![T, 1]⟩ : Shape).Broadcasts ⟨2, ![T, 64]⟩)
    (hj : Shape.Concatenates [(⟨2, ![T, 64]⟩ : Shape), ⟨2, ![T, 64]⟩, ⟨2, ![T, 64]⟩] ⟨2, ![T, 192]⟩ (1 : Fin 2))
    (p : Fin T) (k : Fin 192) :
    concatenate ⟨2, ![T, 192]⟩ (1 : Fin 2)
        [⟨⟨2, ![T, 64]⟩, mulf (broadcastTo ⟨2, ![T, 64]⟩ (extractStridedSlice ⟨2, ![T, 1]⟩ ![0, 0]
            (softmaxK (concatenate ⟨2, ![T, 3]⟩ (1 : Fin 2)
              [⟨⟨2, ![T, 1]⟩, c0⟩, ⟨⟨2, ![T, 1]⟩, c1⟩, ⟨⟨2, ![T, 1]⟩, c2⟩] hcat) hr hc hw hφ hmax hadd) hs0) hb) o0⟩,
         ⟨⟨2, ![T, 64]⟩, mulf (broadcastTo ⟨2, ![T, 64]⟩ (extractStridedSlice ⟨2, ![T, 1]⟩ ![0, 1]
            (softmaxK (concatenate ⟨2, ![T, 3]⟩ (1 : Fin 2)
              [⟨⟨2, ![T, 1]⟩, c0⟩, ⟨⟨2, ![T, 1]⟩, c1⟩, ⟨⟨2, ![T, 1]⟩, c2⟩] hcat) hr hc hw hφ hmax hadd) hs1) hb) o1⟩,
         ⟨⟨2, ![T, 64]⟩, mulf (broadcastTo ⟨2, ![T, 64]⟩ (extractStridedSlice ⟨2, ![T, 1]⟩ ![0, 2]
            (softmaxK (concatenate ⟨2, ![T, 3]⟩ (1 : Fin 2)
              [⟨⟨2, ![T, 1]⟩, c0⟩, ⟨⟨2, ![T, 1]⟩, c1⟩, ⟨⟨2, ![T, 1]⟩, c2⟩] hcat) hr hc hw hφ hmax hadd) hs2) hb) o2⟩]
        hj (ix2 p k)
      = combined (c0 (ix2 p (0 : Fin 1))) (c1 (ix2 p (0 : Fin 1))) (c2 (ix2 p (0 : Fin 1)))
          (fun j => o0 (ix2 p j)) (fun j => o1 (ix2 p j)) (fun j => o2 (ix2 p j)) k := by
  rw [concat3_apply (show 64 + 64 + 64 = 192 from rfl)]
  unfold combined
  refine congrFun (congr (congr (congrArg (join3 (show 64 + 64 + 64 = 192 from rfl)) (funext fun q => ?_))
    (funext fun q => ?_)) (funext fun q => ?_)) k
  · rw [scaled_apply _ o0 ![0, 0] (0 : Fin 3) rfl rfl, softmaxK_apply, tripleRow]
  · rw [scaled_apply _ o1 ![0, 1] (1 : Fin 3) rfl rfl, softmaxK_apply, tripleRow]
  · rw [scaled_apply _ o2 ![0, 2] (2 : Fin 3) rfl rfl, softmaxK_apply, tripleRow]

/-- The logits: the product of the narrowed joined rows with the narrowed weights into the zero accumulator, plus
    the spread bias row. -/
theorem logits_apply {T K N : ℕ} {ψ₁ ψ₂ : FTy} (d : DotDims ⟨2, ![T, K]⟩ ⟨2, ![K, N]⟩ ⟨2, ![T, N]⟩)
    (hd : d = DotDims.plain T K N) (prec : Option ContractPrecision)
    (x : FVec Ideal ⟨2, ![T, K]⟩ .f32) (w : FVec Ideal ⟨2, ![K, N]⟩ .f32) (br : FVec Ideal ⟨2, ![1, N]⟩ .f32)
    (h₁ : ψ₁.bits < FTy.f32.bits) (h₂ : ψ₂.bits < FTy.f32.bits)
    (hc : (⟨2, ![1, N]⟩ : Shape).ShapeCasts ⟨2, ![1, N]⟩) (hb : (⟨2, ![1, N]⟩ : Shape).Broadcasts ⟨2, ![T, N]⟩)
    (p : Fin T) (q : Fin N) :
    addf (FloatOps.matmul d prec (truncf ψ₁ x h₁) (truncf ψ₂ w h₂) (constant ⟨2, ![T, N]⟩ .f32 0x00000000#32))
        (broadcastTo ⟨2, ![T, N]⟩ (shapeCast ⟨2, ![1, N]⟩ br hc) hb) (ix2 p q)
      = (∑ k : Fin K, x (ix2 p k) * w (ix2 k q)) + br (ix2 (0 : Fin 1) q) := by
  rw [addf_apply, Tile.narrowedProduct_apply d hd, Tile.spreadRow_apply]

/-- The body's spelling of a log-softmax along the rows of a tile. -/
def logSoftmaxK {T n : ℕ} (z : FVec Ideal ⟨2, ![T, n]⟩ .f32)
    (hr : (⟨2, ![T, n]⟩ : Shape).Reduces [1] ⟨1, ![T]⟩)
    (hc : (⟨1, ![T]⟩ : Shape).ShapeCasts ⟨2, ![T, 1]⟩)
    (hw : (⟨2, ![T, 1]⟩ : Shape).Broadcasts ⟨2, ![T, n]⟩)
    (hφ : FKind.Formats .f32)
    (hmax : (0xFF800000#32 : BitVec FTy.f32.bits) = FKind.maximumf.neutral .f32 hφ)
    (hadd : (0x00000000#32 : BitVec FTy.f32.bits) = FKind.add.neutral .f32 hφ) : FVec Ideal ⟨2, ![T, n]⟩ .f32 :=
  subf (subf z (broadcastTo ⟨2, ![T, n]⟩ (shapeCast ⟨2, ![T, 1]⟩
      (maximumf (broadcast ⟨1, ![T]⟩ (Scalar.ofBits (F := Ideal) .f32 0xFF800000#32))
        (multiReduction (F := Ideal) .maximumf [1] ⟨1, ![T]⟩ z 0xFF800000#32 hr hφ hmax)) hc) hw))
    (broadcastTo ⟨2, ![T, n]⟩ (log (shapeCast ⟨2, ![T, 1]⟩
      (multiReduction (F := Ideal) .add [1] ⟨1, ![T]⟩
        (exp (subf z (broadcastTo ⟨2, ![T, n]⟩ (shapeCast ⟨2, ![T, 1]⟩
          (maximumf (broadcast ⟨1, ![T]⟩ (Scalar.ofBits (F := Ideal) .f32 0xFF800000#32))
            (multiReduction (F := Ideal) .maximumf [1] ⟨1, ![T]⟩ z 0xFF800000#32 hr hφ hmax)) hc) hw)))
        0x00000000#32 hr hφ hadd) hc)) hw)

/-- The body's log-softmax at `(p, q)` is the log-softmax of row `p` at position `q`. -/
theorem logSoftmaxK_apply {T n : ℕ} (z : FVec Ideal ⟨2, ![T, n]⟩ .f32)
    (hr : (⟨2, ![T, n]⟩ : Shape).Reduces [1] ⟨1, ![T]⟩)
    (hc : (⟨1, ![T]⟩ : Shape).ShapeCasts ⟨2, ![T, 1]⟩)
    (hw : (⟨2, ![T, 1]⟩ : Shape).Broadcasts ⟨2, ![T, n]⟩)
    (hφ : FKind.Formats .f32)
    (hmax : (0xFF800000#32 : BitVec FTy.f32.bits) = FKind.maximumf.neutral .f32 hφ)
    (hadd : (0x00000000#32 : BitVec FTy.f32.bits) = FKind.add.neutral .f32 hφ) (p : Fin T) (q : Fin n) :
    logSoftmaxK z hr hc hw hφ hmax hadd (ix2 p q) = GraphConvLayers.rowLogSoftmax (fun k => z (ix2 p k)) q := by
  unfold logSoftmaxK GraphConvLayers.rowLogSoftmax
  rw [subf_apply, shifted_apply, broadcastTo_a1_ab_apply]
  show _ - Ideal.log (shapeCast ⟨2, ![T, 1]⟩ _ hc (ix2 p (0 : Fin 1))) = _
  rw [RowReduce.shapeCast_a_a1_apply, RowReduce.multiReduction_add_row]
  refine congrArg (fun t => (z (ix2 p q) - GraphConvLayers.rowMax fun k => z (ix2 p k)) - Ideal.log t) ?_
  exact Finset.sum_congr rfl fun k _ => congrArg Ideal.exp (shifted_apply z hr hc hw hφ hmax p k)

/-! ## The body's payloads, each read at an entry -/

/-- A block cast to its own shape is the block. -/
theorem pay1_eq (v6 : Vec Ideal S2000x64 .f32) : k1_pay1 (F := Ideal) v6 = v6 := by
  unfold k1_pay1
  exact shapeCast_self v6 _

/-- A bias row cast to its own shape is the row. -/
theorem pay2_eq (v18 : Vec Ideal S1x64 .f32) : k1_pay2 (F := Ideal) v18 = v18 := by
  unfold k1_pay2
  exact shapeCast_self v18 _

/-- The first head of the tile at `(p, q)` is the head of the tile's row `p`. -/
theorem pay3_apply (v0 : Vec Ideal S2000x128 .f32) (v8 : Vec Ideal S128x64 .f32) (v14 : Vec Ideal S1x64 .f32)
    (p : Fin 2000) (q : Fin 64) :
    k1_pay3 (F := Ideal) v0 v8 v14 (ix2 p q)
      = head (fun k => v0 (ix2 p k)) v8 (fun j => v14 (ix2 (0 : Fin 1) j)) q := by
  unfold k1_pay3
  refine (Tile.head_apply _ rfl none (shapeCast S2000x128 v0 shapeCasts_S2000x128_S2000x128) v8 v14 _ _ _ _ p q).trans ?_
  rw [shapeCast_self]

/-- The second head of the tile at `(p, q)` is the head of the tile's row `p`. -/
theorem pay4_apply (v2 : Vec Ideal S2000x256 .f32) (v10 : Vec Ideal S256x64 .f32) (v16 : Vec Ideal S1x64 .f32)
    (p : Fin 2000) (q : Fin 64) :
    k1_pay4 (F := Ideal) v2 v10 v16 (ix2 p q)
      = head (fun k => v2 (ix2 p k)) v10 (fun j => v16 (ix2 (0 : Fin 1) j)) q := by
  unfold k1_pay4
  refine (Tile.head_apply _ rfl none (shapeCast S2000x256 v2 shapeCasts_S2000x256_S2000x256) v10 v16 _ _ _ _ p q).trans ?_
  rw [shapeCast_self]

/-- A product plus a spread one-row array, compared with zero. -/
theorem biasedRelu_apply {T N : ℕ} (m : FVec Ideal ⟨2, ![T, N]⟩ .f32) (br : FVec Ideal ⟨2, ![1, N]⟩ .f32)
    (hb : (⟨2, ![1, N]⟩ : Shape).Broadcasts ⟨2, ![T, N]⟩) (p : Fin T) (q : Fin N) :
    maximumf (addf m (broadcastTo ⟨2, ![T, N]⟩ br hb))
        (broadcast ⟨2, ![T, N]⟩ (Scalar.ofBits (F := Ideal) .f32 0x00000000#32)) (ix2 p q)
      = max (m (ix2 p q) + br (ix2 (0 : Fin 1) q)) zeroW := by
  rw [maximumf_apply, addf_apply, broadcast_apply, broadcastTo_1b_ab_apply]
  rfl

/-- The third head of the tile (its product formed in one payload, the bias and the comparison with zero in another)
    at `(p, q)` is the head of the tile's row `p`. -/
theorem pay6_apply (v19 : FVec Ideal S1x64 .f32) (v4 : Vec Ideal S2000x512 .f32) (v12 : Vec Ideal S512x64 .f32)
    (p : Fin 2000) (q : Fin 64) :
    k1_pay6 (F := Ideal) v19 (k1_pay5 (F := Ideal) v4 v12) (ix2 p q)
      = head (fun k => v4 (ix2 p k)) v12 (fun j => v19 (ix2 (0 : Fin 1) j)) q := by
  unfold k1_pay6 k1_pay5
  refine (biasedRelu_apply _ v19 _ p q).trans ?_
  unfold head
  refine congrArg (fun t => max (t + v19 (ix2 (0 : Fin 1) q)) zeroW) ?_
  refine (Tile.narrowedProduct_apply _ rfl none (shapeCast S2000x512 v4 shapeCasts_S2000x512_S2000x512) v12 _ _ p q).trans ?_
  rw [shapeCast_self]

/-- The first score column at row `p`: the score of the first head's row and the feature row. -/
theorem pay9_apply (v7 v25 : FVec Ideal S2000x64 .f32) (v38 : Vec Ideal S1x128 .f32) (v40 : Vec Ideal S1x1 .f32)
    (p : Fin 2000) (z : Fin 1) :
    k1_pay9 (F := Ideal) v7 v25 v38 v40 (ix2 p z)
      = score (fun k => v38 (ix2 (0 : Fin 1) k)) (v40 (ix2 (0 : Fin 1) (0 : Fin 1))) (fun j => v25 (ix2 p j))
          (fun j => v7 (ix2 p j)) := by
  unfold k1_pay9 k1_pay7 k1_pay8
  exact score_apply v25 v7 v38 v40 _ _ _ _ _ _ _ _ _ p z

/-- The second score column at row `p`: the score of the first two heads' rows. -/
theorem pay10_apply (v25 v31 : FVec Ideal S2000x64 .f32) (v38 : Vec Ideal S1x128 .f32) (v40 : Vec Ideal S1x1 .f32)
    (p : Fin 2000) (z : Fin 1) :
    k1_pay10 (F := Ideal) v25 v31 v38 v40 (ix2 p z)
      = score (fun k => v38 (ix2 (0 : Fin 1) k)) (v40 (ix2 (0 : Fin 1) (0 : Fin 1))) (fun j => v25 (ix2 p j))
          (fun j => v31 (ix2 p j)) := by
  unfold k1_pay10 k1_pay7 k1_pay8
  exact score_apply v25 v31 v38 v40 _ _ _ _ _ _ _ _ _ p z

/-- The third score's weighted sum at row `p`: the history row of row `p` joined with the third head's row, against
    the weight row. -/
theorem pay11_apply (v7 : FVec Ideal S2000x64 .f32) (v19 : FVec Ideal S1x64 .f32) (v25 v31 v33 : FVec Ideal S2000x64 .f32)
    (v38 : Vec Ideal S1x128 .f32) (v40 : Vec Ideal S1x1 .f32) (p : Fin 2000) (z : Fin 1) :
    k1_pay11 (F := Ideal) v7 v19 v25 v31 v33 v38 v40 (ix2 p z)
      = ∑ k : Fin 128, join2 (show 64 + 64 = 128 from rfl)
          (history (k1_pay9 (F := Ideal) v7 v25 v38 v40 (ix2 p (0 : Fin 1)))
            (k1_pay10 (F := Ideal) v25 v31 v38 v40 (ix2 p (0 : Fin 1))) (fun j => v25 (ix2 p j)) (fun j => v31 (ix2 p j)))
          (fun j => k1_pay6 (F := Ideal) v19 v33 (ix2 p j)) k * v38 (ix2 (0 : Fin 1) k) := by
  unfold k1_pay11 k1_pay7
  refine (weightedSum_apply _ (k1_pay6 (F := Ideal) v19 v33) v38 _ _ _ _ _ _ _ p z).trans ?_
  refine Finset.sum_congr rfl fun k _ => ?_
  refine congrArg (fun f => join2 (show 64 + 64 = 128 from rfl) f (fun j => k1_pay6 (F := Ideal) v19 v33 (ix2 p j)) k
    * v38 (ix2 (0 : Fin 1) k)) (funext fun q => ?_)
  exact history_apply (k1_pay9 (F := Ideal) v7 v25 v38 v40) (k1_pay10 (F := Ideal) v25 v31 v38 v40) v25 v31
    _ _ _ _ _ _ _ _ _ _ p q

/-- The score's offset spread over the rows of a column. -/
theorem pay12_apply (v40 : Vec Ideal S1x1 .f32) (p : Fin 2000) (z : Fin 1) :
    k1_pay12 (F := Ideal) v40 (ix2 p z) = v40 (ix2 (0 : Fin 1) (0 : Fin 1)) := by
  unfold k1_pay12 k1_pay8
  exact spreadOne_apply v40 _ _ p z

/-- The last payload at `(p, q)`: the log-softmax of the logits of row `p`, the logits being the combined row of
    row `p` against the read-out weights plus the bias row; the third score is the sigmoid of the sum and offset it
    is handed. -/
theorem pay13_apply (v25 v31 v37 : FVec Ideal S2000x64 .f32) (v49 v57 v81 v82 : FVec Ideal S2000x1 .f32)
    (v108 : Vec Ideal S192x64 .f32) (v110 : Vec Ideal S1x64 .f32) (p : Fin 2000) (q : Fin 64) :
    k1_pay13 (F := Ideal) v25 v31 v37 v49 v57 v81 v82 v108 v110 (ix2 p q)
      = GraphConvLayers.rowLogSoftmax (fun q' => (∑ k : Fin 192,
          combined (v49 (ix2 p (0 : Fin 1))) (v57 (ix2 p (0 : Fin 1)))
            (Ideal.logistic (v81 (ix2 p (0 : Fin 1)) + v82 (ix2 p (0 : Fin 1))))
            (fun j => v25 (ix2 p j)) (fun j => v31 (ix2 p j)) (fun j => v37 (ix2 p j)) k * v108 (ix2 k q'))
          + v110 (ix2 (0 : Fin 1) q')) q := by
  unfold k1_pay13
  refine (logSoftmaxK_apply _ _ _ _ _ _ _ p q).trans ?_
  refine congrArg (fun f => GraphConvLayers.rowLogSoftmax f q) (funext fun q' => ?_)
  refine (logits_apply _ rfl none _ v108 v110 _ _ _ _ p q').trans ?_
  refine congrArg (fun t => t + v110 (ix2 (0 : Fin 1) q')) (Finset.sum_congr rfl fun k _ => ?_)
  refine congrArg (fun t => t * v108 (ix2 k q')) ?_
  exact combined_apply v49 v57 (logistic (addf v81 v82)) v25 v31 v37 _ _ _ _ _ _ _ _ _ _ _ _ p k

/-! ## The body's output block is the read-out of the tile -/

/-- The zero offsets of a whole-block load or store, however spelt. -/
theorem zeroOffsets : (![0, 0] : Fin 2 → Nat) = fun _ => 0 := funext fun a => by fin_cases a <;> rfl

/-- What the second body leaves in its output block is the hop-attention read-out of every row of the tile. -/
theorem out1_14_eq (x0 : Vec Ideal S2000x128 .f32) (x1 : Vec Ideal S2000x256 .f32) (x2 : Vec Ideal S2000x512 .f32)
    (x3 : Vec Ideal S2000x64 .f32) (x4 : Vec Ideal S128x64 .f32) (x5 : Vec Ideal S1x64 .f32)
    (x6 : Vec Ideal S256x64 .f32) (x7 : Vec Ideal S1x64 .f32) (x8 : Vec Ideal S512x64 .f32) (x9 : Vec Ideal S1x64 .f32)
    (x10 : Vec Ideal S1x128 .f32) (x11 : Vec Ideal S1x1 .f32) (x12 : Vec Ideal S192x64 .f32) (x13 : Vec Ideal S1x64 .f32) :
    Cert.KernelIdeal.Gen.out1_14 (F := Ideal) x0 x1 x2 x3 x4 x5 x6 x7 x8 x9 x10 x11 x12 x13
      = HopAttn.outTile x0 x1 x2 x3 x4 x5 x6 x7 x8 x9 x10 x11 x12 x13 := by
  unfold Gen.out1_14
  rw [View.canon_unit_zero zeroOffsets]
  simp only [View.ld_unit_zero (S := S2000x128) zeroOffsets, View.ld_unit_zero (S := S2000x256) zeroOffsets,
    View.ld_unit_zero (S := S2000x512) zeroOffsets, View.ld_unit_zero (S := S2000x64) zeroOffsets,
    View.ld_unit_zero (S := S128x64) zeroOffsets, View.ld_unit_zero (S := S256x64) zeroOffsets,
    View.ld_unit_zero (S := S512x64) zeroOffsets, View.ld_unit_zero (S := S1x64) zeroOffsets,
    View.ld_unit_zero (S := S1x128) zeroOffsets, View.ld_unit_zero (S := S1x1) zeroOffsets,
    View.ld_unit_zero (S := S192x64) zeroOffsets]
  funext i
  obtain ⟨p, q, rfl⟩ : ∃ (p : Fin 2000) (q : Fin 64), i = ix2 p q := ⟨i 0, i 1, eq_ix2 i⟩
  rw [outTile_apply, pay13_apply, pay11_apply, pay12_apply, pay9_apply, pay10_apply, pay1_eq, pay2_eq]
  have h3 : (fun j => k1_pay3 (F := Ideal) x0 x4 x5 (ix2 p j))
      = head (fun k => x0 (ix2 p k)) x4 (fun j => x5 (ix2 (0 : Fin 1) j)) := funext fun j => pay3_apply x0 x4 x5 p j
  have h4 : (fun j => k1_pay4 (F := Ideal) x1 x6 x7 (ix2 p j))
      = head (fun k => x1 (ix2 p k)) x6 (fun j => x7 (ix2 (0 : Fin 1) j)) := funext fun j => pay4_apply x1 x6 x7 p j
  have h6 : (fun j => k1_pay6 (F := Ideal) x9 (k1_pay5 (F := Ideal) x2 x8) (ix2 p j))
      = head (fun k => x2 (ix2 p k)) x8 (fun j => x9 (ix2 (0 : Fin 1) j)) := funext fun j => pay6_apply x9 x2 x8 p j
  rw [h3, h4, h6]
  rfl

end Cert.KernelIdeal.Body2

end
-- ==== Proof.lean ====
/-
  The kernel computes, for 50000 nodes and 400000 edges, a three-block jumping-knowledge network with hop attention:
  a dense projection of the node features, six mean-aggregation hops over the graph joined in pairs into three arrays,
  one dense head per array, three sigmoid attention scores chained through a softmax-weighted history, a
  softmax-weighted join of the heads, a last projection and a log-softmax. The kernel does the two dense parts in two
  pipelined regions over blocks of 2000 nodes and the graph part on the host between them; the reference does
  everything on the host.

  At the ideal values the two agree entry by entry. The graph part is the same operations on both sides. Every dense
  stage depends on a node's own rows only, so a block of nodes gives the same rows as the whole array, and the blocks
  cover the arrays. The kernel narrows matmul operands to bf16 (the identity here), computes each score as a product
  with the weight row summed along the row (the same sum as the reference's product with the weight column), and
  starts its history at the first head, where the reference takes a softmax over the single first score: that softmax
  is identically one, because a sigmoid value is a real number, and one times the head plus zero is the head. No
  finiteness of the inputs is used.

  The three frames: the kernel's and the idealized kernel's are generated whole; the reference's is its run with the
  result dropped. The ideal pass rewrote nothing, so the idealization claim is trivial.
-/
import proofs.«181484_j20667382628944_2_alg».proof.Defs
import proofs.«181484_j20667382628944_2_alg».proof.Proof.Gen.Kernel
import proofs.«181484_j20667382628944_2_alg».proof.Proof.Gen.Kernel.Skeleton
import proofs.«181484_j20667382628944_2_alg».proof.Proof.Gen.Kernel.Launch
import proofs.«181484_j20667382628944_2_alg».proof.Proof.Gen.Kernel.Points
import proofs.«181484_j20667382628944_2_alg».proof.Proof.Gen.Kernel.Frame
import proofs.«181484_j20667382628944_2_alg».proof.Proof.Gen.KernelIdeal
import proofs.«181484_j20667382628944_2_alg».proof.Proof.Gen.KernelIdeal.Skeleton
import proofs.«181484_j20667382628944_2_alg».proof.Proof.Gen.KernelIdeal.Launch
import proofs.«181484_j20667382628944_2_alg».proof.Proof.Gen.KernelIdeal.Points
import proofs.«181484_j20667382628944_2_alg».proof.Proof.Gen.KernelIdeal.Frame
import proofs.«181484_j20667382628944_2_alg».proof.Proof.Gen.ReferenceIdeal
import proofs.«181484_j20667382628944_2_alg».proof.Proof.Gen.Pre_finite_inputs
import proofs.«181484_j20667382628944_2_alg».proof.Proof.KernelValue
import proofs.«181484_j20667382628944_2_alg».proof.Proof.RefValue
import proofs.«181484_j20667382628944_2_alg».proof.Proof.RefTail
import proofs.«181484_j20667382628944_2_alg».proof.Proof.RefTailLate
import proofs.«181484_j20667382628944_2_alg».proof.Proof.Body2
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- Both runs end with the result at the reference's last stage of the arguments: the kernel's by reading its result
    back through its two regions and two host stretches, the reference's by composing its stages; the arguments agree. -/
theorem algebraic : Cert.algebraic_KernelIdeal_ReferenceIdeal := by
  intro m ρ m' ρ' _ hagree
  refine ⟨fun c => Cert.ReferenceIdeal.ReadP.val_main_v202 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Named.value m ρ Cert.KernelIdeal.Body2.out1_14_eq
          Cert.ReferenceIdeal.RefTail.features_eq Cert.ReferenceIdeal.RefTailLate.tail_eq c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.RefValue.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
